-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_scale" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x8x8x64 : Shape := ⟨5, ![1, 64, 8, 8, 64]⟩
abbrev S1536x64 : Shape := ⟨2, ![1536, 64]⟩
abbrev S1536 : Shape := ⟨1, ![1536]⟩
abbrev S64x512 : Shape := ⟨2, ![64, 512]⟩
abbrev S64 : Shape := ⟨1, ![64]⟩
abbrev S_ : Shape := ⟨0, ![]⟩

class Facts : Prop where
  bcast_S_S1x64x8x8x64 : S_.BroadcastsInDim S1x64x8x8x64 (![] : Fin 0 → Fin S1x64x8x8x64.rank)
  reducesTo_S1x64x8x8x64_S_d0_1_2_3_4 : S1x64x8x8x64.ReducesTo [0, 1, 2, 3, 4] S_
  h_S_ : 0 < S_.numel
  bcast_S_S1536x64 : S_.BroadcastsInDim S1536x64 (![] : Fin 0 → Fin S1536x64.rank)
  reducesTo_S1536x64_S_d0_1 : S1536x64.ReducesTo [0, 1] S_
  bcast_S_S1536 : S_.BroadcastsInDim S1536 (![] : Fin 0 → Fin S1536.rank)
  reducesTo_S1536_S_d0 : S1536.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1x64x8x8x64 .f32) (main_arg1 : FVec F S1536x64 .f32) (main_arg2 : FVec F S1536 .f32) (main_arg3 : FVec F S64x512 .f32) (main_arg4 : FVec F S64 .f32) : IVec S_ 1 :=
  let main_v0 : FVec F S1x64x8x8x64 .f32 := Host.absf main_arg0
  let main_cst : FVec F S_ .f32 := constant S_ .f32 0x7F800000#32
  let main_v1 : FVec F S1x64x8x8x64 .f32 := broadcastInDim S1x64x8x8x64 ![] bcast_S_S1x64x8x8x64 main_cst
  let main_v2 : IVec S1x64x8x8x64 1 := cmpf .olt main_v0 main_v1
  let main_c : IVec S_ 1 := constantI S_ 1 1#1
  let main_v3 : IVec S_ 1 := (fun x v => Host.reduce IntOp.andi x v reducesTo_S1x64x8x8x64_S_d0_1_2_3_4 h_S_) main_v2 main_c
  let main_v4 : FVec F S1536x64 .f32 := Host.absf main_arg1
  let main_cst_0 : FVec F S_ .f32 := constant S_ .f32 0x7F800000#32
  let main_v5 : FVec F S1536x64 .f32 := broadcastInDim S1536x64 ![] bcast_S_S1536x64 main_cst_0
  let main_v6 : IVec S1536x64 1 := cmpf .olt main_v4 main_v5
  let main_c_1 : IVec S_ 1 := constantI S_ 1 1#1
  let main_v7 : IVec S_ 1 := (fun x v => Host.reduce IntOp.andi x v reducesTo_S1536x64_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S1x64x8x8x64 : Shape := ⟨5, ![1, 64, 8, 8, 64]⟩
abbrev S1536x64 : Shape := ⟨2, ![1536, 64]⟩
abbrev S1536 : Shape := ⟨1, ![1536]⟩
abbrev S64x512 : Shape := ⟨2, ![64, 512]⟩
abbrev S64 : Shape := ⟨1, ![64]⟩
abbrev S4096x64 : Shape := ⟨2, ![4096, 64]⟩
abbrev S64x1536 : Shape := ⟨2, ![64, 1536]⟩
abbrev S1x1536 : Shape := ⟨2, ![1, 1536]⟩
abbrev S4096x1536 : Shape := ⟨2, ![4096, 1536]⟩
abbrev S1024x64 : Shape := ⟨2, ![1024, 64]⟩
abbrev S1024x1536 : Shape := ⟨2, ![1024, 1536]⟩
abbrev S1x64x8x8x1536 : Shape := ⟨5, ![1, 64, 8, 8, 1536]⟩
abbrev S1x8x8x64x3x8x64 : Shape := ⟨7, ![1, 8, 8, 64, 3, 8, 64]⟩
abbrev S3x1x8x8x64x8x64 : Shape := ⟨7, ![3, 1, 8, 8, 64, 8, 64]⟩
abbrev S3x8x4096x64 : Shape := ⟨4, ![3, 8, 4096, 64]⟩
abbrev S1x8x4096x64 : Shape := ⟨4, ![1, 8, 4096, 64]⟩
abbrev S8x4096x64 : Shape := ⟨3, ![8, 4096, 64]⟩
abbrev S8x64x4096 : Shape := ⟨3, ![8, 64, 4096]⟩
abbrev S1x1024x64 : Shape := ⟨3, ![1, 1024, 64]⟩
abbrev S1x4096x64 : Shape := ⟨3, ![1, 4096, 64]⟩
abbrev S1x64x1024 : Shape := ⟨3, ![1, 64, 1024]⟩
abbrev S1024x1 : Shape := ⟨2, ![1024, 1]⟩
abbrev S1024x1024 : Shape := ⟨2, ![1024, 1024]⟩
abbrev S1024 : Shape := ⟨1, ![1024]⟩
abbrev S64x1024 : Shape := ⟨2, ![64, 1024]⟩
abbrev S1x8x8x8x64x64 : Shape := ⟨6, ![1, 8, 8, 8, 64, 64]⟩
abbrev S1x4096x512 : Shape := ⟨3, ![1, 4096, 512]⟩
abbrev S512x64 : Shape := ⟨2, ![512, 64]⟩
abbrev S4096x512 : Shape := ⟨2, ![4096, 512]⟩
abbrev S1x64 : Shape := ⟨2, ![1, 64]⟩
abbrev S512x512 : Shape := ⟨2, ![512, 512]⟩

abbrev nBuf : Space → Nat
  | .hbm => 28
  | .vmem => 23
  | .smem => 0
  | _ => 0

abbrev bufTy : (tb : Table) → Fin (tcTables nBuf tb) → BufTy
  | .hbm, ⟨0, _⟩ => ⟨S1x64x8x8x64, .f32⟩
  | .hbm, ⟨1, _⟩ => ⟨S1536x64, .f32⟩
  | .hbm, ⟨2, _⟩ => ⟨S1536, .f32⟩
  | .hbm, ⟨3, _⟩ => ⟨S64x512, .f32⟩
  | .hbm, ⟨4, _⟩ => ⟨S64, .f32⟩
  | .hbm, ⟨5, _⟩ => ⟨S4096x64, .f32⟩
  | .hbm, ⟨6, _⟩ => ⟨S64x1536, .f32⟩
  | .hbm, ⟨7, _⟩ => ⟨S1x1536, .f32⟩
  | .hbm, ⟨8, _⟩ => ⟨S4096x1536, .bf16⟩
  | .hbm, ⟨9, _⟩ => ⟨S1x64x8x8x1536, .bf16⟩
  | .hbm, ⟨10, _⟩ => ⟨S1x8x8x64x3x8x64, .bf16⟩
  | .hbm, ⟨11, _⟩ => ⟨S3x1x8x8x64x8x64, .bf16⟩
  | .hbm, ⟨12, _⟩ => ⟨S3x8x4096x64, .bf16⟩
  | .hbm, ⟨13, _⟩ => ⟨S1x8x4096x64, .bf16⟩
  | .hbm, ⟨14, _⟩ => ⟨S8x4096x64, .bf16⟩
  | .hbm, ⟨15, _⟩ => ⟨S1x8x4096x64, .bf16⟩
  | .hbm, ⟨16, _⟩ => ⟨S8x4096x64, .bf16⟩
  | .hbm, ⟨17, _⟩ => ⟨S1x8x4096x64, .bf16⟩
  | .hbm, ⟨18, _⟩ => ⟨S8x4096x64, .bf16⟩
  | .hbm, ⟨19, _⟩ => ⟨S8x64x4096, .bf16⟩
  | .hbm, ⟨20, _⟩ => ⟨S1x8x8x8x64x64, .bf16⟩
  | .hbm, ⟨21, _⟩ => ⟨S1x4096x512, .bf16⟩
  | .hbm, ⟨22, _⟩ => ⟨S512x64, .f32⟩
  | .hbm, ⟨23, _⟩ => ⟨S4096x512, .bf16⟩
  | .hbm, ⟨24, _⟩ => ⟨S1x64, .f32⟩
  | .hbm, ⟨25, _⟩ => ⟨S4096x64, .f32⟩
  | .hbm, ⟨26, _⟩ => ⟨S1x4096x64, .f32⟩
  | .hbm, ⟨27, _⟩ => ⟨S1x64x8x8x64, .f32⟩
  | .local _ .vmem, ⟨0, _⟩ => ⟨S1024x64, .f32⟩
  | .local _ .vmem, ⟨1, _⟩ => ⟨S1024x64, .f32⟩
  | .local _ .vmem, ⟨2, _⟩ => ⟨S64x1536, .f32⟩
  | .local _ .vmem, ⟨3, _⟩ => ⟨S1x1536, .f32⟩
  | .local _ .vmem, ⟨4, _⟩ => ⟨S1024x1536, .bf16⟩
  | .local _ .vmem, ⟨5, _⟩ => ⟨S1024x1536, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x64x1024, .bf16⟩
  | .local _ .vmem, ⟨13, _⟩ => ⟨S1x64x1024, .bf16⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S512x512, .bf16⟩
  | .local _ .vmem, ⟨18, _⟩ => ⟨S512x512, .bf16⟩
  | .local _ .vmem, ⟨19, _⟩ => ⟨S512x64, .f32⟩
  | .local _ .vmem, ⟨20, _⟩ => ⟨S1x64, .f32⟩
  | .local _ .vmem, ⟨21, _⟩ => ⟨S512x64, .f32⟩
  | .local _ .vmem, ⟨22, _⟩ => ⟨S512x64, .f32⟩
  | _, _ => ⟨S1x64x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

@[reducible] def k1_t1_loop : Scf.Loop 32 :=
  let c0_i32 : BitVec 32 := 0#32
  let c4_i32 : BitVec 32 := 4#32
  let v14 : BitVec 32 := Scalar.addi c0_i32 c4_i32
  let c1_i32 : BitVec 32 := 1#32
  ⟨c0_i32, v14, c1_i32⟩
def k1_mult1 (k1_t1 : Fin k1_t1_loop.trips) : BitVec 32 :=
  let c0_i32_20 : BitVec 32 := 0#32
  let c0_i32 : BitVec 32 := 0#32
  let c1_i32 : BitVec 32 := 1#32
  let arg9 : BitVec 32 := Scf.iv c0_i32 c1_i32 k1_t1
  let c1_i32_19 : BitVec 32 := 1#32
  let v26 : BitVec 32 := Scalar.muli arg9 c1_i32_19
  let v27 : BitVec 32 := Scalar.addi c0_i32_20 v26
  let c1024_i32 : BitVec 32 := 1024#32
  let v28 : BitVec 32 := Scalar.muli v27 c1024_i32
  v28
def k1_off1 (k1_t1 : Fin k1_t1_loop.trips) : Fin 3 → Nat :=
  let c0_21 : Index := 0#32
  let c0_i32_20 : BitVec 32 := 0#32
  let c0_i32 : BitVec 32 := 0#32
  let c1_i32 : BitVec 32 := 1#32
  let arg9 : BitVec 32 := Scf.iv c0_i32 c1_i32 k1_t1
  let c1_i32_19 : BitVec 32 := 1#32
  let v26 : BitVec 32 := Scalar.muli arg9 c1_i32_19
  let v27 : BitVec 32 := Scalar.addi c0_i32_20 v26
  let c1024_i32 : BitVec 32 := 1024#32
  let v28 : BitVec 32 := Scalar.muli v27 c1024_i32
  let v29 : BitVec 32 := v28
  let v30 : Index := Scalar.indexCast v29
  let c0_22 : Index := 0#32
  ![0, v30.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1x64x8x8x64_S4096x64 : S1x64x8x8x64.ShapeCasts S4096x64
  transposes_S1536x64_S64x1536_1_0 : S1536x64.Transposes [1, 0] S64x1536
  shapeCasts_S1536_S1x1536 : S1536.ShapeCasts S1x1536
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S4096x1536_S1x64x8x8x1536 : S4096x1536.ShapeCasts S1x64x8x8x1536
  shapeCasts_S1x64x8x8x1536_S1x8x8x64x3x8x64 : S1x64x8x8x1536.ShapeCasts S1x8x8x64x3x8x64
  transposes_S1x8x8x64x3x8x64_S3x1x8x8x64x8x64_4_0_5_1_6_2_3 : S1x8x8x64x3x8x64.Transposes [4, 0, 5, 1, 6, 2, 3] S3x1x8x8x64x8x64
  shapeCasts_S3x1x8x8x64x8x64_S3x8x4096x64 : S3x1x8x8x64x8x64.ShapeCasts S3x8x4096x64
  slices_S3x8x4096x64_S1x8x4096x64_0_0_0_0 : S3x8x4096x64.Slices ![0, 0, 0, 0] S1x8x4096x64
  shapeCasts_S1x8x4096x64_S8x4096x64 : S1x8x4096x64.ShapeCasts S8x4096x64
  slices_S3x8x4096x64_S1x8x4096x64_1_0_0_0 : S3x8x4096x64.Slices ![1, 0, 0, 0] S1x8x4096x64
  slices_S3x8x4096x64_S1x8x4096x64_2_0_0_0 : S3x8x4096x64.Slices ![2, 0, 0, 0] S1x8x4096x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  transposes_S1024x64_p1_0_S64x1024 : S1024x64.Transposes [1, 0] S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  shapeCasts_S8x64x4096_S1x8x8x8x64x64 : S8x64x4096.ShapeCasts S1x8x8x8x64x64
  shapeCasts_S1x8x8x8x64x64_S1x4096x512 : S1x8x8x8x64x64.ShapeCasts S1x4096x512
  transposes_S64x512_S512x64_1_0 : S64x512.Transposes [1, 0] S512x64
  shapeCasts_S1x4096x512_S4096x512 : S1x4096x512.ShapeCasts S4096x512
  shapeCasts_S64_S1x64 : S64.ShapeCasts S1x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  shapeCasts_S4096x64_S1x4096x64 : S4096x64.ShapeCasts S1x4096x64
  shapeCasts_S1x4096x64_S1x64x8x8x64 : S1x4096x64.ShapeCasts S1x64x8x8x64
  dot_S1024x64_S64x1536_S1024x1536_1_0_0_1_n_n_wf : DotDims.WF S1024x64 S64x1536 S1024x1536 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S4096x64.size a
  hwx0_0 : ∀ i : grid0.Coords, EltTy.bits .f32 = 32 ∨ (Rect.block (s := S4096x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1536.size a ≤ S64x1536.size a
  hwx0_1 : ∀ i : grid0.Coords, EltTy.bits .f32 = 32 ∨ (Rect.block (s := S64x1536) S64x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S4096x1536.size a
  hwx0_3 : ∀ i : grid0.Coords, EltTy.bits .bf16 = 32 ∨ (Rect.block (s := S4096x1536) S1024x1536.size (cc0_transform_3 i) (hinb0_3 i)).WholeWords (EltTy.packing .bf16)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1x1024x64.size a ≤ S1x4096x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S8x4096x64.size a
  hwx1_0 : ∀ i : grid1.Coords, EltTy.bits .bf16 = 32 ∨ (Rect.block (s := S8x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S8x4096x64.size a
  hwx1_1 : ∀ i : grid1.Coords, EltTy.bits .bf16 = 32 ∨ (Rect.block (s := S8x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S8x4096x64.size a
  hwx1_2 : ∀ i : grid1.Coords, EltTy.bits .bf16 = 32 ∨ (Rect.block (s := S8x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x1024.size a ≤ S8x64x4096.size a
  hwx1_3 : ∀ i : grid1.Coords, EltTy.bits .bf16 = 32 ∨ (Rect.block (s := S8x64x4096) S1x64x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x512.size a
  hwx2_0 : ∀ i : grid2.Coords, EltTy.bits .bf16 = 32 ∨ (Rect.block (s := S4096x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)

variable [Facts₀]

def dot_S1024x64_S64x1536_S1024x1536_1_0_0_1_n_n : DotDims S1024x64 S64x1536 S1024x1536 where
  lhsContracting := [1]
  rhsContracting := [0]
  lhsNonContracting := [0]
  rhsNonContracting := [1]
  lhsBatch := []
  rhsBatch := []
  wf := dot_S1024x64_S64x1536_S1024x1536_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S512x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x64x8x8x64 : Shape := ⟨5, ![1, 64, 8, 8, 64]⟩
abbrev S1536x64 : Shape := ⟨2, ![1536, 64]⟩
abbrev S1536 : Shape := ⟨1, ![1536]⟩
abbrev S64x512 : Shape := ⟨2, ![64, 512]⟩
abbrev S64 : Shape := ⟨1, ![64]⟩
abbrev S1x64x8x8x1536 : Shape := ⟨5, ![1, 64, 8, 8, 1536]⟩
abbrev S1x1x1x1x1536 : Shape := ⟨5, ![1, 1, 1, 1, 1536]⟩
abbrev S1x8x8x64x3x8x64 : Shape := ⟨7, ![1, 8, 8, 64, 3, 8, 64]⟩
abbrev S3x1x8x8x64x8x64 : Shape := ⟨7, ![3, 1, 8, 8, 64, 8, 64]⟩
abbrev S3x8x4096x64 : Shape := ⟨4, ![3, 8, 4096, 64]⟩
abbrev S1x8x4096x64 : Shape := ⟨4, ![1, 8, 4096, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x64x4096 : Shape := ⟨3, ![8, 64, 4096]⟩
abbrev S1x8x8x8x64x64 : Shape := ⟨6, ![1, 8, 8, 8, 64, 64]⟩
abbrev S1x4096x512 : Shape := ⟨3, ![1, 4096, 512]⟩
abbrev S1x4096x64 : Shape := ⟨3, ![1, 4096, 64]⟩
abbrev S1x1x64 : Shape := ⟨3, ![1, 1, 64]⟩

abbrev nBuf : Space → Nat
  | .hbm => 45
  | .vmem => 0
  | .smem => 0
  | _ => 0

abbrev bufTy : (tb : Table) → Fin (tcTables nBuf tb) → BufTy
  | .hbm, ⟨0, _⟩ => ⟨S1x64x8x8x64, .f32⟩
  | .hbm, ⟨1, _⟩ => ⟨S1536x64, .f32⟩
  | .hbm, ⟨2, _⟩ => ⟨S1536, .f32⟩
  | .hbm, ⟨3, _⟩ => ⟨S64x512, .f32⟩
  | .hbm, ⟨4, _⟩ => ⟨S64, .f32⟩
  | .hbm, ⟨5, _⟩ => ⟨S1x64x8x8x1536, .f32⟩
  | .hbm, ⟨6, _⟩ => ⟨S1x1x1x1x1536, .f32⟩
  | .hbm, ⟨7, _⟩ => ⟨S1x64x8x8x1536, .f32⟩
  | .hbm, ⟨8, _⟩ => ⟨S1x64x8x8x1536, .f32⟩
  | .hbm, ⟨9, _⟩ => ⟨S1x8x8x64x3x8x64, .f32⟩
  | .hbm, ⟨10, _⟩ => ⟨S3x1x8x8x64x8x64, .f32⟩
  | .hbm, ⟨11, _⟩ => ⟨S3x8x4096x64, .f32⟩
  | .hbm, ⟨12, _⟩ => ⟨S1x8x4096x64, .f32⟩
  | .hbm, ⟨13, _⟩ => ⟨S8x4096x64, .f32⟩
  | .hbm, ⟨14, _⟩ => ⟨S1x8x4096x64, .f32⟩
  | .hbm, ⟨15, _⟩ => ⟨S8x4096x64, .f32⟩
  | .hbm, ⟨16, _⟩ => ⟨S1x8x4096x64, .f32⟩
  | .hbm, ⟨17, _⟩ => ⟨S8x4096x64, .f32⟩
  | .hbm, ⟨18, _⟩ => ⟨S8x4096x4096, .f32⟩
  | .hbm, ⟨19, _⟩ => ⟨S_, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096x1, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096, .f32⟩
  | .hbm, ⟨33, _⟩ => ⟨S8x4096x1, .f32⟩
  | .hbm, ⟨34, _⟩ => ⟨S8x4096x4096, .f32⟩
  | .hbm, ⟨35, _⟩ => ⟨S8x4096x4096, .f32⟩
  | .hbm, ⟨36, _⟩ => ⟨S8x4096x64, .f32⟩
  | .hbm, ⟨37, _⟩ => ⟨S8x64x4096, .f32⟩
  | .hbm, ⟨38, _⟩ => ⟨S1x8x8x8x64x64, .f32⟩
  | .hbm, ⟨39, _⟩ => ⟨S1x4096x512, .f32⟩
  | .hbm, ⟨40, _⟩ => ⟨S1x4096x64, .f32⟩
  | .hbm, ⟨41, _⟩ => ⟨S1x1x64, .f32⟩
  | .hbm, ⟨42, _⟩ => ⟨S1x4096x64, .f32⟩
  | .hbm, ⟨43, _⟩ => ⟨S1x4096x64, .f32⟩
  | .hbm, ⟨44, _⟩ => ⟨S1x64x8x8x64, .f32⟩
  | _, _ => ⟨S1x64x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  bcast_S1536_S1x1x1x1x1536_4 : S1536.BroadcastsInDim S1x1x1x1x1536 (![4] : Fin 1 → Fin S1x1x1x1x1536.rank)
  bcast_S1x1x1x1x1536_S1x64x8x8x1536_0_1_2_3_4 : S1x1x1x1x1536.BroadcastsInDim S1x64x8x8x1536 (![0, 1, 2, 3, 4] : Fin 5 → Fin S1x64x8x8x1536.rank)
  shapeCasts_S1x64x8x8x1536_S1x8x8x64x3x8x64 : S1x64x8x8x1536.ShapeCasts S1x8x8x64x3x8x64
  transposes_S1x8x8x64x3x8x64_S3x1x8x8x64x8x64_4_0_5_1_6_2_3 : S1x8x8x64x3x8x64.Transposes [4, 0, 5, 1, 6, 2, 3] S3x1x8x8x64x8x64
  shapeCasts_S3x1x8x8x64x8x64_S3x8x4096x64 : S3x1x8x8x64x8x64.ShapeCasts S3x8x4096x64
  slices_S3x8x4096x64_S1x8x4096x64_0_0_0_0 : S3x8x4096x64.Slices ![0, 0, 0, 0] S1x8x4096x64
  shapeCasts_S1x8x4096x64_S8x4096x64 : S1x8x4096x64.ShapeCasts S8x4096x64
  slices_S3x8x4096x64_S1x8x4096x64_1_0_0_0 : S3x8x4096x64.Slices ![1, 0, 0, 0] S1x8x4096x64
  slices_S3x8x4096x64_S1x8x4096x64_2_0_0_0 : S3x8x4096x64.Slices ![2, 0, 0, 0] S1x8x4096x64
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  transposes_S8x4096x64_S8x64x4096_0_2_1 : S8x4096x64.Transposes [0, 2, 1] S8x64x4096
  shapeCasts_S8x64x4096_S1x8x8x8x64x64 : S8x64x4096.ShapeCasts S1x8x8x8x64x64
  shapeCasts_S1x8x8x8x64x64_S1x4096x512 : S1x8x8x8x64x64.ShapeCasts S1x4096x512
  bcast_S64_S1x1x64_2 : S64.BroadcastsInDim S1x1x64 (![2] : Fin 1 → Fin S1x1x64.rank)
  bcast_S1x1x64_S1x4096x64_0_1_2 : S1x1x64.BroadcastsInDim S1x4096x64 (![0, 1, 2] : Fin 3 → Fin S1x4096x64.rank)
  shapeCasts_S1x4096x64_S1x64x8x8x64 : S1x4096x64.ShapeCasts S1x64x8x8x64
  dot_S1x64x8x8x64_S1536x64_S1x64x8x8x1536_4_1_0123_0_n_n_wf : DotDims.WF S1x64x8x8x64 S1536x64 S1x64x8x8x1536 [4] [1] [0, 1, 2, 3] [0] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]
  dot_S1x4096x512_S64x512_S1x4096x64_2_1_01_0_n_n_wf : DotDims.WF S1x4096x512 S64x512 S1x4096x64 [2] [1] [0, 1] [0] [] []

variable [Facts₀]

def dot_S1x64x8x8x64_S1536x64_S1x64x8x8x1536_4_1_0123_0_n_n : DotDims S1x64x8x8x64 S1536x64 S1x64x8x8x1536 where
  lhsContracting := [4]
  rhsContracting := [1]
  lhsNonContracting := [0, 1, 2, 3]
  rhsNonContracting := [0]
  lhsBatch := []
  rhsBatch := []
  wf := dot_S1x64x8x8x64_S1536x64_S1x64x8x8x1536_4_1_0123_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf
def dot_S1x4096x512_S64x512_S1x4096x64_2_1_01_0_n_n : DotDims S1x4096x512 S64x512 S1x4096x64 where
  lhsContracting := [2]
  rhsContracting := [1]
  lhsNonContracting := [0, 1]
  rhsNonContracting := [0]
  lhsBatch := []
  rhsBatch := []
  wf := dot_S1x4096x512_S64x512_S1x4096x64_2_1_01_0_n_n_wf

class Facts : Prop extends Facts₀ where

variable [Facts]
-- ==== Proof.KernelRun.lean ====
/-
  The idealized kernel's run with its result named.

  From any launch memory every weakly fair execution of the program terminates without a
  fault; at the end every unscoped buffer holds what the fold of the program's segments over
  the launch memory gives it (three stretches of host operations and three pipelined regions,
  each region's arrays at what its write-backs leave). In particular the result buffer holds
  that fold's value there, and the five argument arrays hold what they held at launch.
-/
import proofs.«175403_j47682726921138_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the segments' fold over the launch
    memory, the arguments as launched. -/
theorem run_result : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Result

end
-- ==== Proof.Glue.lean ====
/-
  What each segment of the idealized kernel's program finds and leaves, by name.

  The program is: three layout operations on the arguments; a pipelined linear layer; ten
  layout operations splitting its output rows into queries, keys and values per head; a
  pipelined attention region; five layout operations; a second pipelined linear layer; two
  reshapes. Each stretch of host operations is a fold over the contents the previous segment
  left, so the contents a region is entered with, and the result buffer at the end, are the
  stretch's layout operations applied to the previous region's output array (or to the launch
  contents of an argument no segment writes).
-/
import proofs.«175403_j47682726921138_2_alg».proof.Proof.Gen.KernelIdeal.Frame
import Idealize.ShloMosaic.Lib.StableHlo.Run
import Idealize.ShloMosaic.Lib.Pipeline.Value

set_option maxRecDepth 16384

noncomputable section

namespace Cert.KernelIdeal.Glue

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The first linear layer's output array when its region is left. -/
abbrev R0 (c : Dev nD) := (dat0 (V1 m ρ) c).arrAt 3 cfg0.N
/-- The attention region's output array when it is left. -/
abbrev R1 (c : Dev nD) := (dat1 (V3 m ρ) c).arrAt 3 cfg1.N
/-- The second linear layer's output array when its region is left. -/
abbrev R2 (c : Dev nD) := (dat2 (V5 m ρ) c).arrAt 3 cfg2.N

/-! ## Entering the first linear layer: the arguments re-laid -/

theorem V1_v0 (c : Dev nD) : V1 m ρ c main_v0
    = shapeCast S4096x64 (m ((c : Thread nD τ).loc main_arg0)) shapeCasts_S1x64x8x8x64_S4096x64 := by
  show StableHlo.after hostOps0 (W0 m ρ c) (Proc.devRef .tc main_v0) = _
  after_results <;> rfl

theorem V1_v1 (c : Dev nD) : V1 m ρ c main_v1
    = transpose S64x1536 [1, 0] (m ((c : Thread nD τ).loc main_arg1)) transposes_S1536x64_S64x1536_1_0 := by
  show StableHlo.after hostOps0 (W0 m ρ c) (Proc.devRef .tc main_v1) = _
  after_results <;> rfl

theorem V1_v2 (c : Dev nD) : V1 m ρ c main_v2
    = shapeCast S1x1536 (m ((c : Thread nD τ).loc main_arg2)) shapeCasts_S1536_S1x1536 := by
  show StableHlo.after hostOps0 (W0 m ρ c) (Proc.devRef .tc main_v2) = _
  after_results <;> rfl

/-! ## Entering the attention region: the projected rows split per head -/

/-- The projected rows [4096, 1536] as the five-axis array [1, 64, 8, 8, 1536]. -/
def rows5 {α : Type} (x : S4096x1536.Idx → α) : S1x64x8x8x1536.Idx → α :=
  shapeCast S1x64x8x8x1536 x shapeCasts_S4096x1536_S1x64x8x8x1536

/-- The common part of the split: [1,64,8,8,1536] viewed as [1,8,8,64,3,8,64], its axes
    permuted to [3,1,8,8,64,8,64], viewed as [3, 8, 4096, 64]. -/
def heads {α : Type} (x : S1x64x8x8x1536.Idx → α) : S3x8x4096x64.Idx → α :=
  shapeCast S3x8x4096x64 (transpose S3x1x8x8x64x8x64 [4, 0, 5, 1, 6, 2, 3]
    (shapeCast S1x8x8x64x3x8x64 x shapeCasts_S1x64x8x8x1536_S1x8x8x64x3x8x64)
    transposes_S1x8x8x64x3x8x64_S3x1x8x8x64x8x64_4_0_5_1_6_2_3) shapeCasts_S3x1x8x8x64x8x64_S3x8x4096x64

/-- The queries: slab 0 of the split. -/
def headsQ {α : Type} (x : S3x8x4096x64.Idx → α) : S8x4096x64.Idx → α :=
  shapeCast S8x4096x64 (extractStridedSlice S1x8x4096x64 ![0, 0, 0, 0] x slices_S3x8x4096x64_S1x8x4096x64_0_0_0_0) shapeCasts_S1x8x4096x64_S8x4096x64
/-- The keys: slab 1 of the split. -/
def headsK {α : Type} (x : S3x8x4096x64.Idx → α) : S8x4096x64.Idx → α :=
  shapeCast S8x4096x64 (extractStridedSlice S1x8x4096x64 ![1, 0, 0, 0] x slices_S3x8x4096x64_S1x8x4096x64_1_0_0_0) shapeCasts_S1x8x4096x64_S8x4096x64
/-- The values: slab 2 of the split. -/
def headsV {α : Type} (x : S3x8x4096x64.Idx → α) : S8x4096x64.Idx → α :=
  shapeCast S8x4096x64 (extractStridedSlice S1x8x4096x64 ![2, 0, 0, 0] x slices_S3x8x4096x64_S1x8x4096x64_2_0_0_0) shapeCasts_S1x8x4096x64_S8x4096x64

theorem W2_v3 (c : Dev nD) : W2 m ρ c (Proc.devRef .tc main_v3) = R0 m ρ c := W2_arr m ρ c 3

theorem V3_v9 (c : Dev nD) : V3 m ρ c main_v9 = headsQ (heads (rows5 (R0 m ρ c))) := by
  show StableHlo.after hostOps1 (W2 m ρ c) (Proc.devRef .tc main_v9) = _
  after_results
  rw [W2_v3]; rfl

theorem V3_v11 (c : Dev nD) : V3 m ρ c main_v11 = headsK (heads (rows5 (R0 m ρ c))) := by
  show StableHlo.after hostOps1 (W2 m ρ c) (Proc.devRef .tc main_v11) = _
  after_results
  rw [W2_v3]; rfl

theorem V3_v13 (c : Dev nD) : V3 m ρ c main_v13 = headsV (heads (rows5 (R0 m ρ c))) := by
  show StableHlo.after hostOps1 (W2 m ρ c) (Proc.devRef .tc main_v13) = _
  after_results
  rw [W2_v3]; rfl

/-! ## Entering the second linear layer -/

/-- The attention output [8, 64, 4096] viewed as [1,8,8,8,64,64], then as [1, 4096, 512]. -/
def merged {α : Type} (x : S8x64x4096.Idx → α) : S1x4096x512.Idx → α :=
  shapeCast S1x4096x512 (shapeCast S1x8x8x8x64x64 x shapeCasts_S8x64x4096_S1x8x8x8x64x64) shapeCasts_S1x8x8x8x64x64_S1x4096x512

theorem W4_v14 (c : Dev nD) : W4 m ρ c (Proc.devRef .tc main_v14) = R1 m ρ c := W4_arr m ρ c 3

theorem V5_v18 (c : Dev nD) : V5 m ρ c main_v18
    = shapeCast S4096x512 (merged (R1 m ρ c)) shapeCasts_S1x4096x512_S4096x512 := by
  show StableHlo.after hostOps2 (W4 m ρ c) (Proc.devRef .tc main_v18) = _
  after_results
  rw [W4_v14]; rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem V5_v17 (c : Dev nD) : V5 m ρ c main_v17
    = transpose S512x64 [1, 0] (m ((c : Thread nD τ).loc main_arg3)) transposes_S64x512_S512x64_1_0 := by
  show StableHlo.after hostOps2 (W4 m ρ c) (Proc.devRef .tc main_v17) = _
  after_results <;> (rw [W4_arg3]; try rfl)

theorem V5_v19 (c : Dev nD) : V5 m ρ c main_v19
    = shapeCast S1x64 (m ((c : Thread nD τ).loc main_arg4)) shapeCasts_S64_S1x64 := by
  show StableHlo.after hostOps2 (W4 m ρ c) (Proc.devRef .tc main_v19) = _
  after_results <;> (rw [W4_arg4]; try rfl)

/-! ## The result -/

theorem W6_v20 (c : Dev nD) : W6 m ρ c (Proc.devRef .tc main_v20) = R2 m ρ c := W6_arr m ρ c 3

theorem W7_v22 (c : Dev nD) : W7 m ρ c (Proc.devRef .tc main_v22)
    = shapeCast S1x64x8x8x64 (shapeCast S1x4096x64 (R2 m ρ c) shapeCasts_S4096x64_S1x4096x64) shapeCasts_S1x4096x64_S1x64x8x8x64 := by
  show StableHlo.after hostOps3 (W6 m ρ c) (Proc.devRef .tc main_v22) = _
  after_results
  rw [W6_v20]; rfl

end Cert.KernelIdeal.Glue

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Linear.lean ====
/-
  The two linear layers of the kernel, read as whole arrays.

  Each layer runs over row blocks of its input: at grid point t the body receives rows [t·B, (t+1)·B) of the
  input matrix (B = 1024 for the first layer, 512 for the second), the whole weight matrix and the whole one-row
  bias, and leaves in the output block the matrix product of the row block with the weights plus the bias row
  broadcast over the rows. On the extended reals the format changes are the identity, and the matrix product
  into a zero accumulator is the plain sum over the contracted position. Entry (p, q) of the block at point t
  is therefore entry (t·B + p, q) of ONE function of the three arrays,

      out (r, o) = Σ_j x (r, j) · w (j, o) + b (0, o),

  and since the row blocks tile the output (row r lies in the block of point r / B), the output array after
  the layer is that function at every index.
-/
import proofs.«175403_j47682726921138_2_alg».proof.Proof.Gen.KernelIdeal.Frame
import proofs.«175403_j47682726921138_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Linear

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access, however spelt. -/
theorem zero_offsets : (![0, 0] : Fin 2 → Nat) = fun _ => 0 := funext fun a => by fin_cases a <;> rfl

variable (V : (c : Dev nD) → (b : Ref sig .tc) → Buf (Elt Ideal) ((c : Thread nD τ).loc b))

/-! ## A linear layer at coordinates -/

/-- Entry (r, o) of a linear layer: row r of the input x against column o of the weights w, plus the one-row
    bias β at o. -/
def linearAt {a k b : ℕ} (x : (⟨2, ![a, k]⟩ : Shape).Idx → EReal) (w : (⟨2, ![k, b]⟩ : Shape).Idx → EReal)
    (β : (⟨2, ![1, b]⟩ : Shape).Idx → EReal) (r : Fin a) (o : Fin b) : EReal :=
  (∑ j : Fin k, x (ix2 r j) * w (ix2 j o)) + β (ix2 0 o)

/-- Its defining sum. -/
theorem linearAt_def {a k b : ℕ} (x : (⟨2, ![a, k]⟩ : Shape).Idx → EReal) (w : (⟨2, ![k, b]⟩ : Shape).Idx → EReal)
    (β : (⟨2, ![1, b]⟩ : Shape).Idx → EReal) (r : Fin a) (o : Fin b) :
    linearAt x w β r o = (∑ j : Fin k, x (ix2 r j) * w (ix2 j o)) + β (ix2 0 o) := rfl

/-! ## The first layer: [4096, 64] · [64, 1536] + [1, 1536], in four blocks of 1024 rows -/

/-- The layer as one function of its three arrays, index by index. -/
def layer0 (x : S4096x64.Idx → EReal) (w : S64x1536.Idx → EReal) (b : S1x1536.Idx → EReal) : S4096x1536.Idx → EReal :=
  fun i => linearAt (a := 4096) (k := 64) (b := 1536) x w b (i 0) (i 1)

/-- What the body computes from its three blocks, at (p, q): the format changes and the same-shape casts are the
    identity, the product into the zero accumulator is the sum over the 64 contracted positions, and the bias row
    is read at column q whatever the row. -/
theorem body0_apply (x0 : Vec Ideal S1024x64 .f32) (x1 : Vec Ideal S64x1536 .f32) (x2 : Vec Ideal S1x1536 .f32)
    (p : Fin 1024) (q : Fin 1536) :
    (k0_pay1 x0 x1 x2 : S1024x1536.Idx → EReal) (ix2 p q)
      = (∑ j : Fin 64, (x0 : S1024x64.Idx → EReal) (ix2 p j) * (x1 : S64x1536.Idx → EReal) (ix2 j q))
        + (x2 : S1x1536.Idx → EReal) (ix2 0 q) := by
  unfold k0_pay1
  show FloatOps.matmul dot_S1024x64_S64x1536_S1024x1536_1_0_0_1_n_n none
        (shapeCast S1024x64 x0 shapeCasts_S1024x64_S1024x64 : FVec Ideal S1024x64 .bf16)
        (shapeCast S64x1536 x1 shapeCasts_S64x1536_S64x1536 : FVec Ideal S64x1536 .bf16)
        (constant (F := Ideal) S1024x1536 .f32 0x00000000#32) (ix2 p q)
      + broadcastTo S1024x1536 (shapeCast S1x1536 x2 shapeCasts_S1x1536_S1x1536) broadcasts_S1x1536_S1024x1536 (ix2 p q) = _
  rw [shapeCast_self, shapeCast_self, shapeCast_self]
  exact congrArg₂ (· + ·)
    (matmul_zero_ix2 dot_S1024x64_S64x1536_S1024x1536_1_0_0_1_n_n rfl rfl rfl rfl rfl rfl none x0 x1 p q)
    (broadcastTo_1b_ab_apply x2 broadcasts_S1x1536_S1024x1536 p q)

/-- The block indices over the grid: the input and the output move one row block per point, the weights and the
    bias stay, and there are four points. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- The input block at point t is rows t·1024 … t·1024 + 1023 of the input. -/
theorem input0_apply (c : Dev nD) (t : Fin cfg0.N) (p : Fin 1024) (j : Fin 64) (r : Fin 4096)
    (hr : r.val = t.val * 1024 + p.val) :
    (iblk0 V c 0 t : S1024x64.Idx → EReal) (ix2 p j) = (V c main_v0 : S4096x64.Idx → EReal) (ix2 r j) := by
  obtain ⟨e0, e1, -⟩ := index0 t
  show V c main_v0 (((cfg0.win 0).blk t).view.emb (ix2 p j)) = V c main_v0 (ix2 r j)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 64 + 1 * j.val = j.val; omega

/-- The weights' block is the whole weight matrix at every point. -/
theorem weights0_apply (c : Dev nD) (t : Fin cfg0.N) (j : Fin 64) (q : Fin 1536) :
    (iblk0 V c 1 t : S64x1536.Idx → EReal) (ix2 j q) = (V c main_v1 : S64x1536.Idx → EReal) (ix2 j q) := by
  obtain ⟨-, -, e0, e1, -⟩ := index0 t
  show V c main_v1 (((cfg0.win 1).blk t).view.emb (ix2 j q)) = V c main_v1 (ix2 j q)
  refine congrArg (V c main_v1) (funext fun a => Fin.ext ?_)
  match a with
  | ⟨0, _⟩ => show win0_1.index t (0 : Fin 2) * 64 + 1 * j.val = j.val; omega
  | ⟨1, _⟩ => show win0_1.index t (1 : Fin 2) * 1536 + 1 * q.val = q.val; omega

/-- The bias' block is the whole bias row at every point. -/
theorem bias0_apply (c : Dev nD) (t : Fin cfg0.N) (q : Fin 1536) :
    (iblk0 V c 2 t : S1x1536.Idx → EReal) (ix2 0 q) = (V c main_v2 : S1x1536.Idx → EReal) (ix2 0 q) := by
  obtain ⟨-, -, -, -, e0, e1, -⟩ := index0 t
  show V c main_v2 (((cfg0.win 2).blk t).view.emb (ix2 0 q)) = V c main_v2 (ix2 0 q)
  refine congrArg (V c main_v2) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1536 + 1 * q.val = q.val; omega

/-- Entry (p, q) of the output block at point t sits at row t·1024 + p, column q of the output array. -/
theorem output0_emb (t : Fin cfg0.N) (p : Fin 1024) (q : Fin 1536) (r : Fin 4096) (hr : r.val = t.val * 1024 + p.val) :
    ((cfg0.win 3).blk t).view.emb (ix2 p q) = (ix2 r q : S4096x1536.Idx) := by
  obtain ⟨-, -, -, -, -, -, e0, e1, -⟩ := index0 t
  refine funext fun a => Fin.ext ?_
  match a with
  | ⟨0, _⟩ => show win0_3.index t (0 : Fin 2) * 1024 + 1 * p.val = r.val; omega
  | ⟨1, _⟩ => show win0_3.index t (1 : Fin 2) * 1536 + 1 * q.val = q.val; omega

/-- What point t writes back is block t of the layer of the three arrays as the region finds them. -/
theorem flushed0_eq (c : Dev nD) (t : Fin cfg0.N) :
    (dat0 (F := Ideal) V c).flushed 3 t
      = ((cfg0.win 3).blk t).view.read (Elt Ideal) (layer0 (V c main_v0) (V c main_v1) (V c main_v2)) := by
  show (cfg0.win 3).cut (grid0.coords t) ((dat0 V c).after 3 t) = _
  rw [after0_3]
  unfold out0_3
  rw [View.canon_unit_zero zero_offsets]
  simp only [View.ld_unit_zero (S := S1024x64) zero_offsets, View.ld_unit_zero (S := S64x1536) zero_offsets,
    View.ld_unit_zero (S := S1x1536) zero_offsets]
  funext y
  obtain ⟨p, q, rfl⟩ : ∃ (p : Fin 1024) (q : Fin 1536), y = ix2 p q := ⟨y 0, y 1, eq_ix2 y⟩
  have ht : t.val < 4 := (index0 t).2.2.2.2.2.2.2.2
  show (k0_pay1 (iblk0 V c 0 t) (iblk0 V c 1 t) (iblk0 V c 2 t) : S1024x1536.Idx → EReal) (ix2 p q)
    = layer0 (V c main_v0) (V c main_v1) (V c main_v2) (((cfg0.win 3).blk t).view.emb (ix2 p q))
  refine (body0_apply (iblk0 V c 0 t) (iblk0 V c 1 t) (iblk0 V c 2 t) p q).trans ?_
  refine Eq.trans ?_ (congrArg (layer0 (V c main_v0) (V c main_v1) (V c main_v2))
    (output0_emb t p q ⟨t.val * 1024 + p.val, by omega⟩ rfl)).symm
  exact congrArg₂ (· + ·)
    (Finset.sum_congr rfl fun j _ => congrArg₂ (· * ·)
      (input0_apply V c t p j ⟨t.val * 1024 + p.val, by omega⟩ rfl) (weights0_apply V c t j q))
    (bias0_apply V c t q)

/-- An index of the output array is in point t's block iff each coordinate is in the block's range on its axis. -/
theorem mem_block0 (t : Fin cfg0.N) (i : S4096x1536.Idx) :
    i ∈ ((cfg0.win 3).blk t).view.set
      ↔ ∀ a : Fin 2, win0_3.index t a * S1024x1536.size a ≤ (i a).val
          ∧ (i a).val < win0_3.index t a * S1024x1536.size a + S1024x1536.size a := by
  show i ∈ ((View.whole main_v3).slice (win0_3.rect t)).set ↔ _
  rw [View.set_slice_whole, Rect.mem_set_unit]
  exact Iff.rfl

/-- The row blocks tile the output: row r lies in the block of point r / 1024. -/
theorem cover0 (i : S4096x1536.Idx) :
    ∃ t : Fin cfg0.N, (cfg0.win 3).flush t = true ∧ i ∈ ((cfg0.win 3).blk t).view.set := by
  have hi0 : (i 0).val < 4096 := (i 0).isLt
  have hi1 : (i 1).val < 1536 := (i 1).isLt
  have hN : cfg0.N = 4 := N_0
  refine ⟨⟨(i 0).val / 1024, by rw [hN]; omega⟩, flush0_3 _, ?_⟩
  rw [mem_block0]
  obtain ⟨-, -, -, -, -, -, e0, e1, -⟩ := index0 ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e0]; show (i 0).val / 1024 * 1024 ≤ (i 0).val ∧ (i 0).val < (i 0).val / 1024 * 1024 + 1024; omega
  | ⟨1, _⟩ =>
    show win0_3.index _ (1 : Fin 2) * 1536 ≤ (i 1).val ∧ (i 1).val < win0_3.index _ (1 : Fin 2) * 1536 + 1536
    rw [e1]; omega

/-- The output array after the first layer is the layer of the three arrays as the region finds them. -/
theorem region0_array (c : Dev nD) :
    (dat0 (F := Ideal) V c).arrAt 3 cfg0.N = layer0 (V c main_v0) (V c main_v1) (V c main_v2) :=
  (dat0 (F := Ideal) V c).arrAt_eq_of_cover 3 (layer0 (V c main_v0) (V c main_v1) (V c main_v2))
    (fun t _ => flushed0_eq V c t) cover0

/-- Index by index: entry (r, o) of the output is row r of the input against column o of the weights, plus the
    bias at o. -/
theorem region0_value (V : (c : Dev nD) → (b : Ref sig .tc) → Buf (Elt Ideal) ((c : Thread nD τ).loc b)) (c : Dev nD)
    (r : Fin 4096) (o : Fin 1536) :
    ((Gen.dat0 (F := Ideal) V c).arrAt 3 cfg0.N : S4096x1536.Idx → EReal) (ix2 r o)
      = linearAt (a := 4096) (k := 64) (b := 1536) (V c main_v0) (V c main_v1) (V c main_v2) r o := by
  rw [region0_array V c]
  rfl

/-! ## The second layer: [4096, 512] · [512, 64] + [1, 64], in eight blocks of 512 rows -/

/-- The layer as one function of its three arrays, index by index. -/
def layer2 (x : S4096x512.Idx → EReal) (w : S512x64.Idx → EReal) (b : S1x64.Idx → EReal) : S4096x64.Idx → EReal :=
  fun i => linearAt (a := 4096) (k := 512) (b := 64) x w b (i 0) (i 1)

/-- What the body computes from its three blocks, at (p, q): the format change and the same-shape casts are the
    identity, the product into the zero accumulator is the sum over the 512 contracted positions, and the bias row
    is read at column q whatever the row. -/
theorem body2_apply (x0 : Vec Ideal S512x512 .bf16) (x1 : Vec Ideal S512x64 .f32) (x2 : Vec Ideal S1x64 .f32)
    (p : Fin 512) (q : Fin 64) :
    (k2_pay1 x0 x1 x2 : S512x64.Idx → EReal) (ix2 p q)
      = (∑ j : Fin 512, (x0 : S512x512.Idx → EReal) (ix2 p j) * (x1 : S512x64.Idx → EReal) (ix2 j q))
        + (x2 : S1x64.Idx → EReal) (ix2 0 q) := by
  unfold k2_pay1
  show FloatOps.matmul dot_S512x512_S512x64_S512x64_1_0_0_1_n_n none
        (shapeCast S512x512 x0 shapeCasts_S512x512_S512x512 : FVec Ideal S512x512 .bf16)
        (shapeCast S512x64 x1 shapeCasts_S512x64_S512x64 : FVec Ideal S512x64 .bf16)
        (constant (F := Ideal) S512x64 .f32 0x00000000#32) (ix2 p q)
      + broadcastTo S512x64 (shapeCast S1x64 x2 shapeCasts_S1x64_S1x64) broadcasts_S1x64_S512x64 (ix2 p q) = _
  rw [shapeCast_self, shapeCast_self, shapeCast_self]
  exact congrArg₂ (· + ·)
    (matmul_zero_ix2 dot_S512x512_S512x64_S512x64_1_0_0_1_n_n rfl rfl rfl rfl rfl rfl none x0 x1 p q)
    (broadcastTo_1b_ab_apply x2 broadcasts_S1x64_S512x64 p q)

/-- The block indices over the grid: the input and the output move one row block per point, the weights and the
    bias stay, and there are eight points. -/
theorem index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 8 :=
  (by decide +kernel : ∀ t : Fin grid2.N, _)

/-- The input block at point t is rows t·512 … t·512 + 511 of the input. -/
theorem input2_apply (c : Dev nD) (t : Fin cfg2.N) (p : Fin 512) (j : Fin 512) (r : Fin 4096)
    (hr : r.val = t.val * 512 + p.val) :
    (iblk2 V c 0 t : S512x512.Idx → EReal) (ix2 p j) = (V c main_v18 : S4096x512.Idx → EReal) (ix2 r j) := by
  obtain ⟨e0, e1, -⟩ := index2 t
  show V c main_v18 (((cfg2.win 0).blk t).view.emb (ix2 p j)) = V c main_v18 (ix2 r j)
  refine congrArg (V c main_v18) (funext fun a => Fin.ext ?_)
  match a with
  | ⟨0, _⟩ => show win2_0.index t (0 : Fin 2) * 512 + 1 * p.val = r.val; omega
  | ⟨1, _⟩ => show win2_0.index t (1 : Fin 2) * 512 + 1 * j.val = j.val; omega

/-- The weights' block is the whole weight matrix at every point. -/
theorem weights2_apply (c : Dev nD) (t : Fin cfg2.N) (j : Fin 512) (q : Fin 64) :
    (iblk2 V c 1 t : S512x64.Idx → EReal) (ix2 j q) = (V c main_v17 : S512x64.Idx → EReal) (ix2 j q) := by
  obtain ⟨-, -, e0, e1, -⟩ := index2 t
  show V c main_v17 (((cfg2.win 1).blk t).view.emb (ix2 j q)) = V c main_v17 (ix2 j q)
  refine congrArg (V c main_v17) (funext fun a => Fin.ext ?_)
  match a with
  | ⟨0, _⟩ => show win2_1.index t (0 : Fin 2) * 512 + 1 * j.val = j.val; omega
  | ⟨1, _⟩ => show win2_1.index t (1 : Fin 2) * 64 + 1 * q.val = q.val; omega

/-- The bias' block is the whole bias row at every point. -/
theorem bias2_apply (c : Dev nD) (t : Fin cfg2.N) (q : Fin 64) :
    (iblk2 V c 2 t : S1x64.Idx → EReal) (ix2 0 q) = (V c main_v19 : S1x64.Idx → EReal) (ix2 0 q) := by
  obtain ⟨-, -, -, -, e0, e1, -⟩ := index2 t
  show V c main_v19 (((cfg2.win 2).blk t).view.emb (ix2 0 q)) = V c main_v19 (ix2 0 q)
  refine congrArg (V c main_v19) (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 64 + 1 * q.val = q.val; omega

/-- Entry (p, q) of the output block at point t sits at row t·512 + p, column q of the output array. -/
theorem output2_emb (t : Fin cfg2.N) (p : Fin 512) (q : Fin 64) (r : Fin 4096) (hr : r.val = t.val * 512 + p.val) :
    ((cfg2.win 3).blk t).view.emb (ix2 p q) = (ix2 r q : S4096x64.Idx) := by
  obtain ⟨-, -, -, -, -, -, e0, e1, -⟩ := index2 t
  refine funext fun a => Fin.ext ?_
  match a with
  | ⟨0, _⟩ => show win2_3.index t (0 : Fin 2) * 512 + 1 * p.val = r.val; omega
  | ⟨1, _⟩ => show win2_3.index t (1 : Fin 2) * 64 + 1 * q.val = q.val; omega

/-- What point t writes back is block t of the layer of the three arrays as the region finds them. -/
theorem flushed2_eq (c : Dev nD) (t : Fin cfg2.N) :
    (dat2 (F := Ideal) V c).flushed 3 t
      = ((cfg2.win 3).blk t).view.read (Elt Ideal) (layer2 (V c main_v18) (V c main_v17) (V c main_v19)) := by
  show (cfg2.win 3).cut (grid2.coords t) ((dat2 V c).after 3 t) = _
  rw [after2_3]
  unfold out2_3
  rw [View.canon_unit_zero zero_offsets]
  simp only [View.ld_unit_zero (S := S512x512) zero_offsets, View.ld_unit_zero (S := S512x64) zero_offsets,
    View.ld_unit_zero (S := S1x64) zero_offsets]
  funext y
  obtain ⟨p, q, rfl⟩ : ∃ (p : Fin 512) (q : Fin 64), y = ix2 p q := ⟨y 0, y 1, eq_ix2 y⟩
  have ht : t.val < 8 := (index2 t).2.2.2.2.2.2.2.2
  show (k2_pay1 (iblk2 V c 0 t) (iblk2 V c 1 t) (iblk2 V c 2 t) : S512x64.Idx → EReal) (ix2 p q)
    = layer2 (V c main_v18) (V c main_v17) (V c main_v19) (((cfg2.win 3).blk t).view.emb (ix2 p q))
  refine (body2_apply (iblk2 V c 0 t) (iblk2 V c 1 t) (iblk2 V c 2 t) p q).trans ?_
  refine Eq.trans ?_ (congrArg (layer2 (V c main_v18) (V c main_v17) (V c main_v19))
    (output2_emb t p q ⟨t.val * 512 + p.val, by omega⟩ rfl)).symm
  exact congrArg₂ (· + ·)
    (Finset.sum_congr rfl fun j _ => congrArg₂ (· * ·)
      (input2_apply V c t p j ⟨t.val * 512 + p.val, by omega⟩ rfl) (weights2_apply V c t j q))
    (bias2_apply V c t q)

/-- An index of the output array is in point t's block iff each coordinate is in the block's range on its axis. -/
theorem mem_block2 (t : Fin cfg2.N) (i : S4096x64.Idx) :
    i ∈ ((cfg2.win 3).blk t).view.set
      ↔ ∀ a : Fin 2, win2_3.index t a * S512x64.size a ≤ (i a).val
          ∧ (i a).val < win2_3.index t a * S512x64.size a + S512x64.size a := by
  show i ∈ ((View.whole main_v20).slice (win2_3.rect t)).set ↔ _
  rw [View.set_slice_whole, Rect.mem_set_unit]
  exact Iff.rfl

/-- The row blocks tile the output: row r lies in the block of point r / 512. -/
theorem cover2 (i : S4096x64.Idx) :
    ∃ t : Fin cfg2.N, (cfg2.win 3).flush t = true ∧ i ∈ ((cfg2.win 3).blk t).view.set := by
  have hi0 : (i 0).val < 4096 := (i 0).isLt
  have hi1 : (i 1).val < 64 := (i 1).isLt
  have hN : cfg2.N = 8 := N_2
  refine ⟨⟨(i 0).val / 512, by rw [hN]; omega⟩, flush2_3 _, ?_⟩
  rw [mem_block2]
  obtain ⟨-, -, -, -, -, -, e0, e1, -⟩ := index2 ⟨(i 0).val / 512, by rw [hN]; omega⟩
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 64 ≤ (i 1).val ∧ (i 1).val < win2_3.index _ (1 : Fin 2) * 64 + 64
    rw [e1]; omega

/-- The output array after the second layer is the layer of the three arrays as the region finds them. -/
theorem region2_array (c : Dev nD) :
    (dat2 (F := Ideal) V c).arrAt 3 cfg2.N = layer2 (V c main_v18) (V c main_v17) (V c main_v19) :=
  (dat2 (F := Ideal) V c).arrAt_eq_of_cover 3 (layer2 (V c main_v18) (V c main_v17) (V c main_v19))
    (fun t _ => flushed2_eq V c t) cover2

/-- Index by index: entry (r, o) of the output is row r of the input against column o of the weights, plus the
    bias at o. -/
theorem region2_value (V : (c : Dev nD) → (b : Ref sig .tc) → Buf (Elt Ideal) ((c : Thread nD τ).loc b)) (c : Dev nD)
    (r : Fin 4096) (o : Fin 64) :
    ((Gen.dat2 (F := Ideal) V c).arrAt 3 cfg2.N : S4096x64.Idx → EReal) (ix2 r o)
      = linearAt (a := 4096) (k := 512) (b := 64) (V c main_v18) (V c main_v17) (V c main_v19) r o := by
  rw [region2_array V c]
  rfl

end Cert.KernelIdeal.Linear

end
-- ==== Proof.FlashDefs.lean ====
/-
  The flash-attention body's recurrence, named.

  The body keeps three buffers across its four trips: a running row maximum m, a running row
  sum l and a running accumulator a. A trip reads one block of 1024 key rows and the matching
  block of value rows and replaces (m, l, a) by the body's three stored values, each a pure
  function of the query block, the two blocks and the old contents. After the last trip the
  body stores a * (1 / l), transposed. These definitions name that recurrence over the pure
  terms of the body's stores, for any float instance.
-/
import proofs.«175403_j47682726921138_2_alg».proof.Proof.Gen.KernelIdeal.Skeleton

noncomputable section

namespace Cert.KernelIdeal.Flash

open Idealize.ShloMosaic Cert.KernelIdeal Cert.KernelIdeal.Gen

variable {F : FTy → Type} [FloatOps F] [Named F]

/-- The three carried buffers: running maximum, running sum, accumulator. -/
structure St (F : FTy → Type) where
  /-- the running row maximum -/
  m : Vec F S1024x1 .f32
  /-- the running row sum of exponentials -/
  l : Vec F S1024x1 .f32
  /-- the running accumulator -/
  a : Vec F S1024x64 .f32

/-- What the body stores before the first trip: maximum -∞, sum 0, accumulator 0. -/
def st0 : St F := ⟨k1_pay1, k1_pay2, k1_pay3⟩

/-- One trip: from the query block q, a key block kb, a value block vb and the old contents,
    the three values the trip stores. -/
def stStep (q kb vb : Vec F S1x1024x64 .bf16) (s : St F) : St F :=
  ⟨k1_pay6 (k1_pay9 (k1_pay4 q) kb s.m), k1_pay12 (k1_pay4 q) kb s.m s.l,
    k1_pay5 (k1_pay13 (k1_pay4 q) kb vb s.m s.a)⟩

/-- The contents after the first j trips (all four for j ≥ 4). -/
def stRun (q : Vec F S1x1024x64 .bf16) (kb vb : Fin 4 → Vec F S1x1024x64 .bf16) : ℕ → St F
  | 0 => st0
  | j + 1 => if h : j < 4 then stStep q (kb ⟨j, h⟩) (vb ⟨j, h⟩) (stRun q kb vb j) else stRun q kb vb j

/-- The block the body stores into its output window after the four trips. -/
def outBlock (q : Vec F S1x1024x64 .bf16) (kb vb : Fin 4 → Vec F S1x1024x64 .bf16) : Vec F S1x64x1024 .bf16 :=
  k1_pay7 (stRun q kb vb 4).a (stRun q kb vb 4).l

end Cert.KernelIdeal.Flash

end
-- ==== Proof.LibWholeStore.lean ====
/-
  A buffer whose LAST store went through the rectangle of its whole shape (offset 0 on every axis, the shape's own
  extents): whatever was stored before, the buffer then reads as that store's payload, and a load through the same
  rectangle reads the payload too.  For any reference signature, memory space, shape and element type: what a kernel
  that keeps a running value in a scratch buffer (store the whole buffer, load it back at the next step) needs.
-/
import Idealize.ShloMosaic.Lib.Pipeline.FrameBody
import Idealize.ShloMosaic.Lib.Pipeline.Value

noncomputable section

namespace Cert.Lib.WholeStore

open Idealize.ShloMosaic

/-- A buffer whose last store was through the whole-shape rectangle reads as that store's payload. -/
theorem read_writes_unit_cons {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load through the whole-shape rectangle after such a store reads its payload. -/
theorem readCov_unit_cons {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Cert.Lib.WholeStore

end
-- ==== Proof.FlashRun.lean ====
/-
  The flash-attention region's run, read structurally.

  The region's body keeps three buffers across its four trips (a running row maximum, a running
  row sum, a running accumulator). Every store to one of them, and every load from one of them,
  goes through the rectangle of the buffer's whole shape, so after a store the buffer reads as the
  stored value and a load reads what the buffer holds. Trip t reads rows 1024·t … 1024·t + 1023 of
  the resident key block and of the resident value block. Hence the contents after k trips are the
  k-fold recurrence Flash.stRun of the query block and those row blocks, and the block the body
  stores into its output window after the last trip is Flash.outBlock. No arithmetic is opened:
  the stored values stay the folded pure terms of the body.
-/
import proofs.«175403_j47682726921138_2_alg».proof.Proof.Gen.KernelIdeal.Frame
import proofs.«175403_j47682726921138_2_alg».proof.Proof.FlashDefs
import proofs.«175403_j47682726921138_2_alg».proof.Proof.LibWholeStore
import Idealize.ShloMosaic.Lib.ValueIdx

set_option maxRecDepth 16384

noncomputable section

namespace Cert.KernelIdeal.FlashRun

open Idealize.ShloMosaic Idealize.ShloMosaic.TcCoe Idealize.ShloMosaic.Tactic Idealize.ShloMosaic.ValueIdx
open Cert.KernelIdeal Cert.KernelIdeal.Gen Cert.Lib.WholeStore

variable {F : FTy → Type} [FloatOps F] [Named F]

/-! ## The four trips and the rows each reads -/

/-- The loop runs from 0 to 4 in steps of 1: four trips. -/
theorem trips_eq : k1_t1_loop.trips = 4 := by decide +kernel

/-- Trip t of four, as one of the loop's trips. -/
def trip (t : Fin 4) : Fin k1_t1_loop.trips := ⟨t.val, lt_of_lt_of_eq t.isLt trips_eq.symm⟩

/-- Rows 1024·t … 1024·t + 1023 of a resident [1,4096,64] block: what the trip-t load through the
    rectangle of 1024 rows at the trip's row offset reads. -/
def rows (x : Vec F S1x4096x64 .bf16) (t : Fin 4) : Vec F S1x1024x64 .bf16 :=
  View.ld (Val := Elt F) (e' := .bf16) x
    (Rect.unit (s := S1x4096x64) (k1_off1 (trip t)) S1x1024x64.size (k1_off1_inb (trip t)))

/-- Row j of the t-th row block is row 1024·t + j of the block. -/
theorem rows_apply (x : Vec F S1x4096x64 .bf16) (t : Fin 4) (j : Fin 1024) (e : Fin 64) :
    rows x t (ix3 0 j e) = x (ix3 0 ⟨t.val * 1024 + j.val, by omega⟩ e) := by
  have hoff := k1_off1_eq (trip t)
  unfold rows
  refine congrArg x (funext fun a => Fin.ext ?_)
  show k1_off1 (trip t) a + 1 * ((ix3 (0 : Fin 1) j e : S1x1024x64.Idx) a).val = _
  rw [hoff]
  match a with
  | ⟨0, _⟩ => rfl
  | ⟨1, _⟩ => show 1024 * t.val + 1 * j.val = t.val * 1024 + j.val; omega
  | ⟨2, _⟩ => show 0 + 1 * e.val = e.val; omega

/-! ## Loads and stores through a buffer's whole rectangle -/

theorem hz2 : (![0, 0] : Fin 2 → ℕ) = fun _ => 0 := by
  funext a; match a with | ⟨0, _⟩ => rfl | ⟨1, _⟩ => rfl

theorem hz3 : (![0, 0, 0] : Fin 3 → ℕ) = fun _ => 0 := by
  funext a; match a with | ⟨0, _⟩ => rfl | ⟨1, _⟩ => rfl | ⟨2, _⟩ => rfl

/-- A load of the whole [1024,1] buffer. -/
abbrev ldCol (m : Memref sig .tc .vmem S1024x1 .f32) (f : BufTy.Contents (Elt F) m.view.ty) : Vec F S1024x1 .f32 :=
  View.readAt (Elt F) m.view (Rect.unit (s := S1024x1) ![0, 0] S1024x1.size inb_S1024x1_S1024x1_0_0).toLoadRect f

/-- A load of the whole [1024,64] buffer. -/
abbrev ldAcc (m : Memref sig .tc .vmem S1024x64 .f32) (f : BufTy.Contents (Elt F) m.view.ty) : Vec F S1024x64 .f32 :=
  View.readAt (Elt F) m.view (Rect.unit (s := S1024x64) ![0, 0] S1024x64.size inb_S1024x64_S1024x64_0_0).toLoadRect f

/-- A load of the whole [1,1024,64] query buffer. -/
abbrev ldQ (m : Memref sig .tc .vmem S1x1024x64 .bf16) (f : BufTy.Contents (Elt F) m.view.ty) : Vec F S1x1024x64 .bf16 :=
  View.readAt (Elt F) m.view (Rect.unit (s := S1x1024x64) ![0, 0, 0] S1x1024x64.size inb_S1x1024x64_S1x1024x64_0_0_0).toLoadRect f

/-- Trip k's load of 1024 rows of a resident [1,4096,64] buffer. -/
abbrev ldRows (m : Memref sig .tc .vmem S1x4096x64 .bf16) (k : Fin k1_t1_loop.trips) (f : BufTy.Contents (Elt F) m.view.ty) : Vec F S1x1024x64 .bf16 :=
  View.readAt (Elt F) m.view (Rect.unit (s := S1x4096x64) (k1_off1 k) S1x1024x64.size (k1_off1_inb k)).toLoadRect f

theorem ldCol_eq (m : Memref sig .tc .vmem S1024x1 .f32) (f : BufTy.Contents (Elt F) m.view.ty) :
    ldCol m f = m.view.read (Elt F) f := by
  show View.readAt (Elt F) m.view _ f = _
  rw [View.readAt_eq_ld, View.ld_unit_zero (S := S1024x1) hz2]

theorem ldAcc_eq (m : Memref sig .tc .vmem S1024x64 .f32) (f : BufTy.Contents (Elt F) m.view.ty) :
    ldAcc m f = m.view.read (Elt F) f := by
  show View.readAt (Elt F) m.view _ f = _
  rw [View.readAt_eq_ld, View.ld_unit_zero (S := S1024x64) hz2]

theorem ldQ_eq (m : Memref sig .tc .vmem S1x1024x64 .bf16) (f : BufTy.Contents (Elt F) m.view.ty) :
    ldQ m f = m.view.read (Elt F) f := by
  show View.readAt (Elt F) m.view _ f = _
  rw [View.readAt_eq_ld, View.ld_unit_zero (S := S1x1024x64) hz3]

/-- Trip t's load of a resident buffer that reads x is the t-th row block of x. -/
theorem ldRows_eq (m : Memref sig .tc .vmem S1x4096x64 .bf16) (t : Fin 4) (f : BufTy.Contents (Elt F) m.view.ty)
    (x : Vec F S1x4096x64 .bf16) (hf : m.view.read (Elt F) f = x) : ldRows m (trip t) f = rows x t := by
  show View.readAt (Elt F) m.view _ f = _
  rw [View.readAt_eq_ld, hf]; rfl

/-! ## One trip's stores -/

section Run

variable (c : Dev nD) (i : grid1.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x64x1024 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)

/-- What one trip stores, as the loop's own account of it lists: into each of the three buffers one
    store through the buffer's whole rectangle, of the body's pure term for that buffer applied to
    the query block, the trip's rows of the key and value buffers, and the loads of what the trip
    finds in the three buffers. -/
theorem trip_pieces (𝒱 : Variants) (bd : Option 𝒱.V) (v12 : Vec F S1x1024x64 .bf16)
    (X3 : BufTy.Contents (Elt F) arg3.view.ty) (X4 : BufTy.Contents (Elt F) arg4.view.ty) (k : Fin k1_t1_loop.trips)
    (f6 : BufTy.Contents (Elt F) arg6.view.ty) (f7 : BufTy.Contents (Elt F) arg7.view.ty) (f8 : BufTy.Contents (Elt F) arg8.view.ty) :
    Gen.tripL_k1_t1 (F := F) 𝒱 c bd i arg2 harg2 arg3 harg3 arg4 harg4 arg5 harg5 arg6 harg6 arg7 harg7 arg8 harg8 v12 X3 X4 k f6 f7 f8
      = ([⟨Rect.unit (s := S1024x1) ![0, 0] S1024x1.size inb_S1024x1_S1024x1_0_0,
            k1_pay6 (k1_pay9 (k1_pay4 v12) (ldRows arg3 k X3) (ldCol arg6 f6))⟩],
         [⟨Rect.unit (s := S1024x1) ![0, 0] S1024x1.size inb_S1024x1_S1024x1_0_0,
            k1_pay12 (k1_pay4 v12) (ldRows arg3 k X3) (ldCol arg6 f6) (ldCol arg7 f7)⟩],
         [⟨Rect.unit (s := S1024x64) ![0, 0] S1024x64.size inb_S1024x64_S1024x64_0_0,
            k1_pay5 (k1_pay13 (k1_pay4 v12) (ldRows arg3 k X3) (ldRows arg4 k X4) (ldCol arg6 f6) (ldAcc arg8 f8))⟩]) := by
  unfold Gen.tripL_k1_t1
  unfold Gen.trip_k1_t1
  dsimp only
  rfl

/-! ## The three buffers after k trips -/

/-- After k of the four trips, started from buffers that read as the three initial values, the
    three buffers read as the k-fold recurrence of the query block q and the row blocks of what the
    key and value buffers read. Each trip stores through the whole rectangles, so each buffer reads
    as the trip's stored value, a pure term of the loads of what the trip found. -/
theorem state_after (𝒱 : Variants) (bd : Option 𝒱.V) (q : Vec F S1x1024x64 .bf16) (x1 x2 : Vec F S1x4096x64 .bf16)
    (X3 : BufTy.Contents (Elt F) arg3.view.ty) (X4 : BufTy.Contents (Elt F) arg4.view.ty)
    (G6 : BufTy.Contents (Elt F) arg6.view.ty) (G7 : BufTy.Contents (Elt F) arg7.view.ty) (G8 : BufTy.Contents (Elt F) arg8.view.ty)
    (hX3 : arg3.view.read (Elt F) X3 = x1) (hX4 : arg4.view.read (Elt F) X4 = x2)
    (hG6 : arg6.view.read (Elt F) G6 = k1_pay1) (hG7 : arg7.view.read (Elt F) G7 = k1_pay2)
    (hG8 : arg8.view.read (Elt F) G8 = k1_pay3) :
    ∀ k, k ≤ 4 →
      arg6.view.read (Elt F) (arg6.view.writes (Elt F) G6 (Gen.pb_k1_t1 (F := F) 𝒱 c bd i arg2 harg2 arg3 harg3 arg4 harg4 arg5 harg5 arg6 harg6 arg7 harg7 arg8 harg8 q X3 X4 G6 G7 G8 k).1)
          = (Flash.stRun q (rows x1) (rows x2) k).m ∧
      arg7.view.read (Elt F) (arg7.view.writes (Elt F) G7 (Gen.pb_k1_t1 (F := F) 𝒱 c bd i arg2 harg2 arg3 harg3 arg4 harg4 arg5 harg5 arg6 harg6 arg7 harg7 arg8 harg8 q X3 X4 G6 G7 G8 k).2.1)
          = (Flash.stRun q (rows x1) (rows x2) k).l ∧
      arg8.view.read (Elt F) (arg8.view.writes (Elt F) G8 (Gen.pb_k1_t1 (F := F) 𝒱 c bd i arg2 harg2 arg3 harg3 arg4 harg4 arg5 harg5 arg6 harg6 arg7 harg7 arg8 harg8 q X3 X4 G6 G7 G8 k).2.2)
          = (Flash.stRun q (rows x1) (rows x2) k).a := by
  intro k
  induction k with
  | zero => intro _; exact ⟨hG6, hG7, hG8⟩
  | succ k ih =>
    intro hk
    have hk4 : k < 4 := by omega
    obtain ⟨h6, h7, h8⟩ := ih (by omega)
    have hs := Gen.pb_k1_t1_succ (F := F) 𝒱 c bd i arg2 harg2 arg3 harg3 arg4 harg4 arg5 harg5 arg6 harg6 arg7 harg7 arg8 harg8 q X3 X4 G6 G7 G8 (trip ⟨k, hk4⟩)
    rw [trip_pieces] at hs
    have hv : ((trip ⟨k, hk4⟩ : Fin k1_t1_loop.trips) : ℕ) = k := rfl
    rw [hv] at hs
    have hs' : Gen.pb_k1_t1 (F := F) 𝒱 c bd i arg2 harg2 arg3 harg3 arg4 harg4 arg5 harg5 arg6 harg6 arg7 harg7 arg8 harg8 q X3 X4 G6 G7 G8 (k + 1) = _ := hs
    have hrun : Flash.stRun q (rows x1) (rows x2) (k + 1)
        = Flash.stStep q (rows x1 ⟨k, hk4⟩) (rows x2 ⟨k, hk4⟩) (Flash.stRun q (rows x1) (rows x2) k) := by
      show (if h : k < 4 then _ else _) = _
      rw [dif_pos hk4]
    rw [hs', hrun]
    dsimp only [List.cons_append, List.nil_append]
    rw [read_writes_unit_cons arg6.view G6 hz2, read_writes_unit_cons arg7.view G7 hz2,
      read_writes_unit_cons arg8.view G8 hz2]
    rw [ldCol_eq, ldCol_eq, ldAcc_eq, h6, h7, h8, ldRows_eq arg3 ⟨k, hk4⟩ X3 x1 hX3,
      ldRows_eq arg4 ⟨k, hk4⟩ X4 x2 hX4]
    exact ⟨rfl, rfl, rfl⟩

/-! ## The run's one store into the output window -/

/-- The three buffers before the loop: junk overwritten through the whole rectangle. -/
theorem hG1 (m : Memref sig .tc .vmem S1024x1 .f32) (w : Vec F S1024x1 .f32) :
    m.view.read (Elt F) (m.view.writes (Elt F) m.view.junk
      [⟨Rect.unit (s := S1024x1) ![0, 0] S1024x1.size inb_S1024x1_S1024x1_0_0, w⟩]) = w :=
  read_writes_unit_cons m.view m.view.junk hz2 _ w []

theorem hG3 (m : Memref sig .tc .vmem S1024x64 .f32) (w : Vec F S1024x64 .f32) :
    m.view.read (Elt F) (m.view.writes (Elt F) m.view.junk
      [⟨Rect.unit (s := S1024x64) ![0, 0] S1024x64.size inb_S1024x64_S1024x64_0_0, w⟩]) = w :=
  read_writes_unit_cons m.view m.view.junk hz2 _ w []

/-- What the run finds it stored into the output window: one store through the window's whole
    rectangle, of the final pure term applied to the loads of the accumulator and the sum buffers
    after the loop. -/
theorem run_pieces (x0 : Vec F S1x1024x64 .bf16) (x1 x2 : Vec F S1x4096x64 .bf16) :
    (Gen.kernelRun1_A (F := F) c i arg2 harg2 arg3 harg3 arg4 harg4 arg5 harg5 arg6 harg6 arg7 harg7 arg8 harg8 x0 x1 x2).1
      = [⟨Rect.unit (s := S1x64x1024) ![0, 0, 0] S1x64x1024.size inb_S1x64x1024_S1x64x1024_0_0_0,
          k1_pay7
            (ldAcc arg8 (arg8.view.writes (Elt F) arg8.view.junk
              ((Gen.pb_k1_t1 (F := F) Variants.none c none i arg2 harg2 arg3 harg3 arg4 harg4 arg5 harg5 arg6 harg6 arg7 harg7 arg8 harg8 (ldQ arg2 (harg2.unread x0))
                  (harg3.unread x1) (harg4.unread x2)
                  (arg6.view.writes (Elt F) arg6.view.junk [⟨Rect.unit (s := S1024x1) ![0, 0] S1024x1.size inb_S1024x1_S1024x1_0_0, k1_pay1⟩])
                  (arg7.view.writes (Elt F) arg7.view.junk [⟨Rect.unit (s := S1024x1) ![0, 0] S1024x1.size inb_S1024x1_S1024x1_0_0, k1_pay2⟩])
                  (arg8.view.writes (Elt F) arg8.view.junk [⟨Rect.unit (s := S1024x64) ![0, 0] S1024x64.size inb_S1024x64_S1024x64_0_0, k1_pay3⟩])
                  k1_t1_loop.trips).2.2
                ++ [⟨Rect.unit (s := S1024x64) ![0, 0] S1024x64.size inb_S1024x64_S1024x64_0_0, k1_pay3⟩])))
            (ldCol arg7 (arg7.view.writes (Elt F) arg7.view.junk
              ((Gen.pb_k1_t1 (F := F) Variants.none c none i arg2 harg2 arg3 harg3 arg4 harg4 arg5 harg5 arg6 harg6 arg7 harg7 arg8 harg8 (ldQ arg2 (harg2.unread x0))
                  (harg3.unread x1) (harg4.unread x2)
                  (arg6.view.writes (Elt F) arg6.view.junk [⟨Rect.unit (s := S1024x1) ![0, 0] S1024x1.size inb_S1024x1_S1024x1_0_0, k1_pay1⟩])
                  (arg7.view.writes (Elt F) arg7.view.junk [⟨Rect.unit (s := S1024x1) ![0, 0] S1024x1.size inb_S1024x1_S1024x1_0_0, k1_pay2⟩])
                  (arg8.view.writes (Elt F) arg8.view.junk [⟨Rect.unit (s := S1024x64) ![0, 0] S1024x64.size inb_S1024x64_S1024x64_0_0, k1_pay3⟩])
                  k1_t1_loop.trips).2.1
                ++ [⟨Rect.unit (s := S1024x1) ![0, 0] S1024x1.size inb_S1024x1_S1024x1_0_0, k1_pay2⟩])))⟩] := by
  unfold Gen.kernelRun1_A
  dsimp only
  sl_unfold_words
  rfl

end Run

/-! ## The staged output block -/

/-- The block the run leaves in the output window's staging buffer is the named recurrence of the
    query block and the four row blocks of the key and value blocks. -/
theorem out1_A_3_eq (c : Dev nD) (i : grid1.Coords) (arg2 : Memref sig .tc .vmem S1x1024x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x64x1024 .bf16) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole)
    (x0 : Vec F S1x1024x64 .bf16) (x1 x2 : Vec F S1x4096x64 .bf16) :
    Gen.out1_A_3 (F := F) c i arg2 harg2 arg3 harg3 arg4 harg4 arg5 harg5 arg6 harg6 arg7 harg7 arg8 harg8 x0 x1 x2
      = Flash.outBlock x0 (rows x1) (rows x2) := by
  unfold Gen.out1_A_3
  rw [run_pieces, read_writes_unit_cons VO1_3 VO1_3.junk hz3]
  rw [ldAcc_eq, ldCol_eq, View.writes_append, View.writes_append, ldQ_eq, harg2.read_unread, trips_eq]
  obtain ⟨-, h7, h8⟩ := state_after (F := F) c i arg2 harg2 arg3 harg3 arg4 harg4 arg5 harg5 arg6 harg6 arg7 harg7 arg8 harg8 Variants.none none x0 x1 x2
    (harg3.unread x1) (harg4.unread x2) _ _ _ (harg3.read_unread x1) (harg4.read_unread x2)
    (hG1 arg6 k1_pay1) (hG1 arg7 k1_pay2) (hG3 arg8 k1_pay3) 4 (le_refl 4)
  rw [h7, h8]
  rfl

/-- The same at a point of the region's pipeline: the output window's staging buffer after the
    body at point t holds the recurrence of the point's three input blocks. -/
theorem outsAt1_eq (V : (c : Dev nD) → (b : Ref sig .tc) → Buf (Elt F) ((c : Thread nD τ).loc b)) (c : Dev nD) (t : Fin cfg1.N) :
    Gen.outsAt1 (F := F) V c t
      = Flash.outBlock (Gen.iblk1 V c 0 t) (rows (Gen.iblk1 V c 1 t)) (rows (Gen.iblk1 V c 2 t)) := by
  unfold Gen.outsAt1
  exact out1_A_3_eq (F := F) c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)
    (Gen.iblk1 V c 0 t) (Gen.iblk1 V c 1 t) (Gen.iblk1 V c 2 t)

end Cert.KernelIdeal.FlashRun

end
-- ==== Proof.LibOnlineSoftmax.lean ====
/-
  Online softmax on the extended reals.

  A row of real logits is cut into n blocks; block j holds the logits σ j k and the
  values v j k (k in a finite nonempty index set). The online softmax reads the blocks one
  after another and keeps three numbers: a running maximum m, a running sum l and a running
  weighted sum a. Before the first block (m, l, a) = (-∞, 0, 0). A block with maximum b
  replaces them by

      m' = max m b
      l' = exp (m - m') * l + ∑ k, exp (σ k - m')
      a' = exp (m - m') * a + ∑ k, exp (σ k - m') * v k

  (at the first block m = -∞, exp (-∞ - m') = 0 and 0 * 0 = 0, so the old terms vanish).
  Because exp (m - m') * exp (s - m) = exp (s - m'), after j ≥ 1 blocks m is the maximum M of
  the logits read so far, l = ∑ exp (σ - M) and a = ∑ exp (σ - M) * v over them. After all n
  blocks, with M the maximum of all the logits,

      a / l = (∑ exp (σ - M) * v) / (∑ exp (σ - M)),

  which is the softmax-weighted mean of v: the same closed form the direct softmax
  (maximum over all keys, exponentials, one sum, one division per key) has. The denominator
  is positive, as every exponential is.

  All operations are the exact operations of the extended reals; the data are real, and the
  only non-real value met is the initial maximum -∞.
-/
import Mathlib.Data.EReal.Inv
import Mathlib.Analysis.SpecialFunctions.Exp
import Mathlib.Algebra.BigOperators.Field
import Mathlib.Algebra.Order.BigOperators.Group.Finset
import Mathlib.Data.Fintype.BigOperators
import Idealize.ShloMosaic.PureOps.Ideal

noncomputable section

namespace Cert.Lib.OnlineSoftmax

open Idealize.ShloMosaic
open scoped BigOperators

/-! ### General facts on coerced reals -/

/-- The sum of the coercions of finitely many reals is the coercion of their sum. -/
theorem coe_finset_sum {α : Type*} (s : Finset α) (f : α → ℝ) :
    (∑ t ∈ s, (f t : EReal)) = ((∑ t ∈ s, f t : ℝ) : EReal) := by
  induction s using Finset.cons_induction with
  | empty => simp
  | cons a s ha ih => rw [Finset.sum_cons, Finset.sum_cons, ih, EReal.coe_add]

/-- The maximum of the coercions of two reals is the coercion of their maximum. -/
theorem coe_max (x y : ℝ) : max (x : EReal) (y : EReal) = ((max x y : ℝ) : EReal) :=
  (EReal.coe_strictMono.monotone.map_max).symm

/-- The exponential of a difference of two reals is the real exponential of the difference. -/
theorem exp_coe_sub_coe (x y : ℝ) :
    Ideal.exp ((x : EReal) - (y : EReal)) = ((Real.exp (x - y) : ℝ) : EReal) := by
  rw [← EReal.coe_sub, Ideal.exp_coe]

/-- The quotient of two reals, the denominator not zero, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- Folding max from -∞ over the coercions of a nonempty finite family of reals gives the
    coercion of the family's maximum. -/
theorem fold_max_coe {α : Type*} (s : Finset α) (hs : s.Nonempty) (f : α → ℝ) :
    s.fold max (⊥ : EReal) (fun t => (f t : EReal)) = ((s.sup' hs f : ℝ) : EReal) := by
  induction hs using Finset.Nonempty.cons_induction with
  | singleton a => simp
  | cons a s ha hs ih =>
    rw [Finset.fold_cons, ih, Finset.sup'_cons hs, coe_max]

/-! ### The direct softmax over a nonempty finite family -/

section Direct

variable {κ : Type*} [Fintype κ] [Nonempty κ]

/-- The maximum of a real family over a nonempty finite index type. -/
def rmax (f : κ → ℝ) : ℝ := Finset.univ.sup' Finset.univ_nonempty f

/-- Every member is at most the maximum. -/
theorem le_rmax (f : κ → ℝ) (t : κ) : f t ≤ rmax f :=
  Finset.le_sup' f (Finset.mem_univ t)

/-- The maximum is attained. -/
theorem exists_eq_rmax (f : κ → ℝ) : ∃ t, f t = rmax f := by
  obtain ⟨t, _, ht⟩ := Finset.exists_mem_eq_sup' Finset.univ_nonempty f
  exact ⟨t, ht.symm⟩

/-- An upper bound that is attained is the maximum. -/
theorem rmax_eq_of {f : κ → ℝ} {M : ℝ} (hub : ∀ t, f t ≤ M) (hatt : ∃ t, f t = M) :
    rmax f = M := by
  apply le_antisymm
  · exact Finset.sup'_le _ _ (fun t _ => hub t)
  · obtain ⟨t, rfl⟩ := hatt
    exact le_rmax f t

/-- The maximum of the family folded from -∞ in the extended reals is the real maximum. -/
theorem fold_max_eq (f : κ → ℝ) :
    Finset.univ.fold max (⊥ : EReal) (fun t => (f t : EReal)) = ((rmax f : ℝ) : EReal) :=
  fold_max_coe Finset.univ Finset.univ_nonempty f

/-- A sum of exponentials over a nonempty finite family is positive. -/
theorem sum_exp_pos (f : κ → ℝ) (M : ℝ) : 0 < ∑ t, Real.exp (f t - M) :=
  Finset.sum_pos (fun _ _ => Real.exp_pos _) Finset.univ_nonempty

/-- The sum of the shifted exponentials in the extended reals is the real sum (any real
    shift M; the softmax takes M the maximum). -/
theorem sum_exp_eq (f : κ → ℝ) (M : ℝ) :
    ∑ t, Ideal.exp ((f t : EReal) - (M : EReal)) = ((∑ t, Real.exp (f t - M) : ℝ) : EReal) := by
  simp_rw [exp_coe_sub_coe]
  exact coe_finset_sum _ _

/-- The direct softmax-weighted sum: each shifted exponential divided by the sum of all of
    them, times its value, summed, is the real quotient of the weighted sum by the sum (any
    real shift M; the softmax takes M the maximum). -/
theorem softmax_eq (f w : κ → ℝ) (M : ℝ) :
    ∑ t, Ideal.div (Ideal.exp ((f t : EReal) - (M : EReal)))
        ((∑ u, Real.exp (f u - M) : ℝ) : EReal) * (w t : EReal)
      = (((∑ t, Real.exp (f t - M) * w t) / (∑ u, Real.exp (f u - M)) : ℝ) : EReal) := by
  have hZ : (∑ u, Real.exp (f u - M)) ≠ 0 := (sum_exp_pos f M).ne'
  simp_rw [exp_coe_sub_coe, div_coe_coe _ hZ, ← EReal.coe_mul]
  rw [coe_finset_sum, Finset.sum_div]
  congr 1
  exact Finset.sum_congr rfl (fun t _ => div_mul_eq_mul_div _ _ _)

end Direct

/-! ### The online softmax: state, one block's update, the run over the blocks -/

/-- The state of the online softmax: the running maximum, the running sum and the running
    weighted sum. -/
@[ext] structure St where
  /-- the running maximum -/
  m : EReal
  /-- the running sum of exponentials -/
  l : EReal
  /-- the running weighted sum -/
  a : EReal

/-- The state before the first block: maximum -∞, both sums zero. -/
def init : St := ⟨⊥, 0, 0⟩

section Defs

variable {ι : Type*} [Fintype ι]

/-- One block's update: the new maximum is the old one against the block's maximum; the old
    sums are rescaled by exp (old maximum - new maximum) and the block's sums of exponentials
    shifted by the new maximum are added. -/
def step (σ v : ι → ℝ) (st : St) : St :=
  let m' := max st.m (Finset.univ.fold max (⊥ : EReal) (fun k => (σ k : EReal)))
  ⟨m', Ideal.exp (st.m - m') * st.l + ∑ k, Ideal.exp ((σ k : EReal) - m'),
    Ideal.exp (st.m - m') * st.a + ∑ k, Ideal.exp ((σ k : EReal) - m') * (v k : EReal)⟩

/-- The state after the first j blocks (all n of them for j ≥ n). -/
def run {n : ℕ} (σ v : Fin n → ι → ℝ) : ℕ → St
  | 0 => init
  | j + 1 => if h : j < n then step (σ ⟨j, h⟩) (v ⟨j, h⟩) (run σ v j) else run σ v j

/-- Before any block the state is the initial one. -/
@[simp] theorem run_zero {n : ℕ} (σ v : Fin n → ι → ℝ) : run σ v 0 = init := rfl

/-- One more block, while there is one, is one more update. -/
theorem run_succ {n : ℕ} (σ v : Fin n → ι → ℝ) (j : ℕ) (h : j < n) :
    run σ v (j + 1) = step (σ ⟨j, h⟩) (v ⟨j, h⟩) (run σ v j) := by
  rw [run, dif_pos h]

end Defs

section Online

variable {ι : Type*} [Fintype ι] [Nonempty ι]

/-- The update of a state of three reals, in real terms. -/
theorem step_coe (σ v : ι → ℝ) (M L A : ℝ) :
    step σ v ⟨(M : EReal), (L : EReal), (A : EReal)⟩ =
      ⟨((max M (rmax σ) : ℝ) : EReal),
        ((Real.exp (M - max M (rmax σ)) * L + ∑ k, Real.exp (σ k - max M (rmax σ)) : ℝ) : EReal),
        ((Real.exp (M - max M (rmax σ)) * A
          + ∑ k, Real.exp (σ k - max M (rmax σ)) * v k : ℝ) : EReal)⟩ := by
  have hm : max (M : EReal) (Finset.univ.fold max (⊥ : EReal) (fun k => (σ k : EReal)))
      = ((max M (rmax σ) : ℝ) : EReal) := by
    rw [fold_max_eq, coe_max]
  simp only [step, hm, exp_coe_sub_coe, ← EReal.coe_mul, coe_finset_sum, ← EReal.coe_add]

/-- The first update: from maximum -∞ and zero sums the old terms vanish, and the state is
    the block's maximum and its two sums shifted by that maximum. -/
theorem step_init (σ v : ι → ℝ) :
    step σ v init =
      ⟨((rmax σ : ℝ) : EReal), ((∑ k, Real.exp (σ k - rmax σ) : ℝ) : EReal),
        ((∑ k, Real.exp (σ k - rmax σ) * v k : ℝ) : EReal)⟩ := by
  have hm : max (⊥ : EReal) (Finset.univ.fold max (⊥ : EReal) (fun k => (σ k : EReal)))
      = ((rmax σ : ℝ) : EReal) := by
    rw [fold_max_eq, max_eq_right bot_le]
  simp only [step, init, hm, EReal.bot_sub, Ideal.exp_bot, zero_mul, zero_add, exp_coe_sub_coe,
    ← EReal.coe_mul, coe_finset_sum]

end Online

/-! ### The invariant and the closed form of the run -/

section Main

variable {ι : Type*} [Fintype ι] [Nonempty ι] {n : ℕ}

/-- Rescaling a sum of exponentials shifted by M to the shift M':
    exp (M - M') * exp (s - M) = exp (s - M'). -/
theorem rescale_sum (σ : Fin n → ι → ℝ) (S : Finset (Fin n)) (M M' : ℝ) :
    Real.exp (M - M') * ∑ i ∈ S, ∑ k, Real.exp (σ i k - M)
      = ∑ i ∈ S, ∑ k, Real.exp (σ i k - M') := by
  rw [Finset.mul_sum]
  refine Finset.sum_congr rfl (fun i _ => ?_)
  rw [Finset.mul_sum]
  refine Finset.sum_congr rfl (fun k _ => ?_)
  rw [← Real.exp_add]
  congr 1
  ring

/-- Rescaling a weighted sum of exponentials shifted by M to the shift M'. -/
theorem rescale_wsum (σ v : Fin n → ι → ℝ) (S : Finset (Fin n)) (M M' : ℝ) :
    Real.exp (M - M') * ∑ i ∈ S, ∑ k, Real.exp (σ i k - M) * v i k
      = ∑ i ∈ S, ∑ k, Real.exp (σ i k - M') * v i k := by
  rw [Finset.mul_sum]
  refine Finset.sum_congr rfl (fun i _ => ?_)
  rw [Finset.mul_sum]
  refine Finset.sum_congr rfl (fun k _ => ?_)
  rw [← mul_assoc, ← Real.exp_add]
  congr 2
  ring

/-- The invariant: the state reached after reading the blocks of the set S has as maximum a
    real M that bounds the logits of those blocks and is one of them (so M is their maximum),
    and as sums the sums over those blocks of the exponentials shifted by M. -/
def Inv (σ v : Fin n → ι → ℝ) (S : Finset (Fin n)) (st : St) : Prop :=
  ∃ M : ℝ, (∀ i ∈ S, ∀ k, σ i k ≤ M) ∧ (∃ i ∈ S, ∃ k, σ i k = M) ∧
    st = ⟨(M : EReal), ((∑ i ∈ S, ∑ k, Real.exp (σ i k - M) : ℝ) : EReal),
      ((∑ i ∈ S, ∑ k, Real.exp (σ i k - M) * v i k : ℝ) : EReal)⟩

/-- The invariant holds after the first block, read from the initial state. -/
theorem inv_first (σ v : Fin n → ι → ℝ) (b : Fin n) :
    Inv σ v {b} (step (σ b) (v b) init) := by
  refine ⟨rmax (σ b), ?_, ?_, ?_⟩
  · intro i hi k
    rw [Finset.mem_singleton] at hi
    subst hi
    exact le_rmax (σ i) k
  · obtain ⟨k, hk⟩ := exists_eq_rmax (σ b)
    exact ⟨b, Finset.mem_singleton_self b, k, hk⟩
  · rw [step_init, Finset.sum_singleton, Finset.sum_singleton]

/-- The invariant is kept by reading one more block. -/
theorem inv_step (σ v : Fin n → ι → ℝ) {S : Finset (Fin n)} {st : St} {b : Fin n} (hb : b ∉ S)
    (h : Inv σ v S st) : Inv σ v (insert b S) (step (σ b) (v b) st) := by
  obtain ⟨M, hub, ⟨i₀, hi₀, k₀, hk₀⟩, rfl⟩ := h
  refine ⟨max M (rmax (σ b)), ?_, ?_, ?_⟩
  · intro i hi k
    rcases Finset.mem_insert.mp hi with rfl | hi
    · exact (le_rmax (σ i) k).trans (le_max_right _ _)
    · exact (hub i hi k).trans (le_max_left _ _)
  · rcases le_total M (rmax (σ b)) with hle | hle
    · obtain ⟨k, hk⟩ := exists_eq_rmax (σ b)
      exact ⟨b, Finset.mem_insert_self b S, k, by rw [hk, max_eq_right hle]⟩
    · exact ⟨i₀, Finset.mem_insert_of_mem hi₀, k₀, by rw [hk₀, max_eq_left hle]⟩
  · rw [step_coe, Finset.sum_insert hb, Finset.sum_insert hb, rescale_sum, rescale_wsum,
      add_comm (∑ i ∈ S, ∑ k, Real.exp (σ i k - max M (rmax (σ b)))),
      add_comm (∑ i ∈ S, ∑ k, Real.exp (σ i k - max M (rmax (σ b))) * v i k)]

/-- After j blocks, 1 ≤ j ≤ n, the invariant holds for the set of the first j blocks. -/
theorem run_inv (σ v : Fin n → ι → ℝ) : ∀ j : ℕ, 0 < j → j ≤ n →
    Inv σ v (Finset.univ.filter (fun i : Fin n => i.val < j)) (run σ v j) := by
  intro j
  induction j with
  | zero => intro h; exact absurd h (lt_irrefl 0)
  | succ j ih =>
    intro _ hj
    have hjn : j < n := hj
    rw [run_succ σ v j hjn]
    have hset : Finset.univ.filter (fun i : Fin n => i.val < j + 1)
        = insert (⟨j, hjn⟩ : Fin n) (Finset.univ.filter (fun i : Fin n => i.val < j)) := by
      ext i
      simp only [Finset.mem_filter, Finset.mem_univ, true_and, Finset.mem_insert, Fin.ext_iff]
      omega
    rcases Nat.eq_zero_or_pos j with h0 | hpos
    · subst h0
      have h1 : Finset.univ.filter (fun i : Fin n => i.val < 0 + 1) = {(⟨0, hjn⟩ : Fin n)} := by
        ext i
        simp only [Finset.mem_filter, Finset.mem_univ, true_and, Finset.mem_singleton, Fin.ext_iff]
        omega
      rw [h1, run_zero]
      exact inv_first σ v ⟨0, hjn⟩
    · rw [hset]
      refine inv_step σ v ?_ (ih hpos hjn.le)
      simp

/-- The maximum of all the logits, over all blocks (there is at least one block). -/
def gmax (hn : 0 < n) (σ : Fin n → ι → ℝ) : ℝ :=
  haveI : Nonempty (Fin n × ι) := ⟨(⟨0, hn⟩, Classical.arbitrary ι)⟩
  rmax (fun p : Fin n × ι => σ p.1 p.2)

/-- Every logit is at most the overall maximum. -/
theorem le_gmax (hn : 0 < n) (σ : Fin n → ι → ℝ) (j : Fin n) (k : ι) : σ j k ≤ gmax hn σ := by
  haveI : Nonempty (Fin n × ι) := ⟨(⟨0, hn⟩, Classical.arbitrary ι)⟩
  exact le_rmax (fun p : Fin n × ι => σ p.1 p.2) (j, k)

/-- The overall maximum is one of the logits. -/
theorem exists_eq_gmax (hn : 0 < n) (σ : Fin n → ι → ℝ) : ∃ j k, σ j k = gmax hn σ := by
  haveI : Nonempty (Fin n × ι) := ⟨(⟨0, hn⟩, Classical.arbitrary ι)⟩
  obtain ⟨p, hp⟩ := exists_eq_rmax (fun p : Fin n × ι => σ p.1 p.2)
  exact ⟨p.1, p.2, hp⟩

/-- An upper bound of all the logits that is one of them is the overall maximum. -/
theorem gmax_eq_of (hn : 0 < n) {σ : Fin n → ι → ℝ} {M : ℝ} (hub : ∀ j k, σ j k ≤ M)
    (hatt : ∃ j k, σ j k = M) : gmax hn σ = M := by
  haveI : Nonempty (Fin n × ι) := ⟨(⟨0, hn⟩, Classical.arbitrary ι)⟩
  obtain ⟨j, k, h⟩ := hatt
  exact rmax_eq_of (f := fun p : Fin n × ι => σ p.1 p.2) (fun p => hub p.1 p.2) ⟨(j, k), h⟩

/-- The double sum of shifted exponentials over at least one block is positive. -/
theorem sum_sum_exp_pos (hn : 0 < n) (σ : Fin n → ι → ℝ) (M : ℝ) :
    0 < ∑ j, ∑ k, Real.exp (σ j k - M) :=
  Finset.sum_pos (fun j _ => sum_exp_pos (σ j) M) ⟨⟨0, hn⟩, Finset.mem_univ _⟩

/-- THE CLOSED FORM of the online softmax after all n blocks: the maximum is the overall
    maximum M, the sum is ∑ exp (σ - M), the weighted sum is ∑ exp (σ - M) * v. -/
theorem run_eq (hn : 0 < n) (σ v : Fin n → ι → ℝ) :
    run σ v n =
      ⟨((gmax hn σ : ℝ) : EReal), ((∑ j, ∑ k, Real.exp (σ j k - gmax hn σ) : ℝ) : EReal),
        ((∑ j, ∑ k, Real.exp (σ j k - gmax hn σ) * v j k : ℝ) : EReal)⟩ := by
  obtain ⟨M, hub, ⟨i, _, k, hk⟩, hst⟩ := run_inv σ v n hn le_rfl
  have huniv : Finset.univ.filter (fun i : Fin n => i.val < n) = Finset.univ :=
    Finset.filter_true_of_mem (fun i _ => i.isLt)
  rw [huniv] at hub hst
  have hM : gmax hn σ = M := gmax_eq_of hn (fun j k => hub j (Finset.mem_univ j) k) ⟨i, k, hk⟩
  rw [hst, hM]

/-- The final running maximum is the overall maximum of the logits. -/
theorem run_m (hn : 0 < n) (σ v : Fin n → ι → ℝ) :
    (run σ v n).m = ((gmax hn σ : ℝ) : EReal) := by
  rw [run_eq hn σ v]

/-- The final running sum is the sum of the exponentials shifted by the overall maximum. -/
theorem run_l (hn : 0 < n) (σ v : Fin n → ι → ℝ) :
    (run σ v n).l = ((∑ j, ∑ k, Real.exp (σ j k - gmax hn σ) : ℝ) : EReal) := by
  rw [run_eq hn σ v]

/-- The final weighted sum is the sum of the shifted exponentials times the values. -/
theorem run_a (hn : 0 < n) (σ v : Fin n → ι → ℝ) :
    (run σ v n).a = ((∑ j, ∑ k, Real.exp (σ j k - gmax hn σ) * v j k : ℝ) : EReal) := by
  rw [run_eq hn σ v]

/-- The online softmax's result, the final weighted sum divided by the final sum, is the real
    quotient (∑ exp (σ - M) * v) / (∑ exp (σ - M)), M the overall maximum. -/
theorem run_div (hn : 0 < n) (σ v : Fin n → ι → ℝ) :
    Ideal.div (run σ v n).a (run σ v n).l
      = (((∑ j, ∑ k, Real.exp (σ j k - gmax hn σ) * v j k)
          / (∑ j, ∑ k, Real.exp (σ j k - gmax hn σ)) : ℝ) : EReal) := by
  rw [run_a hn, run_l hn]
  exact div_coe_coe _ (sum_sum_exp_pos hn σ _).ne'

end Main

/-! ### The online softmax against the direct softmax over all keys -/

section Bridge

variable {ι : Type*} [Fintype ι] [Nonempty ι] {n : ℕ} {κ : Type*} [Fintype κ] [Nonempty κ]

/-- A sum over all keys, the keys listed by a bijection with the (block, position) pairs, is
    the double sum over blocks and positions. -/
theorem sum_equiv_blocks (e : κ ≃ Fin n × ι) (g : Fin n → ι → ℝ) :
    ∑ t, g (e t).1 (e t).2 = ∑ j, ∑ k, g j k := by
  rw [← Fintype.sum_prod_type']
  exact Fintype.sum_equiv e _ _ (fun _ => rfl)

/-- The maximum over all keys, listed by such a bijection, is the overall maximum. -/
theorem rmax_equiv_blocks (hn : 0 < n) (e : κ ≃ Fin n × ι) (σ : Fin n → ι → ℝ) :
    rmax (fun t => σ (e t).1 (e t).2) = gmax hn σ := by
  apply rmax_eq_of
  · intro t
    exact le_gmax hn σ _ _
  · obtain ⟨j, k, h⟩ := exists_eq_gmax hn σ
    refine ⟨e.symm (j, k), ?_⟩
    rw [Equiv.apply_symm_apply]
    exact h

/-- The online softmax's result is the direct softmax-weighted sum over all keys (maximum
    over all keys, shifted exponentials, their sum, one division per key). -/
theorem run_div_eq_direct (hn : 0 < n) (e : κ ≃ Fin n × ι) (σ v : Fin n → ι → ℝ) :
    Ideal.div (run σ v n).a (run σ v n).l =
      ∑ t, Ideal.div
          (Ideal.exp ((σ (e t).1 (e t).2 : EReal)
            - ((rmax (fun t => σ (e t).1 (e t).2) : ℝ) : EReal)))
          ((∑ u, Real.exp (σ (e u).1 (e u).2 - rmax (fun t => σ (e t).1 (e t).2)) : ℝ) : EReal)
        * (v (e t).1 (e t).2 : EReal) := by
  rw [run_div hn, softmax_eq (fun t => σ (e t).1 (e t).2) (fun t => v (e t).1 (e t).2),
    rmax_equiv_blocks hn e σ,
    sum_equiv_blocks e (fun j k => Real.exp (σ j k - gmax hn σ) * v j k),
    sum_equiv_blocks e (fun j k => Real.exp (σ j k - gmax hn σ))]

end Bridge

end Cert.Lib.OnlineSoftmax
-- ==== Proof.Spec.lean ====
/-
  What one row of scaled softmax attention is, on the real numbers.

  A query row q is scored against each key row by their inner product divided by a fixed
  scale; the scores are shifted by their maximum and exponentiated; the result is the
  exponential-weighted mean of the values, (∑ exp (s - M) * w) / (∑ exp (s - M)).
  The same number is written twice: over one list of 4096 keys, and over 4 blocks of 1024
  keys (the arrangement a blockwise evaluation meets them in).
-/
import proofs.«175403_j47682726921138_2_alg».proof.Proof.LibOnlineSoftmax

noncomputable section

namespace Cert.Attn3d

open Cert.Lib.OnlineSoftmax
open scoped BigOperators

/-- The scale the scores are divided by: the single-precision number nearest to √512, which
    is exactly 11863283 / 2^19. -/
def scale : ℝ := 11863283 / 524288

theorem scale_pos : 0 < scale := by unfold scale; norm_num

/-- The reciprocal of the scale is the fraction 524288 / 11863283. -/
theorem inv_scale : (524288 / 11863283 : ℝ) = 1 / scale := by unfold scale; norm_num

/-- The score of a query row against a key row: the inner product divided by the scale. -/
def score (q k : Fin 64 → ℝ) : ℝ := (∑ e, q e * k e) / scale

/-- One query row's attention over 4096 keys with weights w (one column of the values):
    the mean of w weighted by the exponentials of the scores shifted by their maximum. -/
def attnRow (q : Fin 64 → ℝ) (k : Fin 4096 → Fin 64 → ℝ) (w : Fin 4096 → ℝ) : ℝ :=
  (∑ m, Real.exp (score q (k m) - rmax (fun u => score q (k u))) * w m)
    / (∑ m, Real.exp (score q (k m) - rmax (fun u => score q (k u))))

/-- The same mean with the keys met in 4 blocks of 1024: the maximum is over all blocks. -/
def attnRowBlk (q : Fin 64 → ℝ) (k : Fin 4 → Fin 1024 → Fin 64 → ℝ) (w : Fin 4 → Fin 1024 → ℝ) : ℝ :=
  (∑ t, ∑ j, Real.exp (score q (k t j) - gmax (n := 4) (by norm_num) (fun t j => score q (k t j))) * w t j)
    / (∑ t, ∑ j, Real.exp (score q (k t j) - gmax (n := 4) (by norm_num) (fun t j => score q (k t j))))

end Cert.Attn3d

end
-- ==== Proof.LibMatmulLastAxes.lean ====
/-
  A matrix product of two rank-2 arrays that contracts the LAST axis of both operands, read at coordinates.
  For dimension numbers that contract the left operand's second axis against the right operand's second axis, keep the
  left rows and the right rows and have no batch axis (lhs [a, k], rhs [b, k], result [a, b]: lhs · rhsᵀ without a
  transpose), the entry (p, q) of the product is the sum over the contracted position j of lhs (p, j) · rhs (q, j): the
  inner product of row p of the left operand with row q of the right. Both the matrix unit's product into a zero
  accumulator and the host's dot product are that sum on the extended reals.
-/
import Idealize.ShloMosaic.Lib.ValueIdx
import Idealize.ShloMosaic.PureOps.Ideal.Laws

open scoped BigOperators

namespace Cert.LibMatmulLastAxes

open Idealize.ShloMosaic Idealize.ShloMosaic.ValueIdx

variable {a k b : ℕ} (d : DotDims ⟨2, ![a, k]⟩ ⟨2, ![b, k]⟩ ⟨2, ![a, b]⟩)

/-- One contracted axis. -/
theorem contr_rank (hl : d.lhsContracting = [1]) : d.contr.rank = 1 := by
  rw [d.rank_contr, hl]; rfl

/-- Its extent is the shared inner extent k. -/
theorem contr_size (hl : d.lhsContracting = [1]) :
    d.contr.size ⟨0, by rw [contr_rank d hl]; exact Nat.one_pos⟩ = k := by
  rw [d.size_contr 0 (by rw [hl]; exact Nat.one_pos), List.getElem_of_eq hl]
  rfl

/-- The contraction index is its one coordinate. -/
noncomputable def contrEquiv (hl : d.lhsContracting = [1]) : d.contr.Idx ≃ Fin k :=
  contrEquiv1 d k (contr_rank d hl) (contr_size d hl)

/-- The left operand is read at row p, contracted position j. -/
theorem lhsIdx_ix2 (hl : d.lhsContracting = [1]) (hln : d.lhsNonContracting = [0]) (hlb : d.lhsBatch = [])
    (p : Fin a) (q : Fin b) (j : Fin k) :
    d.lhsIdx (ix2 p q) ((contrEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((contrEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((contrEquiv d hl).symm j) (1 : Fin 2)).val = j.val
    rw [d.lhsIdx_val_of_single hl]
    exact contrEquiv1_symm_val d k (contr_rank d hl) (contr_size d hl) j

/-- The right operand is read at row q, contracted position j. -/
theorem rhsIdx_ix2 (hl : d.lhsContracting = [1]) (hr : d.rhsContracting = [1]) (hln : d.lhsNonContracting = [0])
    (hrn : d.rhsNonContracting = [0]) (hlb : d.lhsBatch = []) (hrb : d.rhsBatch = [])
    (p : Fin a) (q : Fin b) (j : Fin k) :
    d.rhsIdx (ix2 p q) ((contrEquiv d hl).symm j) = ix2 q j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_singleton.mpr rfl
    show (d.rhsIdx (ix2 p q) ((contrEquiv d hl).symm j) (0 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])
  | ⟨1, _⟩ =>
    show (d.rhsIdx (ix2 p q) ((contrEquiv d hl).symm j) (1 : Fin 2)).val = j.val
    rw [d.rhsIdx_val_of_single hr]
    exact contrEquiv1_symm_val d k (contr_rank d hl) (contr_size d hl) j

variable {φ₁ φ₂ : FTy}

/-- The matrix unit's product into the zero accumulator, at (p, q). -/
theorem matmul_zero_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  rw [Ideal.matmul_constant_zero_apply, ← Equiv.sum_comp (contrEquiv d hl).symm]
  refine Finset.sum_congr rfl fun j _ => ?_
  rw [lhsIdx_ix2 d hl hln hlb p q j, rhsIdx_ix2 d hl hr hln hrn hlb hrb p q j]

/-- The host's dot product, at (p, q). -/
theorem dotGeneral_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![a, k]⟩ φ₁) (rhs : FVec Ideal ⟨2, ![b, k]⟩ φ₂)
    (p : Fin a) (q : Fin b) :
    FloatOps.dotGeneral d prec sched lhs rhs (ix2 p q) = ∑ j : Fin k, lhs (ix2 p j) * rhs (ix2 q j) := by
  rw [Ideal.dotGeneral_apply, ← Equiv.sum_comp (contrEquiv d hl).symm]
  refine Finset.sum_congr rfl fun j _ => ?_
  rw [lhsIdx_ix2 d hl hln hlb p q j, rhsIdx_ix2 d hl hr hln hrn hlb hrb p q j]

end Cert.LibMatmulLastAxes
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.FlashMath1.lean ====
/-
  One trip of the blockwise attention body, read entry by entry on the extended reals.

  The body holds a query block x (1024 rows of 64 entries). A trip meets a key block kb and a
  value block vb (1024 rows of 64 entries each) and the old buffers m, l (one entry per row) and
  a (64 entries per row). Row p of the trip's values depends on row p of x, m, l, a only:

      s (p, j)  = (∑ e, x (p, e) * kb (j, e)) * c          the scaled scores, c the named constant
      m' (p)    = max (m p) (max over j of s (p, j))        the maximum folded from -∞
      r (p)     = exp (m p - m' p)                          the rescaling of the old sums
      w (p, j)  = exp (s (p, j) - m' p)
      l' (p)    = r p * l p + ∑ j, w (p, j)
      a' (p, d) = r p * a (p, d) + ∑ j, w (p, j) * vb (j, d)

  and after the last trip the body stores a (p, d) * (1 / l p) at (d, p). A change of float
  format is the identity here, a cast between [1, n, k] and [n, k] keeps the entries, a column
  [n, 1] laid along a row repeats its entry. Each lemma below reads one of the body's pure terms
  at explicit coordinates.
-/
import proofs.«175403_j47682726921138_2_alg».proof.Proof.FlashDefs
import proofs.«175403_j47682726921138_2_alg».proof.Proof.Spec
import proofs.«175403_j47682726921138_2_alg».proof.Proof.LibMatmulLastAxes
import proofs.«175403_j47682726921138_2_alg».proof.Proof.LibMatmul
import proofs.«175403_j47682726921138_2_alg».proof.Proof.LibRowReduce
import proofs.«175403_j47682726921138_2_alg».proof.Proof.LibColumns
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.IdealRules

noncomputable section

namespace Cert.KernelIdeal.FlashMath

open Idealize.ShloMosaic Idealize.ShloMosaic.ValueIdx Cert.KernelIdeal Cert.KernelIdeal.Gen
open scoped BigOperators

/-! ### The constants -/

/-- The word of -∞ denotes the bottom of the extended reals. -/
theorem ofBits_neg_inf : Ideal.ofBits .f32 0xFF800000#32 = (⊥ : EReal) := by
  simp [Ideal.ofBits, Ideal.ieee]

/-- The named scale constant is the rational the table gives it. -/
theorem inv_val :
    Named.named (F := Ideal) Cert.KernelIdeal.κ "inv_scale" (φ := .f32) 0x3D3504F3#32
      = ((524288 / 11863283 : ℝ) : EReal) :=
  IdealRules.named_const.ideal_named_scalar _ _ _ _ rfl

/-! ### The buffers before the first trip -/

/-- The maximum starts at -∞ in every row. -/
theorem pay1_apply (i : S1024x1.Idx) : k1_pay1 (F := Ideal) i = (⊥ : EReal) := by
  unfold k1_pay1
  refine (congrFun (shapeCast_self _ _) i).trans ?_
  exact ofBits_neg_inf

/-- The sum starts at zero in every row. -/
theorem pay2_apply (i : S1024x1.Idx) : k1_pay2 (F := Ideal) i = (0 : EReal) := by
  unfold k1_pay2
  refine (congrFun (shapeCast_self _ _) i).trans ?_
  exact Ideal.ofBits_zero_f32

/-- The accumulator starts at zero in every entry. -/
theorem pay3_apply (i : S1024x64.Idx) : k1_pay3 (F := Ideal) i = (0 : EReal) := by
  unfold k1_pay3
  refine (congrFun (shapeCast_self _ _) i).trans ?_
  exact Ideal.ofBits_zero_f32

/-! ### The casts -/

/-- The query block with its unit axis dropped keeps its entries. -/
theorem pay4_apply (q : Vec Ideal S1x1024x64 .bf16) (p : Fin 1024) (e : Fin 64) :
    k1_pay4 (F := Ideal) q (ix2 p e) = q (ix3 (0 : Fin 1) p e) := by
  unfold k1_pay4
  exact shapeCast_1ab_ab_apply q _ p e

/-- A cast to the same shape changes nothing (the accumulator as stored). -/
theorem pay5_eq (v : FVec Ideal S1024x64 .f32) : k1_pay5 (F := Ideal) v = v := by
  unfold k1_pay5
  exact shapeCast_self _ _

/-- A cast to the same shape changes nothing (the maximum as stored). -/
theorem pay6_eq (v : FVec Ideal S1024x1 .f32) : k1_pay6 (F := Ideal) v = v := by
  unfold k1_pay6
  exact shapeCast_self _ _

/-! ### The scores -/

/-- The scaled score of query row p against key row j: the inner product of the two rows times
    the named constant. -/
theorem pay8_apply (x : FVec Ideal S1024x64 .bf16) (kb : Vec Ideal S1x1024x64 .bf16) (p j : Fin 1024) :
    k1_pay8 (F := Ideal) x kb (ix2 p j)
      = (∑ e : Fin 64, x (ix2 p e) * kb (ix3 (0 : Fin 1) j e)) * ((524288 / 11863283 : ℝ) : EReal) := by
  unfold k1_pay8
  refine (mulf_apply _ _ _).trans ?_
  refine congrArg₂ (· * ·) ?_ inv_val
  refine (Cert.LibMatmulLastAxes.matmul_zero_rows dot_S1024x64_S1024x64_S1024x1024_1_1_0_0_n_n
    rfl rfl rfl rfl rfl rfl none x _ p j).trans ?_
  exact Finset.sum_congr rfl fun e _ => congrArg (x (ix2 p e) * ·) (shapeCast_1ab_ab_apply kb _ j e)

/-! ### The new maximum, the rescaling and the weights -/

/-- The new maximum of row p: the old one against the fold of max from -∞ over the row's scores. -/
theorem pay9_apply (x : FVec Ideal S1024x64 .bf16) (kb : Vec Ideal S1x1024x64 .bf16) (m : Vec Ideal S1024x1 .f32)
    (p : Fin 1024) :
    k1_pay9 (F := Ideal) x kb m (ix2 p (0 : Fin 1))
      = max (m (ix2 p (0 : Fin 1)))
          ((Finset.univ : Finset (Fin 1024)).fold max (⊥ : EReal) (fun j => k1_pay8 (F := Ideal) x kb (ix2 p j))) := by
  unfold k1_pay9
  refine (maximumf_apply _ _ _).trans ?_
  refine congrArg (max (m (ix2 p (0 : Fin 1)))) ?_
  refine (shapeCast_a_a1_apply _ _ p (0 : Fin 1)).trans ?_
  refine (Cert.LibRowReduce.multiReduction_max_rows (k1_pay8 (F := Ideal) x kb) 0xFF800000#32
    reduces_S1024x1024_S1024 (.inl rfl) rfl p).trans ?_
  rw [ofBits_neg_inf]

/-- The rescaling of row p: the exponential of the old maximum minus the new one. -/
theorem pay10_apply (x : FVec Ideal S1024x64 .bf16) (kb : Vec Ideal S1x1024x64 .bf16) (m : Vec Ideal S1024x1 .f32)
    (i : S1024x1.Idx) :
    k1_pay10 (F := Ideal) x kb m i = Ideal.exp (m i - k1_pay9 (F := Ideal) x kb m i) := by
  unfold k1_pay10
  rfl

/-- The weight of key j in row p: the exponential of the score minus the row's new maximum. -/
theorem pay11_apply (x : FVec Ideal S1024x64 .bf16) (kb : Vec Ideal S1x1024x64 .bf16) (m : Vec Ideal S1024x1 .f32)
    (p j : Fin 1024) :
    k1_pay11 (F := Ideal) x kb m (ix2 p j)
      = Ideal.exp (k1_pay8 (F := Ideal) x kb (ix2 p j) - k1_pay9 (F := Ideal) x kb m (ix2 p (0 : Fin 1))) := by
  unfold k1_pay11
  exact congrArg (fun z => Ideal.exp (k1_pay8 (F := Ideal) x kb (ix2 p j) - z))
    (broadcastTo_a1_ab_apply _ _ p j)

/-! ### The new sum and the new accumulator -/

/-- The new sum of row p: the old one rescaled plus the row's weights. -/
theorem pay12_apply (x : FVec Ideal S1024x64 .bf16) (kb : Vec Ideal S1x1024x64 .bf16) (m l : Vec Ideal S1024x1 .f32)
    (p : Fin 1024) :
    k1_pay12 (F := Ideal) x kb m l (ix2 p (0 : Fin 1))
      = k1_pay10 (F := Ideal) x kb m (ix2 p (0 : Fin 1)) * l (ix2 p (0 : Fin 1))
        + ∑ j : Fin 1024, k1_pay11 (F := Ideal) x kb m (ix2 p j) := by
  unfold k1_pay12
  refine (congrFun (shapeCast_self _ _) _).trans ?_
  refine (addf_apply _ _ _).trans ?_
  refine congrArg₂ (· + ·) rfl ?_
  refine (shapeCast_a_a1_apply _ _ p (0 : Fin 1)).trans ?_
  exact Cert.LibRowReduce.multiReduction_add_rows (k1_pay11 (F := Ideal) x kb m) 0x00000000#32
    reduces_S1024x1024_S1024 (.inl rfl) rfl p

/-- The new accumulator at (p, d): the old one rescaled plus the row's weights against column d
    of the value block. -/
theorem pay13_apply (x : FVec Ideal S1024x64 .bf16) (kb vb : Vec Ideal S1x1024x64 .bf16) (m : Vec Ideal S1024x1 .f32)
    (a : Vec Ideal S1024x64 .f32) (p : Fin 1024) (d : Fin 64) :
    k1_pay13 (F := Ideal) x kb vb m a (ix2 p d)
      = k1_pay10 (F := Ideal) x kb m (ix2 p (0 : Fin 1)) * a (ix2 p d)
        + ∑ j : Fin 1024, k1_pay11 (F := Ideal) x kb m (ix2 p j) * vb (ix3 (0 : Fin 1) j d) := by
  unfold k1_pay13
  refine (addf_apply _ _ _).trans ?_
  refine congrArg₂ (· + ·) ?_ ?_
  · refine (mulf_apply _ _ _).trans ?_
    exact congrArg (· * a (ix2 p d)) (broadcastTo_a1_ab_apply _ _ p d)
  · refine (matmul_zero_ix2 dot_S1024x1024_S1024x64_S1024x64_1_0_0_1_n_n
      rfl rfl rfl rfl rfl rfl none _ _ p d).trans ?_
    exact Finset.sum_congr rfl fun j _ =>
      congrArg (k1_pay11 (F := Ideal) x kb m (ix2 p j) * ·) (shapeCast_1ab_ab_apply vb _ j d)

/-! ### The stored block -/

/-- The block stored after the last trip, at (d, p): the accumulator at (p, d) times the
    reciprocal of the row's sum. -/
theorem pay7_apply (a : Vec Ideal S1024x64 .f32) (l : Vec Ideal S1024x1 .f32) (d : Fin 64) (p : Fin 1024) :
    k1_pay7 (F := Ideal) a l (ix3 (0 : Fin 1) d p)
      = a (ix2 p d) * Ideal.div 1 (l (ix2 p (0 : Fin 1))) := by
  unfold k1_pay7
  refine (shapeCast_ab_1ab_apply _ _ (0 : Fin 1) d p).trans ?_
  refine (truncf_apply (φ := .f32) (ψ := .bf16) _ bitsLt_bf16_f32 _).trans ?_
  refine (transpose_ix2_apply _ _ d p).trans ?_
  refine (mulf_apply _ _ _).trans ?_
  refine congrArg (a (ix2 p d) * ·) ?_
  refine (broadcastTo_a1_ab_apply _ _ p d).trans ?_
  refine (divf_apply _ _ _).trans ?_
  exact congrArg (Ideal.div · (l (ix2 p (0 : Fin 1)))) Ideal.ofBits_one_f32

end Cert.KernelIdeal.FlashMath

end
-- ==== Proof.FlashMath.lean ====
/-
  The four trips of the blockwise attention body are the online softmax, row by row.

  With real data, row p of the three buffers (the running maximum, the running sum, and column d
  of the running accumulator) follows the online softmax recurrence over the scores of query row
  p against the keys and column d of the values: a trip's update of the row is literally the
  recurrence's step (the maximum against the block's maximum folded from -∞, the old sums
  rescaled by exp (old maximum - new maximum), the block's exponentials added). So after the
  four trips the row holds the closed form: the sum of the exponentials shifted by the overall
  maximum, and the same sum weighted by the values; both are real, the first positive, and
  the stored entry a * (1 / l) is their real quotient: the softmax-weighted mean of the values.
  The same mean over one list of 4096 keys is the blockwise one, the keys listed block by block.
-/
import proofs.«175403_j47682726921138_2_alg».proof.Proof.FlashMath1

noncomputable section

namespace Cert.KernelIdeal.FlashMath

open Idealize.ShloMosaic Idealize.ShloMosaic.ValueIdx Cert.KernelIdeal Cert.KernelIdeal.Gen
open Cert.Lib Cert.Attn3d
open scoped BigOperators

/-! ### A row of the buffers -/

/-- Row p of the three buffers, the accumulator read at column d. -/
def rowSt (s : Flash.St Ideal) (p : Fin 1024) (d : Fin 64) : OnlineSoftmax.St :=
  ⟨s.m (ix2 p (0 : Fin 1)), s.l (ix2 p (0 : Fin 1)), s.a (ix2 p d)⟩

/-- Before the first trip every row is the recurrence's initial state. -/
theorem rowSt_st0 (p : Fin 1024) (d : Fin 64) : rowSt (Flash.st0 (F := Ideal)) p d = OnlineSoftmax.init := by
  refine OnlineSoftmax.St.ext ?_ ?_ ?_
  · exact pay1_apply (ix2 p (0 : Fin 1))
  · exact pay2_apply (ix2 p (0 : Fin 1))
  · exact pay3_apply (ix2 p d)

/-! ### One trip -/

/-- With real rows, the scaled score of query row p against key row j is the real score. -/
theorem score_coe (x : FVec Ideal S1024x64 .bf16) (kb : Vec Ideal S1x1024x64 .bf16)
    (qr : Fin 64 → ℝ) (kr : Fin 1024 → Fin 64 → ℝ) (p : Fin 1024)
    (hx : ∀ e, x (ix2 p e) = ((qr e : ℝ) : EReal))
    (hk : ∀ j e, kb (ix3 (0 : Fin 1) j e) = ((kr j e : ℝ) : EReal)) (j : Fin 1024) :
    k1_pay8 (F := Ideal) x kb (ix2 p j) = ((score qr (kr j) : ℝ) : EReal) := by
  rw [pay8_apply]
  simp_rw [hx, hk, ← EReal.coe_mul]
  rw [OnlineSoftmax.coe_finset_sum, ← EReal.coe_mul, Cert.Attn3d.inv_scale, mul_one_div]
  rfl

/-- One trip updates row p by the online softmax step over the row's scores and column d of
    the value block. -/
theorem rowSt_stStep (q kb vb : Vec Ideal S1x1024x64 .bf16)
    (qr : Fin 1024 → Fin 64 → ℝ) (kr vr : Fin 1024 → Fin 64 → ℝ)
    (hq : ∀ p e, q (ix3 (0 : Fin 1) p e) = ((qr p e : ℝ) : EReal))
    (hk : ∀ j e, kb (ix3 (0 : Fin 1) j e) = ((kr j e : ℝ) : EReal))
    (hv : ∀ j e, vb (ix3 (0 : Fin 1) j e) = ((vr j e : ℝ) : EReal))
    (s : Flash.St Ideal) (p : Fin 1024) (d : Fin 64) :
    rowSt (Flash.stStep q kb vb s) p d
      = OnlineSoftmax.step (fun j => score (qr p) (kr j)) (fun j => vr j d) (rowSt s p d) := by
  have hs : ∀ j, k1_pay8 (F := Ideal) (k1_pay4 (F := Ideal) q) kb (ix2 p j) = ((score (qr p) (kr j) : ℝ) : EReal) :=
    score_coe (k1_pay4 (F := Ideal) q) kb (qr p) kr p (fun e => (pay4_apply q p e).trans (hq p e)) hk
  have h9 : k1_pay9 (F := Ideal) (k1_pay4 (F := Ideal) q) kb s.m (ix2 p (0 : Fin 1))
      = max (s.m (ix2 p (0 : Fin 1)))
          ((Finset.univ : Finset (Fin 1024)).fold max (⊥ : EReal) (fun j => ((score (qr p) (kr j) : ℝ) : EReal))) := by
    rw [pay9_apply]
    simp_rw [hs]
  refine OnlineSoftmax.St.ext ?_ ?_ ?_
  · show k1_pay6 (F := Ideal) (k1_pay9 (F := Ideal) (k1_pay4 (F := Ideal) q) kb s.m) (ix2 p (0 : Fin 1)) = _
    rw [pay6_eq, h9]
    rfl
  · show k1_pay12 (F := Ideal) (k1_pay4 (F := Ideal) q) kb s.m s.l (ix2 p (0 : Fin 1)) = _
    rw [pay12_apply, pay10_apply]
    simp_rw [pay11_apply, hs, h9]
    rfl
  · show k1_pay5 (F := Ideal) (k1_pay13 (F := Ideal) (k1_pay4 (F := Ideal) q) kb vb s.m s.a) (ix2 p d) = _
    rw [pay5_eq, pay13_apply, pay10_apply]
    simp_rw [pay11_apply, hs, h9, hv]
    rfl

/-! ### The trips in order -/

/-- After j trips row p is the online softmax after j blocks. -/
theorem rowSt_stRun (q : Vec Ideal S1x1024x64 .bf16) (kb vb : Fin 4 → Vec Ideal S1x1024x64 .bf16)
    (qr : Fin 1024 → Fin 64 → ℝ) (kr vr : Fin 4 → Fin 1024 → Fin 64 → ℝ)
    (hq : ∀ p e, q (ix3 (0 : Fin 1) p e) = ((qr p e : ℝ) : EReal))
    (hk : ∀ t j e, kb t (ix3 (0 : Fin 1) j e) = ((kr t j e : ℝ) : EReal))
    (hv : ∀ t j e, vb t (ix3 (0 : Fin 1) j e) = ((vr t j e : ℝ) : EReal))
    (p : Fin 1024) (d : Fin 64) (j : ℕ) :
    rowSt (Flash.stRun q kb vb j) p d
      = OnlineSoftmax.run (n := 4) (fun t k => score (qr p) (kr t k)) (fun t k => vr t k d) j := by
  induction j with
  | zero => exact rowSt_st0 p d
  | succ j ih =>
    by_cases h : j < 4
    · have e1 : Flash.stRun q kb vb (j + 1)
          = Flash.stStep q (kb ⟨j, h⟩) (vb ⟨j, h⟩) (Flash.stRun q kb vb j) := by
        rw [Flash.stRun, dif_pos h]
      rw [e1, OnlineSoftmax.run_succ _ _ j h,
        rowSt_stStep q (kb ⟨j, h⟩) (vb ⟨j, h⟩) qr (kr ⟨j, h⟩) (vr ⟨j, h⟩) hq (hk ⟨j, h⟩) (hv ⟨j, h⟩), ih]
    · have e1 : Flash.stRun q kb vb (j + 1) = Flash.stRun q kb vb j := by
        rw [Flash.stRun, dif_neg h]
      have e2 : OnlineSoftmax.run (n := 4) (fun t k => score (qr p) (kr t k)) (fun t k => vr t k d) (j + 1)
          = OnlineSoftmax.run (n := 4) (fun t k => score (qr p) (kr t k)) (fun t k => vr t k d) j := by
        rw [OnlineSoftmax.run, dif_neg h]
      rw [e1, e2, ih]

/-! ### The stored block -/

/-- With real data the block stored after the four trips holds, at (d, p), the blockwise
    softmax-weighted mean of column d of the values under the scores of query row p. -/
theorem outBlock_apply (q : Vec Ideal S1x1024x64 .bf16) (kb vb : Fin 4 → Vec Ideal S1x1024x64 .bf16)
    (qr : Fin 1024 → Fin 64 → ℝ) (kr vr : Fin 4 → Fin 1024 → Fin 64 → ℝ)
    (hq : ∀ p e, q (ix3 0 p e) = ((qr p e : ℝ) : EReal))
    (hk : ∀ t j e, kb t (ix3 0 j e) = ((kr t j e : ℝ) : EReal))
    (hv : ∀ t j e, vb t (ix3 0 j e) = ((vr t j e : ℝ) : EReal))
    (d : Fin 64) (p : Fin 1024) :
    Flash.outBlock (F := Ideal) q kb vb (ix3 0 d p)
      = ((Cert.Attn3d.attnRowBlk (qr p) kr (fun t j => vr t j d) : ℝ) : EReal) := by
  have hrow := rowSt_stRun q kb vb qr kr vr hq hk hv p d 4
  have hpos := OnlineSoftmax.sum_sum_exp_pos (n := 4) (by norm_num) (fun t k => score (qr p) (kr t k))
    (OnlineSoftmax.gmax (n := 4) (by norm_num) (fun t k => score (qr p) (kr t k)))
  unfold Flash.outBlock
  rw [pay7_apply]
  generalize Flash.stRun q kb vb 4 = s at hrow ⊢
  have ha : s.a (ix2 p d)
      = (OnlineSoftmax.run (n := 4) (fun t k => score (qr p) (kr t k)) (fun t k => vr t k d) 4).a :=
    congrArg OnlineSoftmax.St.a hrow
  have hl : s.l (ix2 p (0 : Fin 1))
      = (OnlineSoftmax.run (n := 4) (fun t k => score (qr p) (kr t k)) (fun t k => vr t k d) 4).l :=
    congrArg OnlineSoftmax.St.l hrow
  rw [ha, hl, OnlineSoftmax.run_a (by norm_num), OnlineSoftmax.run_l (by norm_num),
    Ideal.div_coe hpos.ne', one_mul, ← EReal.coe_mul, mul_one_div]
  rfl

/-! ### The keys in one list and in four blocks -/

/-- Position i of a list of 4096 is position i mod 1024 of block i / 1024. -/
def blockEquiv : Fin 4096 ≃ Fin 4 × Fin 1024 where
  toFun i := (⟨i.val / 1024, by have := i.isLt; omega⟩, ⟨i.val % 1024, by omega⟩)
  invFun x := ⟨x.1.val * 1024 + x.2.val, by have := x.1.isLt; have := x.2.isLt; omega⟩
  left_inv i := Fin.ext (by show i.val / 1024 * 1024 + i.val % 1024 = i.val; omega)
  right_inv x := by
    have h1 := x.1.isLt
    have h2 := x.2.isLt
    refine Prod.ext (Fin.ext ?_) (Fin.ext ?_)
    · show (x.1.val * 1024 + x.2.val) / 1024 = x.1.val
      omega
    · show (x.1.val * 1024 + x.2.val) % 1024 = x.2.val
      omega

/-- The mean over the keys met in four blocks of 1024 is the mean over the one list of 4096. -/
theorem attnRowBlk_eq (q : Fin 64 → ℝ) (k : Fin 4096 → Fin 64 → ℝ) (w : Fin 4096 → ℝ) :
    Cert.Attn3d.attnRowBlk q (fun t j => k ⟨t.val * 1024 + j.val, by omega⟩) (fun t j => w ⟨t.val * 1024 + j.val, by omega⟩)
      = Cert.Attn3d.attnRow q k w := by
  have hk : ∀ u : Fin 4096, k ⟨(blockEquiv u).1.val * 1024 + (blockEquiv u).2.val,
      by have := (blockEquiv u).1.isLt; have := (blockEquiv u).2.isLt; omega⟩ = k u :=
    fun u => congrArg k (blockEquiv.left_inv u)
  have hw : ∀ u : Fin 4096, w ⟨(blockEquiv u).1.val * 1024 + (blockEquiv u).2.val,
      by have := (blockEquiv u).1.isLt; have := (blockEquiv u).2.isLt; omega⟩ = w u :=
    fun u => congrArg w (blockEquiv.left_inv u)
  have hmax : OnlineSoftmax.rmax (fun u => score q (k u))
      = OnlineSoftmax.gmax (n := 4) (by norm_num)
          (fun (t : Fin 4) (j : Fin 1024) => score q (k ⟨t.val * 1024 + j.val, by omega⟩)) := by
    rw [← OnlineSoftmax.rmax_equiv_blocks (by norm_num) blockEquiv
      (fun (t : Fin 4) (j : Fin 1024) => score q (k ⟨t.val * 1024 + j.val, by omega⟩))]
    exact congrArg OnlineSoftmax.rmax (funext fun u => (congrArg (score q) (hk u)).symm)
  unfold Cert.Attn3d.attnRowBlk Cert.Attn3d.attnRow
  rw [hmax,
    ← OnlineSoftmax.sum_equiv_blocks blockEquiv (fun (t : Fin 4) (j : Fin 1024) =>
      Real.exp (score q (k ⟨t.val * 1024 + j.val, by omega⟩)
        - OnlineSoftmax.gmax (n := 4) (by norm_num)
            (fun (t : Fin 4) (j : Fin 1024) => score q (k ⟨t.val * 1024 + j.val, by omega⟩)))
        * w ⟨t.val * 1024 + j.val, by omega⟩),
    ← OnlineSoftmax.sum_equiv_blocks blockEquiv (fun (t : Fin 4) (j : Fin 1024) =>
      Real.exp (score q (k ⟨t.val * 1024 + j.val, by omega⟩)
        - OnlineSoftmax.gmax (n := 4) (by norm_num)
            (fun (t : Fin 4) (j : Fin 1024) => score q (k ⟨t.val * 1024 + j.val, by omega⟩))))]
  refine congrArg₂ (· / ·) (Finset.sum_congr rfl fun u _ => ?_) (Finset.sum_congr rfl fun u _ => ?_)
  · show Real.exp (score q (k ⟨(blockEquiv u).1.val * 1024 + (blockEquiv u).2.val, _⟩) - _)
      * w ⟨(blockEquiv u).1.val * 1024 + (blockEquiv u).2.val, _⟩ = _
    rw [hk u, hw u]
  · show Real.exp (score q (k ⟨(blockEquiv u).1.val * 1024 + (blockEquiv u).2.val, _⟩) - _) = _
    rw [hk u]

end Cert.KernelIdeal.FlashMath

end
-- ==== Proof.AttentionBlocks.lean ====
/-
  The attention region, from blocks to arrays.

  The region runs over the grid of points (b, qi), b < 8 a head and qi < 4 a block of 1024 query positions. At
  the point (b, qi) the body receives rows [qi·1024, (qi+1)·1024) of head b of the query array and the whole of
  head b of the key and of the value arrays, and it leaves a block [1, 64, 1024] that is written to head b,
  all 64 feature rows, columns [qi·1024, (qi+1)·1024) of the output array [8, 64, 4096].

  Entry (0, p, e) of the query block is therefore entry (b, qi·1024 + p, e) of the query array, entry (0, n, e) of
  the key (value) block is entry (b, n, e) of the key (value) array, and entry (0, d, p) of the output block lands
  at (b, d, qi·1024 + p). The output blocks tile the output array: the entry (b, d, n) lies in the block of the
  point (b, n / 1024). So if every point's output block is the restriction of ONE function G of the coordinates,
  the output array after the region is G at every index.
-/
import proofs.«175403_j47682726921138_2_alg».proof.Proof.Gen.KernelIdeal.Frame
import Idealize.ShloMosaic.Lib.Pipeline.Value
import Idealize.ShloMosaic.Lib.ValueIdx

noncomputable section

namespace Cert.KernelIdeal.AttentionBlocks

open Cert.KernelIdeal Cert.KernelIdeal.Gen Idealize.ShloMosaic Idealize.ShloMosaic.TcCoe Idealize.SL.Sem
open Idealize.ShloMosaic.Pipeline (Dat)
open Idealize.ShloMosaic.ValueIdx

/-- The grid point with coordinates (b, qi). -/
def pt (b : Fin 8) (qi : Fin 4) : Fin cfg1.N :=
  ⟨b.val * 4 + qi.val, by have hN : cfg1.N = 32 := N_1; have := b.isLt; have := qi.isLt; omega⟩

/-- The point (b, qi) is the (4·b + qi)-th of the grid. -/
theorem pt_val (b : Fin 8) (qi : Fin 4) : (pt b qi).val = b.val * 4 + qi.val := rfl

/-- The block indices over the grid: at the t-th point the head is t / 4 and the query block is t % 4; the query
    window moves along (head, query block), the key and value windows along the head only, and the output window
    along (head, –, query block). There are 32 points. -/
theorem index1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = t.val % 4
    ∧ t.val < 32 :=
  (by decide +kernel : ∀ t : Fin grid1.N, _)

variable (V : (c : Dev nD) → (b : Ref sig .tc) → Buf (Elt Ideal) ((c : Thread nD τ).loc b))

/-! ## The three input blocks, read off their arrays -/

/-- The query block at the point (b, qi) is rows qi·1024 … qi·1024 + 1023 of head b of the query array. -/
theorem iblk1_q_apply (c : Dev nD) (b : Fin 8) (qi : Fin 4) (p : Fin 1024) (e : Fin 64) :
    (Gen.iblk1 (F := Ideal) V c 0 (pt b qi) : S1x1024x64.Idx → EReal) (ix3 0 p e)
      = (V c main_v9 : S8x4096x64.Idx → EReal) (ix3 b ⟨qi.val * 1024 + p.val, by omega⟩ e) := by
  obtain ⟨e0, e1, e2, -⟩ := index1 (pt b qi)
  have hv : (pt b qi).val = b.val * 4 + qi.val := rfl
  show V c main_v9 (((cfg1.win 0).blk (pt b qi)).view.emb (ix3 0 p e)) = V c main_v9 (ix3 b ⟨qi.val * 1024 + p.val, _⟩ e)
  refine congrArg (V c main_v9) (funext fun a => Fin.ext ?_)
  match a with
  | ⟨0, _⟩ => show win1_0.index (pt b qi) (0 : Fin 3) * 1 + 1 * (0 : Fin 1).val = b.val; omega
  | ⟨1, _⟩ => show win1_0.index (pt b qi) (1 : Fin 3) * 1024 + 1 * p.val = qi.val * 1024 + p.val; omega
  | ⟨2, _⟩ => show win1_0.index (pt b qi) (2 : Fin 3) * 64 + 1 * e.val = e.val; omega

/-- The key block at the point (b, qi) is the whole of head b of the key array. -/
theorem iblk1_k_apply (c : Dev nD) (b : Fin 8) (qi : Fin 4) (n : Fin 4096) (e : Fin 64) :
    (Gen.iblk1 (F := Ideal) V c 1 (pt b qi) : S1x4096x64.Idx → EReal) (ix3 0 n e)
      = (V c main_v11 : S8x4096x64.Idx → EReal) (ix3 b n e) := by
  obtain ⟨-, -, -, e0, e1, e2, -⟩ := index1 (pt b qi)
  have hv : (pt b qi).val = b.val * 4 + qi.val := rfl
  show V c main_v11 (((cfg1.win 1).blk (pt b qi)).view.emb (ix3 0 n e)) = V c main_v11 (ix3 b n e)
  refine congrArg (V c main_v11) (funext fun a => Fin.ext ?_)
  match a with
  | ⟨0, _⟩ => show win1_1.index (pt b qi) (0 : Fin 3) * 1 + 1 * (0 : Fin 1).val = b.val; omega
  | ⟨1, _⟩ => show win1_1.index (pt b qi) (1 : Fin 3) * 4096 + 1 * n.val = n.val; omega
  | ⟨2, _⟩ => show win1_1.index (pt b qi) (2 : Fin 3) * 64 + 1 * e.val = e.val; omega

/-- The value block at the point (b, qi) is the whole of head b of the value array. -/
theorem iblk1_v_apply (c : Dev nD) (b : Fin 8) (qi : Fin 4) (n : Fin 4096) (e : Fin 64) :
    (Gen.iblk1 (F := Ideal) V c 2 (pt b qi) : S1x4096x64.Idx → EReal) (ix3 0 n e)
      = (V c main_v13 : S8x4096x64.Idx → EReal) (ix3 b n e) := by
  obtain ⟨-, -, -, -, -, -, e0, e1, e2, -⟩ := index1 (pt b qi)
  have hv : (pt b qi).val = b.val * 4 + qi.val := rfl
  show V c main_v13 (((cfg1.win 2).blk (pt b qi)).view.emb (ix3 0 n e)) = V c main_v13 (ix3 b n e)
  refine congrArg (V c main_v13) (funext fun a => Fin.ext ?_)
  match a with
  | ⟨0, _⟩ => show win1_2.index (pt b qi) (0 : Fin 3) * 1 + 1 * (0 : Fin 1).val = b.val; omega
  | ⟨1, _⟩ => show win1_2.index (pt b qi) (1 : Fin 3) * 4096 + 1 * n.val = n.val; omega
  | ⟨2, _⟩ => show win1_2.index (pt b qi) (2 : Fin 3) * 64 + 1 * e.val = e.val; omega

/-! ## The output blocks tile the output array -/

/-- A function of the three coordinates as contents of the output array. -/
def arrayOf (G : Fin 8 → Fin 64 → Fin 4096 → EReal) : S8x64x4096.Idx → EReal := fun i => G (i 0) (i 1) (i 2)

theorem arrayOf_ix3 (G : Fin 8 → Fin 64 → Fin 4096 → EReal) (b : Fin 8) (d : Fin 64) (n : Fin 4096) :
    arrayOf G (ix3 b d n) = G b d n := rfl

/-- Entry (0, d, p) of the output block at the t-th point sits at (t / 4, d, (t % 4)·1024 + p) of the output array. -/
theorem output1_emb (t : Fin cfg1.N) (d : Fin 64) (p : Fin 1024) (b : Fin 8) (n : Fin 4096)
    (hb : b.val = t.val / 4) (hn : n.val = t.val % 4 * 1024 + p.val) :
    ((cfg1.win 3).blk t).view.emb (ix3 0 d p) = (ix3 b d n : S8x64x4096.Idx) := by
  obtain ⟨-, -, -, -, -, -, -, -, -, e0, e1, e2, -⟩ := index1 t
  refine funext fun a => Fin.ext ?_
  match a with
  | ⟨0, _⟩ => show win1_3.index t (0 : Fin 3) * 1 + 1 * (0 : Fin 1).val = b.val; omega
  | ⟨1, _⟩ => show win1_3.index t (1 : Fin 3) * 64 + 1 * d.val = d.val; omega
  | ⟨2, _⟩ => show win1_3.index t (2 : Fin 3) * 1024 + 1 * p.val = n.val; omega

/-- What the t-th point writes back is its block of G, once every point's output block is the restriction of G. -/
theorem flushed1_eq (c : Dev nD) (G : Fin 8 → Fin 64 → Fin 4096 → EReal)
    (hG : ∀ (b : Fin 8) (qi : Fin 4) (d : Fin 64) (p : Fin 1024),
      (Gen.outsAt1 (F := Ideal) V c (pt b qi) : S1x64x1024.Idx → EReal) (ix3 0 d p)
        = G b d ⟨qi.val * 1024 + p.val, by omega⟩)
    (t : Fin cfg1.N) :
    (dat1 (F := Ideal) V c).flushed 3 t = ((cfg1.win 3).blk t).view.read (Elt Ideal) (arrayOf G) := by
  show (cfg1.win 3).cut (grid1.coords t) ((dat1 V c).after 3 t) = _
  rw [after1_3]
  funext y
  obtain ⟨z, d, p, rfl⟩ : ∃ (z : Fin 1) (d : Fin 64) (p : Fin 1024), y = ix3 z d p := ⟨y 0, y 1, y 2, eq_ix3 y⟩
  obtain rfl : z = 0 := Subsingleton.elim _ _
  have ht : t.val < 32 := (index1 t).2.2.2.2.2.2.2.2.2.2.2.2
  have hpt : t = pt ⟨t.val / 4, by omega⟩ ⟨t.val % 4, by omega⟩ :=
    Fin.ext (by show t.val = t.val / 4 * 4 + t.val % 4; omega)
  show (outsAt1 V c t : S1x64x1024.Idx → EReal) (ix3 0 d p)
    = arrayOf G (((cfg1.win 3).blk t).view.emb (ix3 0 d p))
  refine (congrFun (congrArg (outsAt1 V c) hpt) (ix3 0 d p)).trans ?_
  refine (hG ⟨t.val / 4, by omega⟩ ⟨t.val % 4, by omega⟩ d p).trans ?_
  refine Eq.trans ?_ (congrArg (arrayOf G)
    (output1_emb t d p ⟨t.val / 4, by omega⟩ ⟨t.val % 4 * 1024 + p.val, by omega⟩ rfl rfl)).symm
  rfl

/-- An index of the output array is in the t-th point's block iff each coordinate is in the block's range on its axis. -/
theorem mem_block1 (t : Fin cfg1.N) (i : S8x64x4096.Idx) :
    i ∈ ((cfg1.win 3).blk t).view.set
      ↔ ∀ a : Fin 3, win1_3.index t a * S1x64x1024.size a ≤ (i a).val
          ∧ (i a).val < win1_3.index t a * S1x64x1024.size a + S1x64x1024.size a := by
  show i ∈ ((View.whole main_v14).slice (win1_3.rect t)).set ↔ _
  rw [View.set_slice_whole, Rect.mem_set_unit]
  exact Iff.rfl

/-- The blocks tile the output: the entry (b, d, n) lies in the block of the point (b, n / 1024). -/
theorem cover1 (i : S8x64x4096.Idx) :
    ∃ t : Fin cfg1.N, (cfg1.win 3).flush t = true ∧ i ∈ ((cfg1.win 3).blk t).view.set := by
  have hi0 : (i 0).val < 8 := (i 0).isLt
  have hi1 : (i 1).val < 64 := (i 1).isLt
  have hi2 : (i 2).val < 4096 := (i 2).isLt
  have hN : cfg1.N = 32 := N_1
  refine ⟨⟨(i 0).val * 4 + (i 2).val / 1024, by rw [hN]; omega⟩, flush1_3 _, ?_⟩
  rw [mem_block1]
  obtain ⟨-, -, -, -, -, -, -, -, -, e0, e1, e2, -⟩ := index1 ⟨(i 0).val * 4 + (i 2).val / 1024, by rw [hN]; omega⟩
  intro a
  match a with
  | ⟨0, _⟩ =>
    show win1_3.index _ (0 : Fin 3) * 1 ≤ (i 0).val ∧ (i 0).val < win1_3.index _ (0 : Fin 3) * 1 + 1
    rw [e0]
    show ((i 0).val * 4 + (i 2).val / 1024) / 4 * 1 ≤ (i 0).val ∧ (i 0).val < ((i 0).val * 4 + (i 2).val / 1024) / 4 * 1 + 1
    omega
  | ⟨1, _⟩ =>
    show win1_3.index _ (1 : Fin 3) * 64 ≤ (i 1).val ∧ (i 1).val < win1_3.index _ (1 : Fin 3) * 64 + 64
    rw [e1]; omega
  | ⟨2, _⟩ =>
    show win1_3.index _ (2 : Fin 3) * 1024 ≤ (i 2).val ∧ (i 2).val < win1_3.index _ (2 : Fin 3) * 1024 + 1024
    rw [e2]
    show ((i 0).val * 4 + (i 2).val / 1024) % 4 * 1024 ≤ (i 2).val
      ∧ (i 2).val < ((i 0).val * 4 + (i 2).val / 1024) % 4 * 1024 + 1024
    omega

/-- The output array after the region is G, once every point's output block is the restriction of G. -/
theorem region1_array (c : Dev nD) (G : Fin 8 → Fin 64 → Fin 4096 → EReal)
    (hG : ∀ (b : Fin 8) (qi : Fin 4) (d : Fin 64) (p : Fin 1024),
      (Gen.outsAt1 (F := Ideal) V c (pt b qi) : S1x64x1024.Idx → EReal) (ix3 0 d p)
        = G b d ⟨qi.val * 1024 + p.val, by omega⟩) :
    (dat1 (F := Ideal) V c).arrAt 3 cfg1.N = arrayOf G :=
  (dat1 (F := Ideal) V c).arrAt_eq_of_cover 3 (arrayOf G) (fun t _ => flushed1_eq V c G hG t) cover1

/-- Index by index: entry (b, d, n) of the output array after the region is G b d n. -/
theorem region1_of_blocks (V : (c : Dev nD) → (b : Ref sig .tc) → Buf (Elt Ideal) ((c : Thread nD τ).loc b)) (c : Dev nD)
    (G : Fin 8 → Fin 64 → Fin 4096 → EReal)
    (hG : ∀ (b : Fin 8) (qi : Fin 4) (d : Fin 64) (p : Fin 1024),
      (Gen.outsAt1 (F := Ideal) V c (pt b qi) : S1x64x1024.Idx → EReal) (ix3 0 d p)
        = G b d ⟨qi.val * 1024 + p.val, by omega⟩)
    (b : Fin 8) (d : Fin 64) (n : Fin 4096) :
    ((Gen.dat1 (F := Ideal) V c).arrAt 3 cfg1.N : S8x64x4096.Idx → EReal) (ix3 b d n) = G b d n := by
  rw [region1_array V c G hG]
  rfl

end Cert.KernelIdeal.AttentionBlocks

end
-- ==== Proof.Attention.lean ====
/-
  The attention region's output array, entry by entry.

  At the grid point (b, qi) the region's body sees rows 1024·qi … 1024·qi + 1023 of head b of the
  query array, and the whole of head b of the key and value arrays, which its four trips meet as four
  blocks of 1024 rows. With real entries, the block it stores holds at (d, p) the softmax-weighted
  mean of column d of the values under the scores of query row p against the keys, the keys met in
  four blocks; a mean over the keys in four blocks is the mean over the one list of 4096. The output
  blocks of the 32 points tile the output array, so entry (b, d, n) of the array is that mean for
  query row n of head b.
-/
import proofs.«175403_j47682726921138_2_alg».proof.Proof.FlashRun
import proofs.«175403_j47682726921138_2_alg».proof.Proof.FlashMath
import proofs.«175403_j47682726921138_2_alg».proof.Proof.AttentionBlocks

noncomputable section

namespace Cert.KernelIdeal.Attention

open Idealize.ShloMosaic Idealize.ShloMosaic.TcCoe Idealize.ShloMosaic.ValueIdx
open Cert.KernelIdeal Cert.KernelIdeal.Gen
open Cert.KernelIdeal.FlashRun Cert.KernelIdeal.FlashMath Cert.KernelIdeal.AttentionBlocks

/-- One point's stored block, from a query block and resident key and value blocks with real
    entries: at (d, p) the softmax-weighted mean of column d of the 4096 value rows under the scores
    of query row p against the 4096 key rows. The body meets the rows in four blocks of 1024; the
    mean does not depend on that arrangement. -/
theorem block_value (x0 : Vec Ideal S1x1024x64 .bf16) (x1 x2 : Vec Ideal S1x4096x64 .bf16)
    (qr : Fin 1024 → Fin 64 → ℝ) (kr vr : Fin 4096 → Fin 64 → ℝ)
    (hq : ∀ p e, x0 (ix3 0 p e) = ((qr p e : ℝ) : EReal))
    (hk : ∀ n e, x1 (ix3 0 n e) = ((kr n e : ℝ) : EReal))
    (hv : ∀ n e, x2 (ix3 0 n e) = ((vr n e : ℝ) : EReal))
    (d : Fin 64) (p : Fin 1024) :
    Flash.outBlock (F := Ideal) x0 (rows x1) (rows x2) (ix3 0 d p)
      = ((Cert.Attn3d.attnRow (qr p) kr (fun m => vr m d) : ℝ) : EReal) :=
  (outBlock_apply x0 (rows x1) (rows x2) qr
      (fun t j => kr ⟨t.val * 1024 + j.val, by omega⟩) (fun t j => vr ⟨t.val * 1024 + j.val, by omega⟩) hq
      (fun t j e => (rows_apply x1 t j e).trans (hk ⟨t.val * 1024 + j.val, by omega⟩ e))
      (fun t j e => (rows_apply x2 t j e).trans (hv ⟨t.val * 1024 + j.val, by omega⟩ e)) d p).trans
    (congrArg (fun r : ℝ => (r : EReal)) (attnRowBlk_eq (qr p) kr (fun m => vr m d)))

/-- Entry (b, d, n) of the output array after the attention region, when the query, key and value
    arrays it is entered with have real entries: the softmax-weighted mean of column d of head b's
    values under the scores of query row n of head b against head b's keys. -/
theorem region1_value (V : (c : Dev nD) → (b : Ref sig .tc) → Buf (Elt Ideal) ((c : Thread nD τ).loc b)) (c : Dev nD)
    (qr kr vr : Fin 8 → Fin 4096 → Fin 64 → ℝ)
    (hq : ∀ b n e, ((V c main_v9 : S8x4096x64.Idx → EReal) (ix3 b n e) : EReal) = ((qr b n e : ℝ) : EReal))
    (hk : ∀ b n e, ((V c main_v11 : S8x4096x64.Idx → EReal) (ix3 b n e) : EReal) = ((kr b n e : ℝ) : EReal))
    (hv : ∀ b n e, ((V c main_v13 : S8x4096x64.Idx → EReal) (ix3 b n e) : EReal) = ((vr b n e : ℝ) : EReal))
    (b : Fin 8) (d : Fin 64) (n : Fin 4096) :
    (((Gen.dat1 (F := Ideal) V c).arrAt 3 cfg1.N : S8x64x4096.Idx → EReal) (ix3 b d n) : EReal)
      = ((Cert.Attn3d.attnRow (qr b n) (kr b) (fun m => vr b m d) : ℝ) : EReal) := by
  refine region1_of_blocks V c
    (fun b d n => ((Cert.Attn3d.attnRow (qr b n) (kr b) (fun m => vr b m d) : ℝ) : EReal)) (fun b qi d p => ?_) b d n
  refine (congrFun (outsAt1_eq (F := Ideal) V c (pt b qi)) (ix3 0 d p)).trans ?_
  exact block_value (Gen.iblk1 (F := Ideal) V c 0 (pt b qi)) (Gen.iblk1 (F := Ideal) V c 1 (pt b qi))
    (Gen.iblk1 (F := Ideal) V c 2 (pt b qi))
    (fun p => qr b ⟨qi.val * 1024 + p.val, by omega⟩) (kr b) (vr b)
    (fun p e => (iblk1_q_apply V c b qi p e).trans (hq b ⟨qi.val * 1024 + p.val, by omega⟩ e))
    (fun n e => (iblk1_k_apply V c b qi n e).trans (hk b n e))
    (fun n e => (iblk1_v_apply V c b qi n e).trans (hv b n e)) d p

end Cert.KernelIdeal.Attention

end
-- ==== Proof.LibRank3Host.lean ====
/-
  Host layout operations, products and reductions on rank-3 arrays, read at coordinates, for any extents.
  • a vector [c] laid on the last axis of [1, 1, c], and [1, 1, c] spread to [a, b, c]: at (p, m, f) the vector at f;
  • a per-row array [a, b] laid as [a, b, 1], and [a, b, 1] spread along the last axis to [a, b, c]: at (p, m, f) the
    value of row (p, m);
  • the host's product of [a, b, k] with a matrix, contracting the last axis against the matrix's second axis
    (entry (p, m, e) = ∑ j, lhs (p, m, j) · rhs (e, j)) or against its first axis (∑ j, lhs (p, m, j) · rhs (j, e));
  • the host's float sum and its maximum over the last axis: the initial value plus the sum, the fold of max.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibRank3Host

open Idealize.ShloMosaic Idealize.ShloMosaic.ValueIdx

variable {α : Type}

/-! ## Broadcasts -/

/-- A vector [c] laid on the last axis of [1, 1, c] reads, at (p, m, f), the vector at f. -/
theorem bcast_c_11c {c : ℕ} (x : (⟨1, ![c]⟩ : Shape).Idx → α)
    (h : (⟨1, ![c]⟩ : Shape).BroadcastsInDim ⟨3, ![1, 1, c]⟩ (![2] : Fin 1 → Fin 3)) (p m : Fin 1) (f : Fin c) :
    broadcastInDim ⟨3, ![1, 1, c]⟩ (![2] : Fin 1 → Fin 3) h x (ix3 p m f) = x (ix1 f) := by
  refine broadcastInDim_apply _ h x (ix3 p m f) (ix1 f) fun ax => ?_
  match ax with
  | ⟨0, _⟩ =>
    show f.val = if c = 1 then 0 else f.val
    split
    · have := f.isLt; omega
    · rfl

/-- [1, 1, c] spread to [a, b, c] reads, at (p, m, f), the operand at (0, 0, f). -/
theorem bcast_11c_abc {a b c : ℕ} (x : (⟨3, ![1, 1, c]⟩ : Shape).Idx → α)
    (h : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 (0 : Fin 1) (0 : Fin 1) f) := by
  refine broadcastInDim_apply _ h x (ix3 p m f) (ix3 (0 : Fin 1) (0 : Fin 1) f) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else m.val
    rw [if_pos rfl]
  | ⟨2, _⟩ =>
    show f.val = if c = 1 then 0 else f.val
    split
    · have := f.isLt; omega
    · rfl

/-- A vector laid on the last axis and spread over the first two reads, at (p, m, f), the vector at f. -/
theorem bcast_vec_abc {a b c : ℕ} (x : (⟨1, ![c]⟩ : Shape).Idx → α)
    (h1 : (⟨1, ![c]⟩ : Shape).BroadcastsInDim ⟨3, ![1, 1, c]⟩ (![2] : Fin 1 → Fin 3))
    (h2 : (⟨3, ![1, 1, c]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h2
        (broadcastInDim ⟨3, ![1, 1, c]⟩ (![2] : Fin 1 → Fin 3) h1 x) (ix3 p m f) = x (ix1 f) :=
  (bcast_11c_abc _ h2 p m f).trans (bcast_c_11c x h1 0 0 f)

/-- A per-row array [a, b] laid as [a, b, 1] reads, at (p, m, u), the value of row (p, m). -/
theorem bcast_ab_ab1 {a b : ℕ} (x : (⟨2, ![a, b]⟩ : Shape).Idx → α)
    (h : (⟨2, ![a, b]⟩ : Shape).BroadcastsInDim ⟨3, ![a, b, 1]⟩ (![0, 1] : Fin 2 → Fin 3))
    (p : Fin a) (m : Fin b) (u : Fin 1) :
    broadcastInDim ⟨3, ![a, b, 1]⟩ (![0, 1] : Fin 2 → Fin 3) h x (ix3 p m u) = x (ix2 p m) := by
  refine broadcastInDim_apply _ h x (ix3 p m u) (ix2 p m) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl

/-- [a, b, 1] spread along the last axis to [a, b, c] reads, at (p, m, f), the operand at (p, m, 0). -/
theorem bcast_ab1_abc {a b c : ℕ} (x : (⟨3, ![a, b, 1]⟩ : Shape).Idx → α)
    (h : (⟨3, ![a, b, 1]⟩ : Shape).BroadcastsInDim ⟨3, ![a, b, c]⟩ (![0, 1, 2] : Fin 3 → Fin 3))
    (p : Fin a) (m : Fin b) (f : Fin c) :
    broadcastInDim ⟨3, ![a, b, c]⟩ (![0, 1, 2] : Fin 3 → Fin 3) h x (ix3 p m f) = x (ix3 p m (0 : Fin 1)) := by
  refine broadcastInDim_apply _ h x (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ =>
    show (0 : ℕ) = if (1 : ℕ) = 1 then 0 else f.val
    rw [if_pos rfl]

/-! ## The host's product of a rank-3 array with a matrix -/

section Dot

variable {a b k n : ℕ} {sr : Shape} (d : DotDims ⟨3, ![a, b, k]⟩ sr ⟨3, ![a, b, n]⟩)

/-- One contracted axis. -/
theorem dot_contr_rank (hl : d.lhsContracting = [2]) : d.contr.rank = 1 := by
  rw [d.rank_contr, hl]; rfl

/-- Its extent is the left operand's last extent. -/
theorem dot_contr_size (hl : d.lhsContracting = [2]) :
    d.contr.size ⟨0, by rw [dot_contr_rank d hl]; exact Nat.one_pos⟩ = k := by
  rw [d.size_contr 0 (by rw [hl]; exact Nat.one_pos), List.getElem_of_eq hl]
  rfl

/-- The contraction index is its one coordinate. -/
def dotEquiv (hl : d.lhsContracting = [2]) : d.contr.Idx ≃ Fin k :=
  contrEquiv1 d k (dot_contr_rank d hl) (dot_contr_size d hl)

/-- The left operand is read at row (p, m), contracted position j. -/
theorem dot_lhsIdx (hl : d.lhsContracting = [2]) (hln : d.lhsNonContracting = [0, 1]) (hlb : d.lhsBatch = [])
    (p : Fin a) (m : Fin b) (e : Fin n) (j : Fin k) :
    d.lhsIdx (ix3 p m e) ((dotEquiv d hl).symm j) = ix3 p m j := by
  funext ax
  apply Fin.ext
  match ax with
  | ⟨0, _⟩ =>
    have hnb : (0 : Fin 3) ∉ d.lhsBatch := by rw [hlb]; exact List.not_mem_nil
    have hn : (0 : Fin 3) ∈ d.lhsNonContracting := by rw [hln]; exact List.mem_cons_self
    show (d.lhsIdx (ix3 p m e) ((dotEquiv d hl).symm j) (0 : Fin 3)).val = p.val
    unfold DotDims.lhsIdx
    rw [dif_neg hnb, dif_pos hn]
    simp only [Fin.val_cast]
    have key : ∀ (t : ℕ) (ht : t < (⟨3, ![a, b, n]⟩ : Shape).rank), t = 0 → ((ix3 p m e) ⟨t, ht⟩).val = p.val :=
      fun t ht h => by subst h; rfl
    exact key _ _ (by simp [hlb, hln])
  | ⟨1, _⟩ =>
    have hnb : (1 : Fin 3) ∉ d.lhsBatch := by rw [hlb]; exact List.not_mem_nil
    have hn : (1 : Fin 3) ∈ d.lhsNonContracting := by rw [hln]; exact List.mem_cons_of_mem _ List.mem_cons_self
    show (d.lhsIdx (ix3 p m e) ((dotEquiv d hl).symm j) (1 : Fin 3)).val = m.val
    unfold DotDims.lhsIdx
    rw [dif_neg hnb, dif_pos hn]
    simp only [Fin.val_cast]
    have key : ∀ (t : ℕ) (ht : t < (⟨3, ![a, b, n]⟩ : Shape).rank), t = 1 → ((ix3 p m e) ⟨t, ht⟩).val = m.val :=
      fun t ht h => by subst h; rfl
    exact key _ _ (by simp [hlb, hln])
  | ⟨2, _⟩ =>
    show (d.lhsIdx (ix3 p m e) ((dotEquiv d hl).symm j) (2 : Fin 3)).val = j.val
    rw [d.lhsIdx_val_of_single hl]
    exact contrEquiv1_symm_val d k (dot_contr_rank d hl) (dot_contr_size d hl) j

end Dot

section DotRows

variable {a b k n : ℕ} (d : DotDims ⟨3, ![a, b, k]⟩ ⟨2, ![n, k]⟩ ⟨3, ![a, b, n]⟩)

/-- A matrix contracted on its second axis is read at row e, contracted position j. -/
theorem dot_rhsIdx_rows (hl : d.lhsContracting = [2]) (hr : d.rhsContracting = [1]) (hln : d.lhsNonContracting = [0, 1])
    (hrn : d.rhsNonContracting = [0]) (hlb : d.lhsBatch = []) (hrb : d.rhsBatch = [])
    (p : Fin a) (m : Fin b) (e : Fin n) (j : Fin k) :
    d.rhsIdx (ix3 p m e) ((dotEquiv d hl).symm j) = ix2 e j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_cons_self
    show (d.rhsIdx (ix3 p m e) ((dotEquiv d hl).symm j) (0 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])
  | ⟨1, _⟩ =>
    show (d.rhsIdx (ix3 p m e) ((dotEquiv d hl).symm j) (1 : Fin 2)).val = j.val
    rw [d.rhsIdx_val_of_single hr]
    exact contrEquiv1_symm_val d k (dot_contr_rank d hl) (dot_contr_size d hl) j

variable {φ₁ φ₂ : FTy}

/-- The host's product contracting the last axis against a matrix's second axis, at (p, m, e). -/
theorem dotGeneral_rows (hl : d.lhsContracting = [2]) (hr : d.rhsContracting = [1]) (hln : d.lhsNonContracting = [0, 1])
    (hrn : d.rhsNonContracting = [0]) (hlb : d.lhsBatch = []) (hrb : d.rhsBatch = [])
    (prec : Option ContractPrecision) (sched : HostSchedule) (lhs : FVec Ideal ⟨3, ![a, b, k]⟩ φ₁) (rhs : FVec Ideal ⟨2, ![n, k]⟩ φ₂)
    (p : Fin a) (m : Fin b) (e : Fin n) :
    FloatOps.dotGeneral d prec sched lhs rhs (ix3 p m e) = ∑ j : Fin k, lhs (ix3 p m j) * rhs (ix2 e j) := by
  rw [Ideal.dotGeneral_apply, ← Equiv.sum_comp (dotEquiv d hl).symm]
  refine Finset.sum_congr rfl fun j _ => ?_
  rw [dot_lhsIdx d hl hln hlb p m e j, dot_rhsIdx_rows d hl hr hln hrn hlb hrb p m e j]

end DotRows

section DotCols

variable {a b k n : ℕ} (d : DotDims ⟨3, ![a, b, k]⟩ ⟨2, ![k, n]⟩ ⟨3, ![a, b, n]⟩)

/-- A matrix contracted on its first axis is read at contracted position j, column e. -/
theorem dot_rhsIdx_cols (hl : d.lhsContracting = [2]) (hr : d.rhsContracting = [0]) (hln : d.lhsNonContracting = [0, 1])
    (hrn : d.rhsNonContracting = [1]) (hlb : d.lhsBatch = []) (hrb : d.rhsBatch = [])
    (p : Fin a) (m : Fin b) (e : Fin n) (j : Fin k) :
    d.rhsIdx (ix3 p m e) ((dotEquiv d hl).symm j) = ix2 j e := by
  funext ax
  apply Fin.ext
  match ax with
  | ⟨0, _⟩ =>
    show (d.rhsIdx (ix3 p m e) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_cons_self
    show (d.rhsIdx (ix3 p m e) ((dotEquiv d hl).symm j) (1 : Fin 2)).val = e.val
    unfold DotDims.rhsIdx
    rw [dif_neg hnb, dif_pos hn]
    simp only [Fin.val_cast]
    have key : ∀ (t : ℕ) (ht : t < (⟨3, ![a, b, n]⟩ : Shape).rank), t = 2 → ((ix3 p m e) ⟨t, ht⟩).val = e.val :=
      fun t ht h => by subst h; rfl
    exact key _ _ (by simp [hlb, hln, hrn])

variable {φ₁ φ₂ : FTy}

/-- The host's product contracting the last axis against a matrix's first axis, at (p, m, e). -/
theorem dotGeneral_cols (hl : d.lhsContracting = [2]) (hr : d.rhsContracting = [0]) (hln : d.lhsNonContracting = [0, 1])
    (hrn : d.rhsNonContracting = [1]) (hlb : d.lhsBatch = []) (hrb : d.rhsBatch = [])
    (prec : Option ContractPrecision) (sched : HostSchedule) (lhs : FVec Ideal ⟨3, ![a, b, k]⟩ φ₁) (rhs : FVec Ideal ⟨2, ![k, n]⟩ φ₂)
    (p : Fin a) (m : Fin b) (e : Fin n) :
    FloatOps.dotGeneral d prec sched lhs rhs (ix3 p m e) = ∑ j : Fin k, lhs (ix3 p m j) * rhs (ix2 j e) := by
  rw [Ideal.dotGeneral_apply, ← Equiv.sum_comp (dotEquiv d hl).symm]
  refine Finset.sum_congr rfl fun j _ => ?_
  rw [dot_lhsIdx d hl hln hlb p m e j, dot_rhsIdx_cols d hl hr hln hrn hlb hrb p m e j]

end DotCols

/-! ## Reductions over the last axis -/

section Reductions

variable {φ : FTy}

/-- The host's float sum over the last axis of an [a, b, c] array at (p, m): the initial value plus the sum over k of
    the operand at (p, m, k). -/
theorem hostReduceAdd_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduceAdd x init h' hu (ix2 p m) = init (Shape.Idx.first hu) + ∑ k : Fin c, x (ix3 p m k) :=
  (Ideal.hostReduceAdd_single h' h x (init (Shape.Idx.first hu)) (ix2 p m)).trans
    (congrArg (init (Shape.Idx.first hu) + ·) (Finset.sum_congr rfl fun k _ => congrArg x (funext fun ax => Fin.ext (by
      match ax with
      | ⟨0, _⟩ => rfl
      | ⟨1, _⟩ => rfl
      | ⟨2, _⟩ => rfl))))

/-- The host's reduce with a maximum body over the last axis of an [a, b, c] array at (p, m): the fold of max, from the
    initial value, over k of the operand at (p, m, k). -/
theorem hostReduce_max_last3 {a b c : ℕ} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (m : Fin b) :
    Host.reduce (FloatOps.maximumf (F := Ideal) (φ := φ)) x init h' hu (ix2 p m)
      = (Finset.univ : Finset (Fin c)).fold max (init (Shape.Idx.first hu)) (fun k => x (ix3 p m k)) :=
  (Host.reduce_eq_fold_single (FloatOps.maximumf (F := Ideal) (φ := φ)) x init h' h hu (ix2 p m)).trans
    (Finset.fold_congr fun k _ => congrArg x (funext fun ax => Fin.ext (by
      match ax with
      | ⟨0, _⟩ => rfl
      | ⟨1, _⟩ => rfl
      | ⟨2, _⟩ => rfl)))

end Reductions

end Cert.LibRank3Host

end
-- ==== Proof.RefRead.lean ====
/-
  The reference program read at coordinates.

  Three facts, each at one output coordinate, on the extended reals:
  • the first linear layer: entry (0, c, d, h, o) is ∑ j, x (0, c, d, h, j) · W (o, j), plus the bias at o;
  • the attention core: with real queries, keys and values, entry (b, d, n) of the transposed result is the
    softmax-weighted mean of column d of the values of head b, the weights being the exponentials of the scores of
    query row n (inner products divided by the scale) shifted by their maximum;
  • the second linear layer: entry (0, n, c) is ∑ k, a (0, n, k) · W' (c, k), plus the bias at c.
-/
import proofs.«175403_j47682726921138_2_alg».proof.Proof.Gen.ReferenceIdeal.Read
import proofs.«175403_j47682726921138_2_alg».proof.Proof.Spec
import proofs.«175403_j47682726921138_2_alg».proof.Proof.LibRank3Host
import Idealize.ShloMosaic.Lib.ValueIdx
import Idealize.ShloMosaic.PureOps.Ideal.Laws

noncomputable section

namespace Cert.ReferenceIdeal.RefRead

open Cert.ReferenceIdeal Cert.ReferenceIdeal.Gen Idealize.ShloMosaic Idealize.ShloMosaic.ValueIdx
open Cert.Lib.OnlineSoftmax
open scoped BigOperators

/-- The first linear layer at (0, c, d, h, o): the inner product of the input row with row o of the weight, plus the
    bias at o. -/
theorem ref_qkv (x0 : (⟨S1x64x8x8x64, .f32⟩ : BufTy).Contents (Elt Ideal)) (x1 : (⟨S1536x64, .f32⟩ : BufTy).Contents (Elt Ideal))
    (x2 : (⟨S1536, .f32⟩ : BufTy).Contents (Elt Ideal)) (c : Fin 64) (d h : Fin 8) (o : Fin 1536) :
    Read.val_main_v3 (F := Ideal) x0 x1 x2 (ix5 0 c d h o)
      = (∑ j : Fin 64, x0 (ix5 0 c d h j) * x1 (ix2 o j)) + x2 (ix1 o) := by
  rw [Read.val_main_v3_apply, Read.val_main_v0_apply, Read.val_main_v2_apply, Read.val_main_v1_apply]
  have e0 : ∀ k : Fin 64, Read.lidx_main_v0 (ix5 (0 : Fin 1) c d h o) k = ix5 (0 : Fin 1) c d h k := fun k =>
    funext fun a => Fin.ext (by
      match a with
      | ⟨0, _⟩ => rfl
      | ⟨1, _⟩ => rfl
      | ⟨2, _⟩ => rfl
      | ⟨3, _⟩ => rfl
      | ⟨4, _⟩ => rfl)
  have e1 : ∀ k : Fin 64, Read.ridx_main_v0 (ix5 (0 : Fin 1) c d h o) k = ix2 o k := fun k =>
    funext fun a => Fin.ext (by
      match a with
      | ⟨0, _⟩ => rfl
      | ⟨1, _⟩ => rfl)
  have e2 : Read.idx_main_v1 (Read.idx_main_v2 (ix5 (0 : Fin 1) c d h o)) = ix1 o :=
    funext fun a => Fin.ext (by
      match a with
      | ⟨0, _⟩ => rfl)
  simp only [e0, e1, e2]
  rfl

/-- The second linear layer at (0, n, c): the inner product of row n of its input with row c of the weight, plus the
    bias at c. -/
theorem ref_proj (x0 : (⟨S1x64x8x8x64, .f32⟩ : BufTy).Contents (Elt Ideal)) (x1 : (⟨S1536x64, .f32⟩ : BufTy).Contents (Elt Ideal))
    (x2 : (⟨S1536, .f32⟩ : BufTy).Contents (Elt Ideal)) (x3 : (⟨S64x512, .f32⟩ : BufTy).Contents (Elt Ideal))
    (x4 : (⟨S64, .f32⟩ : BufTy).Contents (Elt Ideal)) (n : Fin 4096) (c : Fin 64) :
    Read.val_main_v34 (F := Ideal) x0 x1 x2 x3 x4 (ix3 0 n c)
      = (∑ k : Fin 512, Read.val_main_v30 (F := Ideal) x0 x1 x2 (ix3 0 n k) * x3 (ix2 c k)) + x4 (ix1 c) := by
  rw [Read.val_main_v34_apply, Read.val_main_v31_apply, Read.val_main_v33_apply, Read.val_main_v32_apply]
  have e0 : ∀ k : Fin 512, Read.lidx_main_v31 (ix3 (0 : Fin 1) n c) k = ix3 (0 : Fin 1) n k := fun k =>
    funext fun a => Fin.ext (by
      match a with
      | ⟨0, _⟩ => rfl
      | ⟨1, _⟩ => rfl
      | ⟨2, _⟩ => rfl)
  have e1 : ∀ k : Fin 512, Read.ridx_main_v31 (ix3 (0 : Fin 1) n c) k = ix2 c k := fun k =>
    funext fun a => Fin.ext (by
      match a with
      | ⟨0, _⟩ => rfl
      | ⟨1, _⟩ => rfl)
  have e2 : Read.idx_main_v32 (Read.idx_main_v33 (ix3 (0 : Fin 1) n c)) = ix1 c :=
    funext fun a => Fin.ext (by
      match a with
      | ⟨0, _⟩ => rfl)
  simp only [e0, e1, e2]
  rfl

/-! ## The attention core -/

/-- The pattern 0x41B504F3 is the real 11863283 / 2^19, the scale. -/
theorem ofBits_scale : Ideal.ofBits .f32 0x41B504F3#32 = ((Cert.Attn3d.scale : ℝ) : EReal) := by
  unfold Cert.Attn3d.scale
  simp [Ideal.ofBits, Ideal.ieee, -EReal.coe_mul]; norm_num

/-- The pattern 0xFF800000 is -∞. -/
theorem ofBits_neg_inf : Ideal.ofBits .f32 0xFF800000#32 = (⊥ : EReal) := by
  simp [Ideal.ofBits, Ideal.ieee]

/-- The pattern 0x00000000 is 0. -/
theorem ofBits_pos_zero : Ideal.ofBits .f32 0x00000000#32 = (0 : EReal) := by
  simp [Ideal.ofBits, Ideal.ieee]

section Attn

variable (x0 : (⟨S1x64x8x8x64, .f32⟩ : BufTy).Contents (Elt Ideal)) (x1 : (⟨S1536x64, .f32⟩ : BufTy).Contents (Elt Ideal))
  (x2 : (⟨S1536, .f32⟩ : BufTy).Contents (Elt Ideal)) (qr kr vr : Fin 8 → Fin 4096 → Fin 64 → ℝ)
  (hq : ∀ b n e, Read.val_main_v8 (F := Ideal) x0 x1 x2 (ix3 b n e) = ((qr b n e : ℝ) : EReal))
  (hk : ∀ b n e, Read.val_main_v10 (F := Ideal) x0 x1 x2 (ix3 b n e) = ((kr b n e : ℝ) : EReal))
  (hv : ∀ b n e, Read.val_main_v12 (F := Ideal) x0 x1 x2 (ix3 b n e) = ((vr b n e : ℝ) : EReal))

include hq hk in
/-- The raw score of query row n against key row m of head b is the real inner product. -/
theorem v13_read (b : Fin 8) (n m : Fin 4096) :
    Read.val_main_v13 (F := Ideal) x0 x1 x2 (ix3 b n m) = ((∑ e, qr b n e * kr b m e : ℝ) : EReal) := by
  rw [Read.val_main_v13_apply]
  have e0 : ∀ k : Fin 64, Read.lidx_main_v13 (ix3 b n m) k = ix3 b n k := fun k =>
    funext fun a => Fin.ext (by
      match a with
      | ⟨0, _⟩ => rfl
      | ⟨1, _⟩ => rfl
      | ⟨2, _⟩ => rfl)
  have e1 : ∀ k : Fin 64, Read.ridx_main_v13 (ix3 b n m) k = ix3 b m k := fun k =>
    funext fun a => Fin.ext (by
      match a with
      | ⟨0, _⟩ => rfl
      | ⟨1, _⟩ => rfl
      | ⟨2, _⟩ => rfl)
  simp only [e0, e1, hq, hk, ← EReal.coe_mul]
  exact coe_finset_sum _ _

include hq hk in
/-- The scaled score is the real score. -/
theorem v15_read (b : Fin 8) (n m : Fin 4096) :
    Read.val_main_v15 (F := Ideal) x0 x1 x2 (ix3 b n m) = ((Cert.Attn3d.score (qr b n) (kr b m) : ℝ) : EReal) := by
  rw [Read.val_main_v15_apply, v13_read x0 x1 x2 qr kr hq hk, Read.val_main_v14_apply, Read.val_main_cst_apply,
    Ideal.hostDivf_def, Ideal.ofBits_def, ofBits_scale]
  exact div_coe_coe _ Cert.Attn3d.scale_pos.ne'

include hq hk in
/-- The row maximum, folded from -∞ over the 4096 keys, is the real maximum of the scores. -/
theorem v16_read (b : Fin 8) (n : Fin 4096) :
    Read.val_main_v16 (F := Ideal) x0 x1 x2 (ix2 b n)
      = ((rmax (fun m => Cert.Attn3d.score (qr b n) (kr b m)) : ℝ) : EReal) := by
  unfold Read.val_main_v16
  refine (Cert.LibRank3Host.hostReduce_max_last3 _ _ _ (by decide) _ b n).trans ?_
  rw [Read.val_main_cst_0_apply, Ideal.ofBits_def, ofBits_neg_inf]
  simp only [v15_read x0 x1 x2 qr kr hq hk]
  exact fold_max_eq _

include hq hk in
/-- The maximum against -∞ changes nothing. -/
theorem v18_read (b : Fin 8) (n : Fin 4096) :
    Read.val_main_v18 (F := Ideal) x0 x1 x2 (ix2 b n)
      = ((rmax (fun m => Cert.Attn3d.score (qr b n) (kr b m)) : ℝ) : EReal) := by
  rw [Read.val_main_v18_apply, v16_read x0 x1 x2 qr kr hq hk, Read.val_main_v17_apply, Read.val_main_cst_1_apply,
    Ideal.maximumf_def, Ideal.ofBits_def, ofBits_neg_inf]
  exact max_eq_right bot_le

include hq hk in
/-- The exponential of the shifted score. -/
theorem v22_read (b : Fin 8) (n m : Fin 4096) :
    Read.val_main_v22 (F := Ideal) x0 x1 x2 (ix3 b n m)
      = Ideal.exp (((Cert.Attn3d.score (qr b n) (kr b m) : ℝ) : EReal)
          - ((rmax (fun u => Cert.Attn3d.score (qr b n) (kr b u)) : ℝ) : EReal)) := by
  have e0 : Read.idx_main_v19 (Read.idx_main_v20 (ix3 b n m)) = ix2 b n :=
    funext fun a => Fin.ext (by
      match a with
      | ⟨0, _⟩ => rfl
      | ⟨1, _⟩ => rfl)
  rw [Read.val_main_v22_apply, Read.val_main_v21_apply, v15_read x0 x1 x2 qr kr hq hk, Read.val_main_v20_apply,
    Read.val_main_v19_apply, e0, v18_read x0 x1 x2 qr kr hq hk, Ideal.hostUnary_exp_def]
  rfl

include hq hk in
/-- The row sum of the exponentials is the real sum. -/
theorem v23_read (b : Fin 8) (n : Fin 4096) :
    Read.val_main_v23 (F := Ideal) x0 x1 x2 (ix2 b n)
      = ((∑ m, Real.exp (Cert.Attn3d.score (qr b n) (kr b m)
          - rmax (fun u => Cert.Attn3d.score (qr b n) (kr b u))) : ℝ) : EReal) := by
  have e0 : ∀ k : Fin 4096, Read.idx_main_v23 (ix2 b n) k = ix3 b n k := fun k =>
    funext fun a => Fin.ext (by
      match a with
      | ⟨0, _⟩ => rfl
      | ⟨1, _⟩ => rfl
      | ⟨2, _⟩ => rfl)
  rw [Read.val_main_v23_apply, Read.val_main_cst_2_apply, Ideal.ofBits_def, ofBits_pos_zero, zero_add]
  simp only [e0, v22_read x0 x1 x2 qr kr hq hk]
  exact sum_exp_eq (fun m => Cert.Attn3d.score (qr b n) (kr b m)) _

include hq hk in
/-- One softmax weight: the exponential divided by the row sum. -/
theorem v26_read (b : Fin 8) (n m : Fin 4096) :
    Read.val_main_v26 (F := Ideal) x0 x1 x2 (ix3 b n m)
      = Ideal.div (Ideal.exp (((Cert.Attn3d.score (qr b n) (kr b m) : ℝ) : EReal)
          - ((rmax (fun u => Cert.Attn3d.score (qr b n) (kr b u)) : ℝ) : EReal)))
        ((∑ u, Real.exp (Cert.Attn3d.score (qr b n) (kr b u)
          - rmax (fun t => Cert.Attn3d.score (qr b n) (kr b t))) : ℝ) : EReal) := by
  have e0 : Read.idx_main_v24 (Read.idx_main_v25 (ix3 b n m)) = ix2 b n :=
    funext fun a => Fin.ext (by
      match a with
      | ⟨0, _⟩ => rfl
      | ⟨1, _⟩ => rfl)
  rw [Read.val_main_v26_apply, v22_read x0 x1 x2 qr kr hq hk, Read.val_main_v25_apply, Read.val_main_v24_apply, e0,
    v23_read x0 x1 x2 qr kr hq hk, Ideal.hostDivf_def]

include hq hk hv in
/-- The weighted sum of the values is the real attention row. -/
theorem v27_read (b : Fin 8) (n : Fin 4096) (d : Fin 64) :
    Read.val_main_v27 (F := Ideal) x0 x1 x2 (ix3 b n d)
      = ((Cert.Attn3d.attnRow (qr b n) (kr b) (fun m => vr b m d) : ℝ) : EReal) := by
  have e0 : ∀ k : Fin 4096, Read.lidx_main_v27 (ix3 b n d) k = ix3 b n k := fun k =>
    funext fun a => Fin.ext (by
      match a with
      | ⟨0, _⟩ => rfl
      | ⟨1, _⟩ => rfl
      | ⟨2, _⟩ => rfl)
  have e1 : ∀ k : Fin 4096, Read.ridx_main_v27 (ix3 b n d) k = ix3 b k d := fun k =>
    funext fun a => Fin.ext (by
      match a with
      | ⟨0, _⟩ => rfl
      | ⟨1, _⟩ => rfl
      | ⟨2, _⟩ => rfl)
  rw [Read.val_main_v27_apply]
  simp only [e0, e1, v26_read x0 x1 x2 qr kr hq hk, hv]
  exact softmax_eq (fun m => Cert.Attn3d.score (qr b n) (kr b m)) (fun m => vr b m d) _

include hq hk hv in
/-- The attention core at (b, d, n) of its transposed result: the real attention row of query n of head b against the
    keys of head b, weighting column d of the values. -/
theorem ref_attn (b : Fin 8) (d : Fin 64) (n : Fin 4096) :
    Read.val_main_v28 (F := Ideal) x0 x1 x2 (ix3 b d n)
      = ((Cert.Attn3d.attnRow (qr b n) (kr b) (fun m => vr b m d) : ℝ) : EReal) := by
  have e0 : Read.idx_main_v28 (ix3 b d n) = ix3 b n d :=
    funext fun a => Fin.ext (by
      match a with
      | ⟨0, _⟩ => rfl
      | ⟨1, _⟩ => rfl
      | ⟨2, _⟩ => rfl)
  rw [Read.val_main_v28_apply, e0]
  exact v27_read x0 x1 x2 qr kr vr hq hk hv b n d

end Attn

end Cert.ReferenceIdeal.RefRead

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.Bridge.lean ====
/-
  The kernel program's layout operations against the reference's stages.

  The two programs name the same shapes separately; a shape of one is the shape of the other, so an array of one is an
  array of the other. Four groups of facts, all on the extended reals:
  • the reference's layout stages (the split of the projected rows into per-head queries, keys and values; the merge of
    the heads; the final five-axis view) are the kernel program's layout operations applied to the reference's own
    earlier stage;
  • a [4096, 1536] array whose entry (r, o) is the inner product of row r of the input with column o of the transposed
    weight plus the bias, viewed on five axes, is the reference's first linear layer;
  • likewise a [4096, 64] array of inner products plus bias, viewed as [1, 4096, 64], is the reference's second linear
    layer;
  • real inputs give real entries after the first linear layer and after the split.
-/
import proofs.«175403_j47682726921138_2_alg».proof.Proof.Glue
import proofs.«175403_j47682726921138_2_alg».proof.Proof.RefRead
import proofs.«175403_j47682726921138_2_alg».proof.Proof.LibRealEntries
import Idealize.ShloMosaic.Lib.ValueLayout
import Idealize.ShloMosaic.Lib.Pipeline.Value
import Idealize.ShloMosaic.Lib.ValueIdx

noncomputable section

namespace Cert.Bridge

open Idealize.ShloMosaic Idealize.ShloMosaic.ValueIdx
open scoped BigOperators

/-! ## The shared layout operations are the same functions -/

/-- The reference's queries are slab 0 of the split of its first linear layer. -/
theorem v8_eq (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal)) :
    Cert.ReferenceIdeal.Read.val_main_v8 (F := Ideal) x0 x1 x2
      = Cert.KernelIdeal.Glue.headsQ (Cert.KernelIdeal.Glue.heads (Cert.ReferenceIdeal.Read.val_main_v3 (F := Ideal) x0 x1 x2)) :=
  rfl

/-- The reference's keys are slab 1 of the split. -/
theorem v10_eq (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal)) :
    Cert.ReferenceIdeal.Read.val_main_v10 (F := Ideal) x0 x1 x2
      = Cert.KernelIdeal.Glue.headsK (Cert.KernelIdeal.Glue.heads (Cert.ReferenceIdeal.Read.val_main_v3 (F := Ideal) x0 x1 x2)) :=
  rfl

/-- The reference's values are slab 2 of the split. -/
theorem v12_eq (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal)) :
    Cert.ReferenceIdeal.Read.val_main_v12 (F := Ideal) x0 x1 x2
      = Cert.KernelIdeal.Glue.headsV (Cert.KernelIdeal.Glue.heads (Cert.ReferenceIdeal.Read.val_main_v3 (F := Ideal) x0 x1 x2)) :=
  rfl

/-- The reference's merged heads are the merge of its transposed attention result. -/
theorem v30_eq (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal)) :
    Cert.ReferenceIdeal.Read.val_main_v30 (F := Ideal) x0 x1 x2
      = Cert.KernelIdeal.Glue.merged (Cert.ReferenceIdeal.Read.val_main_v28 (F := Ideal) x0 x1 x2) :=
  rfl

/-- The reference's result is the five-axis view of its second linear layer. -/
theorem v35_eq (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (x3 : (⟨Cert.ReferenceIdeal.S64x512, .f32⟩ : BufTy).Contents (Elt Ideal))
    (x4 : (⟨Cert.ReferenceIdeal.S64, .f32⟩ : BufTy).Contents (Elt Ideal)) :
    Cert.ReferenceIdeal.Read.val_main_v35 (F := Ideal) x0 x1 x2 x3 x4
      = shapeCast Cert.KernelIdeal.S1x64x8x8x64 (Cert.ReferenceIdeal.Read.val_main_v34 (F := Ideal) x0 x1 x2 x3 x4)
          Cert.KernelIdeal.Gen.shapeCasts_S1x4096x64_S1x64x8x8x64 :=
  rfl

/-! ## The first linear layer -/

/-- Row c·64 + d·8 + h of 4096, from the coordinates (c, d, h) of 64 × 8 × 8. -/
def row3 (c : Fin 64) (d h : Fin 8) : Fin 4096 :=
  ⟨c.val * 64 + d.val * 8 + h.val, by have := c.isLt; have := d.isLt; have := h.isLt; omega⟩

/-- The five-axis view [1, 64, 8, 8, 1536] of a [4096, 1536] array reads, at (0, c, d, h, o), the array at row
    c·64 + d·8 + h, column o. -/
theorem rows5_apply {α : Type} (y : Cert.KernelIdeal.S4096x1536.Idx → α) (c : Fin 64) (d h : Fin 8) (o : Fin 1536) :
    Cert.KernelIdeal.Glue.rows5 y (ix5 (0 : Fin 1) c d h o) = y (ix2 (row3 c d h) o) := by
  unfold Cert.KernelIdeal.Glue.rows5
  refine shapeCast_apply y _ _ _ ?_
  rw [Shape.rowMajor_val_two, Shape.rowMajor_val_five]
  show (c.val * 64 + d.val * 8 + h.val) * 1536 + o.val
    = ((((0 : ℕ) * 64 + c.val) * 8 + d.val) * 8 + h.val) * 1536 + o.val
  omega

/-- The [4096, 64] view of a [1, 64, 8, 8, 64] array reads, at row c·64 + d·8 + h, column j, the array at
    (0, c, d, h, j). -/
theorem rows2_apply {α : Type} (x : (⟨5, ![1, 64, 8, 8, 64]⟩ : Shape).Idx → α)
    (hc : (⟨5, ![1, 64, 8, 8, 64]⟩ : Shape).ShapeCasts ⟨2, ![4096, 64]⟩) (c : Fin 64) (d h : Fin 8) (j : Fin 64) :
    shapeCast ⟨2, ![4096, 64]⟩ x hc (ix2 (row3 c d h) j) = x (ix5 (0 : Fin 1) c d h j) := by
  refine shapeCast_apply x hc _ _ ?_
  rw [Shape.rowMajor_val_two, Shape.rowMajor_val_five]
  show ((((0 : ℕ) * 64 + c.val) * 8 + d.val) * 8 + h.val) * 64 + j.val
    = (c.val * 64 + d.val * 8 + h.val) * 64 + j.val
  omega

/-- A [4096, 1536] array whose entry (r, o) is the inner product of row r of the input (viewed as [4096, 64]) with
    column o of the transposed weight, plus the bias at o, is, viewed on five axes, the reference's first linear
    layer. -/
theorem qkv_bridge (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (y : Cert.KernelIdeal.S4096x1536.Idx → EReal)
    (hy : ∀ (r : Fin 4096) (o : Fin 1536), y (ix2 r o)
      = (∑ j : Fin 64, shapeCast Cert.KernelIdeal.S4096x64 x0 Cert.KernelIdeal.Gen.shapeCasts_S1x64x8x8x64_S4096x64 (ix2 r j)
            * transpose Cert.KernelIdeal.S64x1536 [1, 0] x1 Cert.KernelIdeal.Gen.transposes_S1536x64_S64x1536_1_0 (ix2 j o))
          + shapeCast Cert.KernelIdeal.S1x1536 x2 Cert.KernelIdeal.Gen.shapeCasts_S1536_S1x1536 (ix2 0 o)) :
    Cert.KernelIdeal.Glue.rows5 y = Cert.ReferenceIdeal.Read.val_main_v3 (F := Ideal) x0 x1 x2 := by
  funext i
  obtain ⟨u, c, d, h, o, rfl⟩ : ∃ (u : Fin 1) (c : Fin 64) (d h : Fin 8) (o : Fin 1536), i = ix5 u c d h o :=
    ⟨i 0, i 1, i 2, i 3, i 4, eq_ix5 i⟩
  obtain rfl : u = 0 := Subsingleton.elim _ _
  rw [rows5_apply, hy, Cert.ReferenceIdeal.RefRead.ref_qkv]
  have ht : ∀ j : Fin 64, transpose Cert.KernelIdeal.S64x1536 [1, 0] x1
      Cert.KernelIdeal.Gen.transposes_S1536x64_S64x1536_1_0 (ix2 j o) = x1 (ix2 o j) :=
    fun j => transpose_ix2_apply x1 _ j o
  have hr : ∀ j : Fin 64, shapeCast Cert.KernelIdeal.S4096x64 x0
      Cert.KernelIdeal.Gen.shapeCasts_S1x64x8x8x64_S4096x64 (ix2 (row3 c d h) j) = x0 (ix5 (0 : Fin 1) c d h j) :=
    fun j => rows2_apply x0 _ c d h j
  have hb : shapeCast Cert.KernelIdeal.S1x1536 x2 Cert.KernelIdeal.Gen.shapeCasts_S1536_S1x1536 (ix2 0 o) = x2 (ix1 o) :=
    shapeCast_a_1a_apply x2 _ 0 o
  simp only [ht, hr, hb]

/-! ## The second linear layer -/

/-- A [4096, 64] array whose entry (n, c) is the inner product of row n of the merged heads (viewed as [4096, 512]) with
    column c of the transposed weight, plus the bias at c, is, viewed as [1, 4096, 64], the reference's second linear
    layer. -/
theorem proj_bridge (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (x3 : (⟨Cert.ReferenceIdeal.S64x512, .f32⟩ : BufTy).Contents (Elt Ideal))
    (x4 : (⟨Cert.ReferenceIdeal.S64, .f32⟩ : BufTy).Contents (Elt Ideal))
    (y : Cert.KernelIdeal.S4096x64.Idx → EReal) (a : Cert.KernelIdeal.S1x4096x512.Idx → EReal)
    (ha : a = Cert.ReferenceIdeal.Read.val_main_v30 (F := Ideal) x0 x1 x2)
    (hy : ∀ (n : Fin 4096) (c : Fin 64), y (ix2 n c)
      = (∑ k : Fin 512, shapeCast Cert.KernelIdeal.S4096x512 a Cert.KernelIdeal.Gen.shapeCasts_S1x4096x512_S4096x512 (ix2 n k)
            * transpose Cert.KernelIdeal.S512x64 [1, 0] x3 Cert.KernelIdeal.Gen.transposes_S64x512_S512x64_1_0 (ix2 k c))
          + shapeCast Cert.KernelIdeal.S1x64 x4 Cert.KernelIdeal.Gen.shapeCasts_S64_S1x64 (ix2 0 c)) :
    shapeCast Cert.KernelIdeal.S1x4096x64 y Cert.KernelIdeal.Gen.shapeCasts_S4096x64_S1x4096x64
      = Cert.ReferenceIdeal.Read.val_main_v34 (F := Ideal) x0 x1 x2 x3 x4 := by
  subst ha
  funext i
  obtain ⟨u, n, c, rfl⟩ : ∃ (u : Fin 1) (n : Fin 4096) (c : Fin 64), i = ix3 u n c := ⟨i 0, i 1, i 2, eq_ix3 i⟩
  obtain rfl : u = 0 := Subsingleton.elim _ _
  rw [shapeCast_ab_1ab_apply, hy, Cert.ReferenceIdeal.RefRead.ref_proj]
  have ht : ∀ k : Fin 512, transpose Cert.KernelIdeal.S512x64 [1, 0] x3
      Cert.KernelIdeal.Gen.transposes_S64x512_S512x64_1_0 (ix2 k c) = x3 (ix2 c k) :=
    fun k => transpose_ix2_apply x3 _ k c
  have hr : ∀ k : Fin 512, shapeCast Cert.KernelIdeal.S4096x512 (Cert.ReferenceIdeal.Read.val_main_v30 (F := Ideal) x0 x1 x2)
      Cert.KernelIdeal.Gen.shapeCasts_S1x4096x512_S4096x512 (ix2 n k)
        = Cert.ReferenceIdeal.Read.val_main_v30 (F := Ideal) x0 x1 x2 (ix3 (0 : Fin 1) n k) :=
    fun k => shapeCast_1ab_ab_apply _ _ n k
  have hb : shapeCast Cert.KernelIdeal.S1x64 x4 Cert.KernelIdeal.Gen.shapeCasts_S64_S1x64 (ix2 0 c) = x4 (ix1 c) :=
    shapeCast_a_1a_apply x4 _ 0 c
  simp only [ht, hr, hb]

/-! ## Real entries through the layout operations -/

/-- Every entry of a shape cast is an entry of its operand. -/
theorem shapeCast_forall {α : Type} {s t : Shape} (P : α → Prop) (x : s.Idx → α) (h : s.ShapeCasts t)
    (hx : ∀ i, P (x i)) : ∀ j, P (shapeCast t x h j) := fun _ => hx _

/-- Every entry of a transpose is an entry of its operand. -/
theorem transpose_forall {α : Type} {s t : Shape} (P : α → Prop) (perm : List (Fin s.rank)) (x : s.Idx → α)
    (h : s.Transposes perm t) (hx : ∀ i, P (x i)) : ∀ j, P (transpose t perm x h j) := fun _ => hx _

/-- Every entry of a slice is an entry of its operand. -/
theorem slice_forall {α : Type} {s t : Shape} (P : α → Prop) (off : Fin s.rank → Nat) (x : s.Idx → α)
    (h : s.Slices off t) (hx : ∀ i, P (x i)) : ∀ j, P (extractStridedSlice t off x h j) := fun _ => hx _

/-- Every entry of the split's common part is an entry of its operand. -/
theorem heads_forall {α : Type} (P : α → Prop) (x : Cert.KernelIdeal.S1x64x8x8x1536.Idx → α) (hx : ∀ i, P (x i)) :
    ∀ j, P (Cert.KernelIdeal.Glue.heads x j) :=
  shapeCast_forall P _ _ (transpose_forall P _ _ _ (shapeCast_forall P _ _ hx))

/-- Every entry of slab 0 of the split is an entry of the split. -/
theorem headsQ_forall {α : Type} (P : α → Prop) (x : Cert.KernelIdeal.S3x8x4096x64.Idx → α) (hx : ∀ i, P (x i)) :
    ∀ j, P (Cert.KernelIdeal.Glue.headsQ x j) :=
  shapeCast_forall P _ _ (slice_forall P _ _ _ hx)

/-- Every entry of slab 1 of the split is an entry of the split. -/
theorem headsK_forall {α : Type} (P : α → Prop) (x : Cert.KernelIdeal.S3x8x4096x64.Idx → α) (hx : ∀ i, P (x i)) :
    ∀ j, P (Cert.KernelIdeal.Glue.headsK x j) :=
  shapeCast_forall P _ _ (slice_forall P _ _ _ hx)

/-- Every entry of slab 2 of the split is an entry of the split. -/
theorem headsV_forall {α : Type} (P : α → Prop) (x : Cert.KernelIdeal.S3x8x4096x64.Idx → α) (hx : ∀ i, P (x i)) :
    ∀ j, P (Cert.KernelIdeal.Glue.headsV x j) :=
  shapeCast_forall P _ _ (slice_forall P _ _ _ hx)

/-- Real inputs, weights and bias give real entries of the first linear layer. -/
theorem v3_real (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) :
    ∀ i, ∃ r : ℝ, Cert.ReferenceIdeal.Read.val_main_v3 (F := Ideal) x0 x1 x2 i = ((r : ℝ) : EReal) := by
  intro i
  obtain ⟨u, c, d, h, o, rfl⟩ : ∃ (u : Fin 1) (c : Fin 64) (d h : Fin 8) (o : Fin 1536), i = ix5 u c d h o :=
    ⟨i 0, i 1, i 2, i 3, i 4, eq_ix5 i⟩
  obtain rfl : u = 0 := Subsingleton.elim _ _
  rw [Cert.ReferenceIdeal.RefRead.ref_qkv]
  exact Cert.LibRealEntries.IsReal.add
    (Cert.LibRealEntries.IsReal.sum _ _ fun j _ => Cert.LibRealEntries.IsReal.mul (h0 _) (h1 _)) (h2 _)

/-- Real inputs, weights and bias give real queries. -/
theorem v8_real (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) :
    ∀ i, ∃ r : ℝ, Cert.ReferenceIdeal.Read.val_main_v8 (F := Ideal) x0 x1 x2 i = ((r : ℝ) : EReal) := by
  rw [v8_eq]
  exact headsQ_forall Cert.LibRealEntries.IsReal _ (heads_forall Cert.LibRealEntries.IsReal _ (v3_real x0 x1 x2 h0 h1 h2))

/-- Real inputs, weights and bias give real keys. -/
theorem v10_real (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) :
    ∀ i, ∃ r : ℝ, Cert.ReferenceIdeal.Read.val_main_v10 (F := Ideal) x0 x1 x2 i = ((r : ℝ) : EReal) := by
  rw [v10_eq]
  exact headsK_forall Cert.LibRealEntries.IsReal _ (heads_forall Cert.LibRealEntries.IsReal _ (v3_real x0 x1 x2 h0 h1 h2))

/-- Real inputs, weights and bias give real values. -/
theorem v12_real (x0 : (⟨Cert.ReferenceIdeal.S1x64x8x8x64, .f32⟩ : BufTy).Contents (Elt Ideal))
    (x1 : (⟨Cert.ReferenceIdeal.S1536x64, .f32⟩ : BufTy).Contents (Elt Ideal))
    (x2 : (⟨Cert.ReferenceIdeal.S1536, .f32⟩ : BufTy).Contents (Elt Ideal))
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) :
    ∀ i, ∃ r : ℝ, Cert.ReferenceIdeal.Read.val_main_v12 (F := Ideal) x0 x1 x2 i = ((r : ℝ) : EReal) := by
  rw [v12_eq]
  exact headsV_forall Cert.LibRealEntries.IsReal _ (heads_forall Cert.LibRealEntries.IsReal _ (v3_real x0 x1 x2 h0 h1 h2))

end Cert.Bridge

end
-- ==== Proof.Finite.lean ====
import proofs.«175403_j47682726921138_2_alg».proof.Pre_finite_inputs
import proofs.«175403_j47682726921138_2_alg».proof.Proof.Gen.Pre_finite_inputs
import Idealize.ShloMosaic.Lib.ReduceAll
import Idealize.ShloMosaic.Lib.ValueIdx
import Idealize.ShloMosaic.PureOps.Ideal

/-!
# The precondition `finite_inputs`, decoded over the extended reals

The predicate is the conjunction, over five float arrays, of `jnp.all(|x| < +∞)`. Over the extended reals
`|x| = max x (-x)`, the word `0x7F800000` is `⊤`, and `max x (-x) < ⊤` excludes exactly `x = ⊤` and `x = ⊥`:
every entry of an array that passes is (the coercion of) a real number.
-/

namespace Cert.Pre_finite_inputs.Finite

open Idealize.ShloMosaic

/-- The rank-0 shape has exactly one index. -/
instance subsingleton_S_Idx : Subsingleton S_.Idx := ⟨fun a b => funext fun d => d.elim0⟩

/-- The f32 word `0x7F800000` is `+∞`. -/
theorem ofBits_inf : Ideal.ofBits .f32 0x7F800000#32 = (⊤ : EReal) := by
  simp [Ideal.ofBits, Ideal.ieee]

/-- One entry: if the bit `|x| < +∞` is set then `x` is a real number. -/
theorem real_of_abs_lt_inf (x : EReal)
    (h : Ideal.cmp .olt (max x (-x)) (Ideal.ofBits .f32 0x7F800000#32) = 1#1) :
    ∃ r : ℝ, x = ((r : ℝ) : EReal) := by
  rw [ofBits_inf] at h
  unfold Ideal.cmp at h
  induction x using EReal.rec with
  | bot => simp at h
  | coe r => exact ⟨r, rfl⟩
  | top => simp at h

/-- One array: if `jnp.all(|a| < +∞)` is 1 then every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1)
    (i : s.Idx) : ∃ r : ℝ, a i = ((r : ℝ) : EReal) :=
  real_of_abs_lt_inf (a i) (Host.reduce_andi_all _ init hr hu ValueIdx.ix0 e i)

theorem real_of_pre [Cert.Pre_finite_inputs.Facts] (a0 : FVec Ideal Cert.Pre_finite_inputs.S1x64x8x8x64 .f32) (a1 : FVec Ideal Cert.Pre_finite_inputs.S1536x64 .f32) (a2 : FVec Ideal Cert.Pre_finite_inputs.S1536 .f32) (a3 : FVec Ideal Cert.Pre_finite_inputs.S64x512 .f32) (a4 : FVec Ideal Cert.Pre_finite_inputs.S64 .f32)
    (h : Cert.Pre_finite_inputs.fn (F := Ideal) a0 a1 a2 a3 a4 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal)) := by
  have h0 := congrFun h ValueIdx.ix0
  dsimp only [Cert.Pre_finite_inputs.fn, Cert.Pre_finite_inputs.fn_part1] at h0
  -- the result is ((((b0 ∧ b1) ∧ b2) ∧ b3) ∧ b4); keep the first three bits
  obtain ⟨h0123, _⟩ := IntOp.andi_eq_one.1 h0
  obtain ⟨h012, _⟩ := IntOp.andi_eq_one.1 h0123
  obtain ⟨h01, hb2⟩ := IntOp.andi_eq_one.1 h012
  obtain ⟨hb0, hb1⟩ := IntOp.andi_eq_one.1 h01
  exact ⟨fun i => real_of_all a0 _ _ _ _ hb0 i, fun i => real_of_all a1 _ _ _ _ hb1 i,
    fun i => real_of_all a2 _ _ _ _ hb2 i⟩

end Cert.Pre_finite_inputs.Finite
-- ==== Proof.Final.lean ====
/-
  The idealized kernel's result is the idealized reference's result.

  Both programs compute, from the same five argument arrays: a linear layer on the rows of x
  (weights w_qkv, bias b_qkv); the same re-laying of its output into queries, keys and values
  per head; scaled softmax attention per head; the same re-laying of the attention output;
  and a second linear layer (weights w_proj, bias b_proj). The kernel's three pipelined
  regions leave whole arrays that are, index by index, the linear layer, the attention and
  the second linear layer of what they were entered with; the reference's stages are the same
  three functions; and the layout operations in between are literally the same operations.
  The two linear layers are the same sums term by term. The attention is where the
  arrangements differ (four blocks of keys with running maximum, sum and accumulator,
  against one maximum, one sum and one division per key): they agree because the queries,
  keys and values are real numbers, which holds because the inputs x, w_qkv, b_qkv are
  finite.
-/
import proofs.«175403_j47682726921138_2_alg».proof.Defs
import proofs.«175403_j47682726921138_2_alg».proof.Proof.Gen.ReferenceIdeal.Read
import proofs.«175403_j47682726921138_2_alg».proof.Proof.KernelRun
import proofs.«175403_j47682726921138_2_alg».proof.Proof.Glue
import proofs.«175403_j47682726921138_2_alg».proof.Proof.Linear
import proofs.«175403_j47682726921138_2_alg».proof.Proof.Attention
import proofs.«175403_j47682726921138_2_alg».proof.Proof.RefRead
import proofs.«175403_j47682726921138_2_alg».proof.Proof.Bridge
import proofs.«175403_j47682726921138_2_alg».proof.Proof.Finite
import Idealize.ShloMosaic.Lib.ValueIdx

set_option maxRecDepth 16384

noncomputable section

namespace Cert.Final

open Idealize.ShloMosaic Idealize.ShloMosaic.TcCoe Idealize.SL.Sem Idealize.ShloMosaic.ValueIdx
open scoped BigOperators

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The argument arrays at launch: x, w_qkv, b_qkv, w_proj, b_proj. -/
abbrev a0 : (⟨Cert.ReferenceIdeal.S1x64x8x8x64, .f32⟩ : BufTy).Contents (Elt Ideal) := m ((c.tc : Thread Cert.KernelIdeal.nD Cert.KernelIdeal.τ).loc Cert.KernelIdeal.main_arg0)
abbrev a1 : (⟨Cert.ReferenceIdeal.S1536x64, .f32⟩ : BufTy).Contents (Elt Ideal) := m ((c.tc : Thread Cert.KernelIdeal.nD Cert.KernelIdeal.τ).loc Cert.KernelIdeal.main_arg1)
abbrev a2 : (⟨Cert.ReferenceIdeal.S1536, .f32⟩ : BufTy).Contents (Elt Ideal) := m ((c.tc : Thread Cert.KernelIdeal.nD Cert.KernelIdeal.τ).loc Cert.KernelIdeal.main_arg2)
abbrev a3 : (⟨Cert.ReferenceIdeal.S64x512, .f32⟩ : BufTy).Contents (Elt Ideal) := m ((c.tc : Thread Cert.KernelIdeal.nD Cert.KernelIdeal.τ).loc Cert.KernelIdeal.main_arg3)
abbrev a4 : (⟨Cert.ReferenceIdeal.S64, .f32⟩ : BufTy).Contents (Elt Ideal) := m ((c.tc : Thread Cert.KernelIdeal.nD Cert.KernelIdeal.τ).loc Cert.KernelIdeal.main_arg4)

/-- The first region's output array, viewed with five axes, is the reference's projected rows:
    entry (r, o) of the region's array is ∑ j, x (r, j) * w_qkv (o, j) + b_qkv o. -/
theorem rows_eq : Cert.KernelIdeal.Glue.rows5 (Cert.KernelIdeal.Glue.R0 m ρ c)
    = Cert.ReferenceIdeal.Read.val_main_v3 (F := Ideal) (a0 m c) (a1 m c) (a2 m c) := by
  refine Cert.Bridge.qkv_bridge (a0 m c) (a1 m c) (a2 m c) (Cert.KernelIdeal.Glue.R0 m ρ c) (fun r o => ?_)
  refine (Cert.KernelIdeal.Linear.region0_value (Cert.KernelIdeal.Gen.V1 m ρ) c r o).trans ?_
  rw [Cert.KernelIdeal.Glue.V1_v0, Cert.KernelIdeal.Glue.V1_v1, Cert.KernelIdeal.Glue.V1_v2]
  rfl

/-- The queries the attention region is entered with are the reference's queries. -/
theorem q_eq : (Cert.KernelIdeal.Gen.V3 m ρ c Cert.KernelIdeal.main_v9 : Cert.KernelIdeal.S8x4096x64.Idx → EReal)
    = Cert.ReferenceIdeal.Read.val_main_v8 (F := Ideal) (a0 m c) (a1 m c) (a2 m c) := by
  refine (Cert.KernelIdeal.Glue.V3_v9 m ρ c).trans ?_
  refine (congrArg (fun z => Cert.KernelIdeal.Glue.headsQ (Cert.KernelIdeal.Glue.heads z)) (rows_eq m ρ c)).trans ?_
  exact (Cert.Bridge.v8_eq _ _ _).symm

/-- The keys likewise. -/
theorem k_eq : (Cert.KernelIdeal.Gen.V3 m ρ c Cert.KernelIdeal.main_v11 : Cert.KernelIdeal.S8x4096x64.Idx → EReal)
    = Cert.ReferenceIdeal.Read.val_main_v10 (F := Ideal) (a0 m c) (a1 m c) (a2 m c) := by
  refine (Cert.KernelIdeal.Glue.V3_v11 m ρ c).trans ?_
  refine (congrArg (fun z => Cert.KernelIdeal.Glue.headsK (Cert.KernelIdeal.Glue.heads z)) (rows_eq m ρ c)).trans ?_
  exact (Cert.Bridge.v10_eq _ _ _).symm

/-- The values likewise. -/
theorem v_eq : (Cert.KernelIdeal.Gen.V3 m ρ c Cert.KernelIdeal.main_v13 : Cert.KernelIdeal.S8x4096x64.Idx → EReal)
    = Cert.ReferenceIdeal.Read.val_main_v12 (F := Ideal) (a0 m c) (a1 m c) (a2 m c) := by
  refine (Cert.KernelIdeal.Glue.V3_v13 m ρ c).trans ?_
  refine (congrArg (fun z => Cert.KernelIdeal.Glue.headsV (Cert.KernelIdeal.Glue.heads z)) (rows_eq m ρ c)).trans ?_
  exact (Cert.Bridge.v12_eq _ _ _).symm

/-- Finite inputs: every entry of x, w_qkv and b_qkv is a real number. -/
theorem real_args (hpre : Cert.Pre_KernelIdeal m) :
    (∀ i, ∃ r : ℝ, a0 m c i = ((r : ℝ) : EReal)) ∧ (∀ i, ∃ r : ℝ, a1 m c i = ((r : ℝ) : EReal))
      ∧ (∀ i, ∃ r : ℝ, a2 m c i = ((r : ℝ) : EReal)) :=
  Cert.Pre_finite_inputs.Finite.real_of_pre _ _ _ _ _ (hpre c)

/-- An extended real that is a real number is the coercion of its real part. -/
theorem coe_toReal_of {x : EReal} (h : ∃ r : ℝ, x = ((r : ℝ) : EReal)) : x = ((x.toReal : ℝ) : EReal) := by
  obtain ⟨r, rfl⟩ := h
  rw [EReal.toReal_coe]

/-- The attention region's output array is the reference's attention output (already in the
    [head, feature, position] layout): at every (b, d, n) both are the softmax-weighted mean of
    column d of head b's values under query row n. -/
theorem attn_eq (hpre : Cert.Pre_KernelIdeal m) : (Cert.KernelIdeal.Glue.R1 m ρ c : Cert.KernelIdeal.S8x64x4096.Idx → EReal)
    = Cert.ReferenceIdeal.Read.val_main_v28 (F := Ideal) (a0 m c) (a1 m c) (a2 m c) := by
  obtain ⟨h0, h1, h2⟩ := real_args m c hpre
  have hq' : ∀ (b : Fin 8) (n : Fin 4096) (e : Fin 64), Cert.ReferenceIdeal.Read.val_main_v8 (F := Ideal) (a0 m c) (a1 m c) (a2 m c) (ix3 b n e)
      = (((Cert.ReferenceIdeal.Read.val_main_v8 (F := Ideal) (a0 m c) (a1 m c) (a2 m c) (ix3 b n e)).toReal : ℝ) : EReal) :=
    fun b n e => coe_toReal_of (Cert.Bridge.v8_real _ _ _ h0 h1 h2 _)
  have hk' : ∀ (b : Fin 8) (n : Fin 4096) (e : Fin 64), Cert.ReferenceIdeal.Read.val_main_v10 (F := Ideal) (a0 m c) (a1 m c) (a2 m c) (ix3 b n e)
      = (((Cert.ReferenceIdeal.Read.val_main_v10 (F := Ideal) (a0 m c) (a1 m c) (a2 m c) (ix3 b n e)).toReal : ℝ) : EReal) :=
    fun b n e => coe_toReal_of (Cert.Bridge.v10_real _ _ _ h0 h1 h2 _)
  have hv' : ∀ (b : Fin 8) (n : Fin 4096) (e : Fin 64), Cert.ReferenceIdeal.Read.val_main_v12 (F := Ideal) (a0 m c) (a1 m c) (a2 m c) (ix3 b n e)
      = (((Cert.ReferenceIdeal.Read.val_main_v12 (F := Ideal) (a0 m c) (a1 m c) (a2 m c) (ix3 b n e)).toReal : ℝ) : EReal) :=
    fun b n e => coe_toReal_of (Cert.Bridge.v12_real _ _ _ h0 h1 h2 _)
  funext i
  obtain ⟨b, d, n, rfl⟩ : ∃ (b : Fin 8) (d : Fin 64) (n : Fin 4096), i = ix3 b d n := ⟨i 0, i 1, i 2, eq_ix3 i⟩
  refine (Cert.KernelIdeal.Attention.region1_value (Cert.KernelIdeal.Gen.V3 m ρ) c _ _ _
    (fun b n e => (congrFun (q_eq m ρ c) (ix3 b n e)).trans (hq' b n e))
    (fun b n e => (congrFun (k_eq m ρ c) (ix3 b n e)).trans (hk' b n e))
    (fun b n e => (congrFun (v_eq m ρ c) (ix3 b n e)).trans (hv' b n e)) b d n).trans ?_
  exact (Cert.ReferenceIdeal.RefRead.ref_attn _ _ _ _ _ _ hq' hk' hv' b d n).symm

/-- The program's result buffer ends at the reference's result. -/
theorem result_eq (hpre : Cert.Pre_KernelIdeal m) :
    Cert.KernelIdeal.Gen.W7 m ρ c (Proc.devRef .tc Cert.KernelIdeal.main_v22)
      = Cert.ReferenceIdeal.Read.val_main_v35 (F := Ideal) (a0 m c) (a1 m c) (a2 m c) (a3 m c) (a4 m c) := by
  refine (Cert.KernelIdeal.Glue.W7_v22 m ρ c).trans ?_
  refine Eq.trans ?_ (Cert.Bridge.v35_eq _ _ _ _ _).symm
  refine congrArg (fun z => shapeCast Cert.KernelIdeal.S1x64x8x8x64 z Cert.KernelIdeal.Gen.shapeCasts_S1x4096x64_S1x64x8x8x64) ?_
  refine Cert.Bridge.proj_bridge _ _ _ _ _ (Cert.KernelIdeal.Glue.R2 m ρ c) (Cert.KernelIdeal.Glue.merged (Cert.KernelIdeal.Glue.R1 m ρ c)) ?_ (fun n c' => ?_)
  · refine Eq.trans ?_ (Cert.Bridge.v30_eq _ _ _).symm
    exact congrArg Cert.KernelIdeal.Glue.merged (attn_eq m ρ c hpre)
  · refine (Cert.KernelIdeal.Linear.region2_value (Cert.KernelIdeal.Gen.V5 m ρ) c n c').trans ?_
    rw [Cert.KernelIdeal.Glue.V5_v18, Cert.KernelIdeal.Glue.V5_v17, Cert.KernelIdeal.Glue.V5_v19]
    rfl

end Cert.Final

end
-- ==== Proof.lean ====
/-
  The certificate for a three-region attention kernel against its plain reference.

  The kernel's entry point is a linear layer (x · w_qkvᵀ + b_qkv, in blocks of 1024 rows), a
  re-laying of its output into per-head queries, keys and values, a blockwise attention with
  running maximum, sum and accumulator over four blocks of 1024 keys (scores multiplied by
  the reciprocal of the scale, named exactly 524288 / 11863283 = 1 / (11863283 / 2^19)), a
  re-laying, and a second linear layer (· w_projᵀ + b_proj, in blocks of 512 rows). The
  reference computes the same three functions directly (scores divided by 11863283 / 2^19,
  one maximum, one sum and one division per key).

  The three frames: the two kernel programs' by their pipelines' invariants; the reference's
  is its run with the result dropped. The one rewrite of the idealization names the
  reciprocal of the scale. The two idealized programs end with equal results: the kernel's
  result buffer is the fold of its segments over the launch memory, the reference's is its
  operations' composed term, and the two are equal (Final.lean) when the inputs are finite.
-/
import proofs.«175403_j47682726921138_2_alg».proof.Defs
import proofs.«175403_j47682726921138_2_alg».proof.Proof.Gen.Kernel
import proofs.«175403_j47682726921138_2_alg».proof.Proof.Gen.Kernel.Frame
import proofs.«175403_j47682726921138_2_alg».proof.Proof.Gen.KernelIdeal
import proofs.«175403_j47682726921138_2_alg».proof.Proof.Gen.KernelIdeal.Frame
import proofs.«175403_j47682726921138_2_alg».proof.Proof.Gen.ReferenceIdeal
import proofs.«175403_j47682726921138_2_alg».proof.Proof.Gen.Pre_finite_inputs
import proofs.«175403_j47682726921138_2_alg».proof.Proof.Gen.ReferenceIdeal.Run
import proofs.«175403_j47682726921138_2_alg».proof.Proof.Gen.ReferenceIdeal.Read
import proofs.«175403_j47682726921138_2_alg».proof.Proof.KernelRun
import proofs.«175403_j47682726921138_2_alg».proof.Proof.Final
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the constant 0x3D3504F3, the single-precision number
    nearest 1 / (11863283 / 2^19), is read as that reciprocal, 524288 / 11863283, exactly. -/
theorem preserves : Cert.preserves_Kernel_KernelIdeal :=
  IdealRules.named_const.statement Cert.KernelIdeal.κ "inv_scale" .f32 0x3D3504F3#32 ((524288 / 11863283 : ℝ) : EReal) rfl

/-- From memories agreeing on the arguments both idealized programs run, keep their arguments,
    and end with the same result array. -/
theorem algebraic : Cert.algebraic_KernelIdeal_ReferenceIdeal := by
  intro m ρ m' ρ' hpre hagree
  refine ⟨fun c => Cert.KernelIdeal.Gen.W7 m ρ c (Proc.devRef .tc Cert.KernelIdeal.main_v22),
    Cert.KernelIdeal.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1,
    (hagree c).2.2.2.1, (hagree c).2.2.2.2]
  exact (Cert.Final.result_eq m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
